-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256x128 .f32) (main_arg14 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128 .f32) (main_arg10 : FVec F S128 .f32) (main_arg11 : FVec F S128x256 .f32) (main_arg12 : FVec F S256 .f32) (main_arg13 : FVec F S256x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_arg14 main_v48 main_v49 main_v50

def fn_part1 {F : FTy → Type} [FloatOps F] (main_arg5 : FVec F S128x128 .f32) (main_arg6 : FVec F S128x128 .f32) (main_arg7 : FVec F S128 .f32) (main_arg8 : FVec F S128 .f32) (main_arg9 : FVec F S128 .f32) (main_arg10 : FVec F S128 .f32) (main_arg11 : FVec F S128x256 .f32) (main_arg12 : FVec F S256 .f32) (main_arg13 : FVec F S256x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x600000 32) (main_arg2 : FVec F S600000x128 .f32) (main_arg3 : FVec F S128x128 .f32) (main_arg4 : FVec F S128x128 .f32) (main_arg5 : FVec F S128x128 .f32) (main_arg6 : FVec F S128x128 .f32) (main_arg7 : FVec F S128 .f32) (main_arg8 : FVec F S128 .f32) (main_arg9 : FVec F S128 .f32) (main_arg10 : FVec F S128 .f32) (main_arg11 : FVec F S128x256 .f32) (main_arg12 : FVec F S256 .f32) (main_arg13 : FVec F S256x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x600000 : Shape := ⟨2, ![1, 600000]⟩
abbrev S600000 : Shape := ⟨1, ![600000]⟩
abbrev S128x384 : Shape := ⟨2, ![128, 384]⟩
abbrev S50000x384 : Shape := ⟨2, ![50000, 384]⟩
abbrev S2000x128 : Shape := ⟨2, ![2000, 128]⟩
abbrev S2000x384 : Shape := ⟨2, ![2000, 384]⟩
abbrev S50000x8x16 : Shape := ⟨3, ![50000, 8, 16]⟩
abbrev S6000x128 : Shape := ⟨2, ![6000, 128]⟩
abbrev S600000x8x16 : Shape := ⟨3, ![600000, 8, 16]⟩
abbrev S_ : Shape := ⟨0, ![]⟩
abbrev S600000x1 : Shape := ⟨2, ![600000, 1]⟩
abbrev S600000x8 : Shape := ⟨2, ![600000, 8]⟩
abbrev S1000x8x16 : Shape := ⟨3, ![1000, 8, 16]⟩
abbrev S1000x8 : Shape := ⟨2, ![1000, 8]⟩
abbrev S1000x8x1 : Shape := ⟨3, ![1000, 8, 1]⟩
abbrev S50000x8 : Shape := ⟨2, ![50000, 8]⟩
abbrev S50000x8x1 : Shape := ⟨3, ![50000, 8, 1]⟩
abbrev S1x128 : Shape := ⟨2, ![1, 128]⟩
abbrev S1x256 : Shape := ⟨2, ![1, 256]⟩
abbrev S2000x256 : Shape := ⟨2, ![2000, 256]⟩

abbrev nBuf : Space → Nat
  | .hbm => 142
  | .vmem => 44
  | .smem => 0
  | _ => 0

abbrev hbmTy0_0 (i : Nat) : BufTy := match i % 128 with
  | 0 => ⟨S50000x128, .f32⟩
  | 1 => ⟨S2x600000, .i32⟩
  | 2 => ⟨S600000x128, .f32⟩
  | 3 => ⟨S128x128, .f32⟩
  | 4 => ⟨S128x128, .f32⟩
  | 5 => ⟨S128x128, .f32⟩
  | 6 => ⟨S128x128, .f32⟩
  | 7 => ⟨S128, .f32⟩
  | 8 => ⟨S128, .f32⟩
  | 9 => ⟨S128, .f32⟩
  | 10 => ⟨S128, .f32⟩
  | 11 => ⟨S128x256, .f32⟩
  | 12 => ⟨S256, .f32⟩
  | 13 => ⟨S256x128, .f32⟩
  | 14 => ⟨S128, .f32⟩
  | 15 => ⟨S1x600000, .i32⟩
  | 16 => ⟨S600000, .i32⟩
  | 17 => ⟨S1x600000, .i32⟩
  | 18 => ⟨S600000, .i32⟩
  | 19 => ⟨S128x384, .f32⟩
  | 20 => ⟨S50000x384, .f32⟩
  | 21 => ⟨S50000x128, .f32⟩
  | 22 => ⟨S50000x8x16, .f32⟩
  | 23 => ⟨S50000x128, .f32⟩
  | 24 => ⟨S50000x8x16, .f32⟩
  | 25 => ⟨S50000x128, .f32⟩
  | 26 => ⟨S50000x8x16, .f32⟩
  | 27 => ⟨S600000x128, .f32⟩
  | 28 => ⟨S600000x8x16, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x8x16, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x8x16, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x8x16, .f32⟩
  | 56 => ⟨S600000x8, .f32⟩
  | 57 => ⟨S600000x8x16, .f32⟩
  | 58 => ⟨S_, .f32⟩
  | 59 => ⟨S50000x8x16, .f32⟩
  | 60 => ⟨S600000x1, .i32⟩
  | 61 => ⟨S50000x8x16, .f32⟩
  | 62 => ⟨S_, .f32⟩
  | 63 => ⟨S50000x8, .f32⟩
  | 64 => ⟨S600000x1, .i32⟩
  | 65 => ⟨S50000x8, .f32⟩
  | 66 => ⟨S50000x8x1, .f32⟩
  | 67 => ⟨S_, .f32⟩
  | 68 => ⟨S50000x8x1, .f32⟩
  | 69 => ⟨S50000x8x1, .f32⟩
  | 70 => ⟨S50000x8x16, .f32⟩
  | 71 => ⟨S50000x8x16, .f32⟩
  | 72 => ⟨S50000x128, .f32⟩
  | 73 => ⟨S50000x128, .f32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S1x128, .f32⟩
  | 96 => ⟨S1x128, .f32⟩
  | 97 => ⟨S1x128, .f32⟩
  | 98 => ⟨S_, .f32⟩
  | 99 => ⟨S_, .i1⟩
  | 100 => ⟨S_, .f32⟩
  | 101 => ⟨S_, .f32⟩
  | 102 => ⟨S1x128, .f32⟩
  | 103 => ⟨S1x128, .f32⟩
  | 104 => ⟨S1x128, .f32⟩
  | 105 => ⟨S1x128, .f32⟩
  | 106 => ⟨S1x256, .f32⟩
  | 107 => ⟨S1x128, .f32⟩
  | 108 => ⟨S50000x128, .f32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S_, .i32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S50000x128, .f32⟩
  | 123 => ⟨S50000x128, .f32⟩
  | 124 => ⟨S50000x128, .f32⟩
  | 125 => ⟨S_, .f32⟩
  | 126 => ⟨S_, .f32⟩
  | 127 => ⟨S_, .f32⟩
  | _ => ⟨S50000x128, .f32⟩

abbrev hbmTy0_1 (i : Nat) : BufTy := match i % 128 with
  | 0 => ⟨S_, .f32⟩
  | 1 => ⟨S128, .f32⟩
  | 2 => ⟨S1x128, .f32⟩
  | 3 => ⟨S1x128, .f32⟩
  | 4 => ⟨S1x128, .f32⟩
  | 5 => ⟨S_, .f32⟩
  | 6 => ⟨S_, .i1⟩
  | 7 => ⟨S_, .f32⟩
  | 8 => ⟨S_, .f32⟩
  | 9 => ⟨S1x128, .f32⟩
  | 10 => ⟨S1x128, .f32⟩
  | 11 => ⟨S1x128, .f32⟩
  | 12 => ⟨S1x128, .f32⟩
  | 13 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S2000x384, .f32⟩
  | .local _ .vmem, ⟨4, _⟩ => ⟨S2000x384, .f32⟩
  | .local _ .vmem, ⟨5, _⟩ => ⟨S6000x128, .f32⟩
  | .local _ .vmem, ⟨6, _⟩ => ⟨S6000x128, .f32⟩
  | .local _ .vmem, ⟨7, _⟩ => ⟨S128x128, .f32⟩
  | .local _ .vmem, ⟨8, _⟩ => ⟨S6000x128, .f32⟩
  | .local _ .vmem, ⟨9, _⟩ => ⟨S6000x128, .f32⟩
  | .local _ .vmem, ⟨10, _⟩ => ⟨S1000x8x16, .f32⟩
  | .local _ .vmem, ⟨11, _⟩ => ⟨S1000x8x16, .f32⟩
  | .local _ .vmem, ⟨12, _⟩ => ⟨S1000x8x16, .f32⟩
  | .local _ .vmem, ⟨13, _⟩ => ⟨S1000x8x16, .f32⟩
  | .local _ .vmem, ⟨14, _⟩ => ⟨S1000x8x16, .f32⟩
  | .local _ .vmem, ⟨15, _⟩ => ⟨S1000x8x16, .f32⟩
  | .local _ .vmem, ⟨16, _⟩ => ⟨S1000x8x16, .f32⟩
  | .local _ .vmem, ⟨17, _⟩ => ⟨S1000x8x16, .f32⟩
  | .local _ .vmem, ⟨18, _⟩ => ⟨S1000x8, .f32⟩
  | .local _ .vmem, ⟨19, _⟩ => ⟨S1000x8, .f32⟩
  | .local _ .vmem, ⟨20, _⟩ => ⟨S1000x8x16, .f32⟩
  | .local _ .vmem, ⟨21, _⟩ => ⟨S1000x8x16, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S128x256, .f32⟩
  | .local _ .vmem, ⟨31, _⟩ => ⟨S1x256, .f32⟩
  | .local _ .vmem, ⟨32, _⟩ => ⟨S256x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_cst : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_cst_2 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_v12 : Ref sig .tc := ⟨.hbm, 97, rfl⟩
abbrev main_call0_cst_3 : Ref sig .tc := ⟨.hbm, 98, rfl⟩
abbrev main_call0_v13 : Ref sig .tc := ⟨.hbm, 99, rfl⟩
abbrev main_call0_cst_4 : Ref sig .tc := ⟨.hbm, 100, rfl⟩
abbrev main_call0_call0_v0 : Ref sig .tc := ⟨.hbm, 101, rfl⟩
abbrev main_call0_call0_v1 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_10 : Ref sig .tc := ⟨.hbm, 109, rfl⟩
abbrev main_v59 : Ref sig .tc := ⟨.hbm, 110, rfl⟩
abbrev main_v60 : Ref sig .tc := ⟨.hbm, 111, rfl⟩
abbrev main_cst_11 : Ref sig .tc := ⟨.hbm, 112, rfl⟩
abbrev main_v61 : Ref sig .tc := ⟨.hbm, 113, rfl⟩
abbrev main_v62 : Ref sig .tc := ⟨.hbm, 114, rfl⟩
abbrev main_c_12 : Ref sig .tc := ⟨.hbm, 115, rfl⟩
abbrev main_call1_cst : Ref sig .tc := ⟨.hbm, 116, rfl⟩
abbrev main_call1_v0 : Ref sig .tc := ⟨.hbm, 117, rfl⟩
abbrev main_call1_v1 : Ref sig .tc := ⟨.hbm, 118, rfl⟩
abbrev main_call1_cst_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_v6 : Ref sig .tc := ⟨.hbm, 124, rfl⟩
abbrev main_call1_v7 : Ref sig .tc := ⟨.hbm, 125, rfl⟩
abbrev main_call1_cst_1 : Ref sig .tc := ⟨.hbm, 126, rfl⟩
abbrev main_call1_v8 : Ref sig .tc := ⟨.hbm, 127, rfl⟩
abbrev main_call1_cst_2 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_v12 : Ref sig .tc := ⟨.hbm, 132, rfl⟩
abbrev main_call1_cst_3 : Ref sig .tc := ⟨.hbm, 133, rfl⟩
abbrev main_call1_v13 : Ref sig .tc := ⟨.hbm, 134, rfl⟩
abbrev main_call1_cst_4 : Ref sig .tc := ⟨.hbm, 135, rfl⟩
abbrev main_call1_call0_v0 : Ref sig .tc := ⟨.hbm, 136, rfl⟩
abbrev main_call1_call0_v1 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg10_0 : Ref sig .tc := ⟨.vmem, 34, rfl⟩
abbrev cc3_stg10_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33
abbrev cc3_sem10_0 : DmaSem sig := 34
abbrev cc3_sem10_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![600], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x8x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x8x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x8x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x8x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x8x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S128x128_S128x128_S128x128_S128x384_d1 : Shape.Concatenates [S128x128, S128x128, S128x128] S128x384 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S2000x384_S2000x384_0_0 : ∀ a, (![0, 0] : Fin 2 → Nat) a + S2000x384.size a ≤ S2000x384.size a
  h_S2000x384 : 0 < S2000x384.numel
  slices_S50000x384_S50000x128_0_0 : S50000x384.Slices ![0, 0] S50000x128
  shapeCasts_S50000x128_S50000x8x16 : S50000x128.ShapeCasts S50000x8x16
  slices_S50000x384_S50000x128_0_128 : S50000x384.Slices ![0, 128] S50000x128
  slices_S50000x384_S50000x128_0_256 : S50000x384.Slices ![0, 256] S50000x128
  inb_S6000x128_S6000x128_0_0 : ∀ a, (![0, 0] : Fin 2 → Nat) a + S6000x128.size a ≤ S6000x128.size a
  h_S6000x128 : 0 < S6000x128.numel
  inb_S128x128_S128x128_0_0 : ∀ a, (![0, 0] : Fin 2 → Nat) a + S128x128.size a ≤ S128x128.size a
  h_S128x128 : 0 < S128x128.numel
  shapeCasts_S600000x128_S600000x8x16 : S600000x128.ShapeCasts S600000x8x16
  bcast_S_S600000 : S_.BroadcastsInDim S600000 (![] : Fin 0 → Fin S600000.rank)
  bcast_S600000_S600000x1_0 : S600000.BroadcastsInDim S600000x1 (![0] : Fin 1 → Fin S600000x1.rank)
  inb_S1000x8x16_S1000x8x16_0_0_0 : ∀ a, (![0, 0, 0] : Fin 3 → Nat) a + S1000x8x16.size a ≤ S1000x8x16.size a
  h_S1000x8x16 : 0 < S1000x8x16.numel
  shapeCasts_S1000x8x16_S1000x8x16 : S1000x8x16.ShapeCasts S1000x8x16
  reduces_S1000x8x16_S1000x8 : S1000x8x16.Reduces [2] S1000x8
  inb_S1000x8_S1000x8_0_0 : ∀ a, (![0, 0] : Fin 2 → Nat) a + S1000x8.size a ≤ S1000x8.size a
  h_S1000x8 : 0 < S1000x8.numel
  shapeCasts_S1000x8_S1000x8x1 : S1000x8.ShapeCasts S1000x8x1
  broadcasts_S1000x8x1_S1000x8x16 : S1000x8x1.Broadcasts S1000x8x16
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S128_S1x128 : S128.ShapeCasts S1x128
  shapeCasts_S256_S1x256 : S256.ShapeCasts S1x256
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  dot_S2000x128_S128x384_S2000x384_1_0_0_1_n_n_wf : DotDims.WF S2000x128 S128x384 S2000x384 [1] [0] [0] [1] [] []
  dot_S6000x128_S128x128_S6000x128_1_0_0_1_n_n_wf : DotDims.WF S6000x128 S128x128 S6000x128 [1] [0] [0] [1] [] []
  gather_S50000x8x16_S600000x1_S600000x8x16_12_0_n_n_0_1_1816_wf : GatherDims.WF S50000x8x16 S600000x1 S600000x8x16 [1, 2] [0] [] [0] [] 1 ![1, 8, 16]
  scatter_S50000x8x16_S600000x1_S600000x8x16_12_0_0_1_wf : ScatterDims.WF S50000x8x16 S600000x1 S600000x8x16 [1, 2] [0] [0] 1
  scatter_S50000x8_S600000x1_S600000x8_1_0_0_1_wf : ScatterDims.WF S50000x8 S600000x1 S600000x8 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x384.size a ≤ S50000x384.size a
  hwx0_2 : ∀ i : grid0.Coords, EltTy.bits .f32 = 32 ∨ (Rect.block (s := S50000x384) S2000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .f32 = 32 ∨ (Rect.block (s := S600000x128) S6000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x128.size a ≤ S600000x128.size a
  hwx1_2 : ∀ i : grid1.Coords, EltTy.bits .f32 = 32 ∨ (Rect.block (s := S600000x128) S6000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x8x16.size a ≤ S600000x8x16.size a
  hwx2_0 : ∀ i : grid2.Coords, EltTy.bits .f32 = 32 ∨ (Rect.block (s := S600000x8x16) S1000x8x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x8x16.size a ≤ S600000x8x16.size a
  hwx2_1 : ∀ i : grid2.Coords, EltTy.bits .f32 = 32 ∨ (Rect.block (s := S600000x8x16) S1000x8x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x8x16.size a ≤ S600000x8x16.size a
  hwx2_2 : ∀ i : grid2.Coords, EltTy.bits .f32 = 32 ∨ (Rect.block (s := S600000x8x16) S1000x8x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x8x16.size a ≤ S600000x8x16.size a
  hwx2_3 : ∀ i : grid2.Coords, EltTy.bits .f32 = 32 ∨ (Rect.block (s := S600000x8x16) S1000x8x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x8.size a ≤ S600000x8.size a
  hwx2_4 : ∀ i : grid2.Coords, EltTy.bits .f32 = 32 ∨ (Rect.block (s := S600000x8) S1000x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x8x16.size a ≤ S600000x8x16.size a
  hwx2_5 : ∀ i : grid2.Coords, EltTy.bits .f32 = 32 ∨ (Rect.block (s := S600000x8x16) S1000x8x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x256.size a ≤ S128x256.size a
  hwx3_6 : ∀ i : grid3.Coords, EltTy.bits .f32 = 32 ∨ (Rect.block (s := S128x256) S128x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x128.size a ≤ S256x128.size a
  hwx3_8 : ∀ i : grid3.Coords, EltTy.bits .f32 = 32 ∨ (Rect.block (s := S256x128) S256x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S50000x128.size a
  hwx3_10 : ∀ i : grid3.Coords, EltTy.bits .f32 = 32 ∨ (Rect.block (s := S50000x128) S2000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def gather_S50000x8x16_S600000x1_S600000x8x16_12_0_n_n_0_1_1816 : GatherDims S50000x8x16 S600000x1 S600000x8x16 where
  offsetDims := [1, 2]
  collapsedSliceDims := [0]
  operandBatchingDims := []
  startIndicesBatchingDims := []
  startIndexMap := [0]
  indexVectorDim := 1
  sliceSizes := ![1, 8, 16]
  wf := gather_S50000x8x16_S600000x1_S600000x8x16_12_0_n_n_0_1_1816_wf
def scatter_S50000x8x16_S600000x1_S600000x8x16_12_0_0_1 : ScatterDims S50000x8x16 S600000x1 S600000x8x16 where
  updateWindowDims := [1, 2]
  insertedWindowDims := [0]
  scatterDimsToOperandDims := [0]
  indexVectorDim := 1
  wf := scatter_S50000x8x16_S600000x1_S600000x8x16_12_0_0_1_wf
def scatter_S50000x8_S600000x1_S600000x8_1_0_0_1 : ScatterDims S50000x8 S600000x1 S600000x8 where
  updateWindowDims := [1]
  insertedWindowDims := [0]
  scatterDimsToOperandDims := [0]
  indexVectorDim := 1
  wf := scatter_S50000x8_S600000x1_S600000x8_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S6000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S1000x8x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1000x8x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1000x8x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1000x8x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35_0) S1000x8.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v35_1) S1000x8x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S128x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v56) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg13) S256x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v57) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v58) S2000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v58) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x600000 : Shape := ⟨2, ![1, 600000]⟩
abbrev S600000 : Shape := ⟨1, ![600000]⟩
abbrev S50000x8x16 : Shape := ⟨3, ![50000, 8, 16]⟩
abbrev S600000x8x16 : Shape := ⟨3, ![600000, 8, 16]⟩
abbrev S_ : Shape := ⟨0, ![]⟩
abbrev S600000x1 : Shape := ⟨2, ![600000, 1]⟩
abbrev S600000x8 : Shape := ⟨2, ![600000, 8]⟩
abbrev S600000x8x1 : Shape := ⟨3, ![600000, 8, 1]⟩
abbrev S50000x8 : Shape := ⟨2, ![50000, 8]⟩
abbrev S50000x8x1 : Shape := ⟨3, ![50000, 8, 1]⟩
abbrev S1x128 : Shape := ⟨2, ![1, 128]⟩
abbrev S50000x256 : Shape := ⟨2, ![50000, 256]⟩
abbrev S1x256 : Shape := ⟨2, ![1, 256]⟩

abbrev nBuf : Space → Nat
  | .hbm => 189
  | .vmem => 0
  | .smem => 0
  | _ => 0

abbrev hbmTy0_0 (i : Nat) : BufTy := match i % 128 with
  | 0 => ⟨S50000x128, .f32⟩
  | 1 => ⟨S2x600000, .i32⟩
  | 2 => ⟨S600000x128, .f32⟩
  | 3 => ⟨S128x128, .f32⟩
  | 4 => ⟨S128x128, .f32⟩
  | 5 => ⟨S128x128, .f32⟩
  | 6 => ⟨S128x128, .f32⟩
  | 7 => ⟨S128, .f32⟩
  | 8 => ⟨S128, .f32⟩
  | 9 => ⟨S128, .f32⟩
  | 10 => ⟨S128, .f32⟩
  | 11 => ⟨S128x256, .f32⟩
  | 12 => ⟨S256, .f32⟩
  | 13 => ⟨S256x128, .f32⟩
  | 14 => ⟨S128, .f32⟩
  | 15 => ⟨S1x600000, .i32⟩
  | 16 => ⟨S600000, .i32⟩
  | 17 => ⟨S1x600000, .i32⟩
  | 18 => ⟨S600000, .i32⟩
  | 19 => ⟨S50000x128, .f32⟩
  | 20 => ⟨S50000x8x16, .f32⟩
  | 21 => ⟨S50000x128, .f32⟩
  | 22 => ⟨S50000x8x16, .f32⟩
  | 23 => ⟨S50000x128, .f32⟩
  | 24 => ⟨S50000x8x16, .f32⟩
  | 25 => ⟨S600000x128, .f32⟩
  | 26 => ⟨S600000x8x16, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x8x16, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x8x16, .f32⟩
  | 45 => ⟨S600000x8x16, .f32⟩
  | 46 => ⟨S_, .f32⟩
  | 47 => ⟨S600000x8x16, .f32⟩
  | 48 => ⟨S600000x8x16, .f32⟩
  | 49 => ⟨S600000x8x16, .f32⟩
  | 50 => ⟨S_, .f32⟩
  | 51 => ⟨S600000x8, .f32⟩
  | 52 => ⟨S_, .f32⟩
  | 53 => ⟨S_, .f32⟩
  | 54 => ⟨S_, .f32⟩
  | 55 => ⟨S600000x8, .f32⟩
  | 56 => ⟨S600000x8, .f32⟩
  | 57 => ⟨S_, .f32⟩
  | 58 => ⟨S600000x8, .f32⟩
  | 59 => ⟨S600000x8, .f32⟩
  | 60 => ⟨S600000x8, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x8x16, .f32⟩
  | 70 => ⟨S600000x8x1, .f32⟩
  | 71 => ⟨S600000x8x16, .f32⟩
  | 72 => ⟨S600000x8x16, .f32⟩
  | 73 => ⟨S_, .f32⟩
  | 74 => ⟨S50000x8x16, .f32⟩
  | 75 => ⟨S600000x1, .i32⟩
  | 76 => ⟨S50000x8x16, .f32⟩
  | 77 => ⟨S_, .f32⟩
  | 78 => ⟨S50000x8, .f32⟩
  | 79 => ⟨S600000x1, .i32⟩
  | 80 => ⟨S50000x8, .f32⟩
  | 81 => ⟨S50000x8x1, .f32⟩
  | 82 => ⟨S_, .f32⟩
  | 83 => ⟨S50000x8x1, .f32⟩
  | 84 => ⟨S50000x8x1, .f32⟩
  | 85 => ⟨S50000x8x16, .f32⟩
  | 86 => ⟨S50000x8x16, .f32⟩
  | 87 => ⟨S50000x128, .f32⟩
  | 88 => ⟨S50000x128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S50000x256, .f32⟩
  | 6 => ⟨S1x256, .f32⟩
  | 7 => ⟨S50000x256, .f32⟩
  | 8 => ⟨S50000x256, .f32⟩
  | 9 => ⟨S_, .f32⟩
  | 10 => ⟨S50000x256, .f32⟩
  | 11 => ⟨S50000x256, .f32⟩
  | 12 => ⟨S50000x128, .f32⟩
  | 13 => ⟨S1x128, .f32⟩
  | 14 => ⟨S50000x128, .f32⟩
  | 15 => ⟨S50000x128, .f32⟩
  | 16 => ⟨S50000x128, .f32⟩
  | 17 => ⟨S_, .f32⟩
  | 18 => ⟨S128, .f32⟩
  | 19 => ⟨S_, .f32⟩
  | 20 => ⟨S128, .f32⟩
  | 21 => ⟨S128, .f32⟩
  | 22 => ⟨S_, .i32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S50000x128, .f32⟩
  | 30 => ⟨S50000x128, .f32⟩
  | 31 => ⟨S50000x128, .f32⟩
  | 32 => ⟨S_, .f32⟩
  | 33 => ⟨S_, .f32⟩
  | 34 => ⟨S_, .f32⟩
  | 35 => ⟨S_, .f32⟩
  | 36 => ⟨S128, .f32⟩
  | 37 => ⟨S128, .f32⟩
  | 38 => ⟨S128, .f32⟩
  | 39 => ⟨S_, .f32⟩
  | 40 => ⟨S_, .i1⟩
  | 41 => ⟨S_, .f32⟩
  | 42 => ⟨S_, .f32⟩
  | 43 => ⟨S128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_cst_4 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_c_13 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_cst_1 : Ref sig .tc := ⟨.hbm, 105, rfl⟩
abbrev main_call1_v8 : Ref sig .tc := ⟨.hbm, 106, rfl⟩
abbrev main_call1_cst_2 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_cst_3 : Ref sig .tc := ⟨.hbm, 111, rfl⟩
abbrev main_call1_v12 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_cst_14 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_call2_cst : Ref sig .tc := ⟨.hbm, 137, rfl⟩
abbrev main_call2_v0 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_cst_15 : Ref sig .tc := ⟨.hbm, 145, rfl⟩
abbrev main_v85 : Ref sig .tc := ⟨.hbm, 146, rfl⟩
abbrev main_cst_16 : Ref sig .tc := ⟨.hbm, 147, rfl⟩
abbrev main_v86 : Ref sig .tc := ⟨.hbm, 148, rfl⟩
abbrev main_v87 : Ref sig .tc := ⟨.hbm, 149, rfl⟩
abbrev main_c_17 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_cst_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_v7 : Ref sig .tc := ⟨.hbm, 160, rfl⟩
abbrev main_call3_cst_1 : Ref sig .tc := ⟨.hbm, 161, rfl⟩
abbrev main_call3_v8 : Ref sig .tc := ⟨.hbm, 162, rfl⟩
abbrev main_call3_cst_2 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_cst_3 : Ref sig .tc := ⟨.hbm, 167, rfl⟩
abbrev main_call3_v12 : Ref sig .tc := ⟨.hbm, 168, rfl⟩
abbrev main_call3_cst_4 : Ref sig .tc := ⟨.hbm, 169, rfl⟩
abbrev main_call3_call0_v0 : Ref sig .tc := ⟨.hbm, 170, rfl⟩
abbrev main_call3_call0_v1 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_cst_18 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S50000x128_S50000x8x16 : S50000x128.ShapeCasts S50000x8x16
  shapeCasts_S600000x128_S600000x8x16 : S600000x128.ShapeCasts S600000x8x16
  bcast_S_S600000 : S_.BroadcastsInDim S600000 (![] : Fin 0 → Fin S600000.rank)
  bcast_S600000_S600000x1_0 : S600000.BroadcastsInDim S600000x1 (![0] : Fin 1 → Fin S600000x1.rank)
  bcast_S_S600000x8x16 : S_.BroadcastsInDim S600000x8x16 (![] : Fin 0 → Fin S600000x8x16.rank)
  reducesTo_S600000x8x16_S600000x8_d2 : S600000x8x16.ReducesTo [2] S600000x8
  h_S_ : 0 < S_.numel
  bcast_S_S600000x8 : S_.BroadcastsInDim S600000x8 (![] : Fin 0 → Fin S600000x8.rank)
  bcast_S600000x8_S600000x8x1_0_1 : S600000x8.BroadcastsInDim S600000x8x1 (![0, 1] : Fin 2 → Fin S600000x8x1.rank)
  bcast_S600000x8x1_S600000x8x16_0_1_2 : S600000x8x1.BroadcastsInDim S600000x8x16 (![0, 1, 2] : Fin 3 → Fin S600000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []
  gather_S50000x8x16_S600000x1_S600000x8x16_12_0_n_n_0_1_1816_wf : GatherDims.WF S50000x8x16 S600000x1 S600000x8x16 [1, 2] [0] [] [0] [] 1 ![1, 8, 16]
  scatter_S50000x8x16_S600000x1_S600000x8x16_12_0_0_1_wf : ScatterDims.WF S50000x8x16 S600000x1 S600000x8x16 [1, 2] [0] [0] 1
  scatter_S50000x8_S600000x1_S600000x8_1_0_0_1_wf : ScatterDims.WF S50000x8 S600000x1 S600000x8 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x8x16_S600000x1_S600000x8x16_12_0_n_n_0_1_1816 : GatherDims S50000x8x16 S600000x1 S600000x8x16 where
  offsetDims := [1, 2]
  collapsedSliceDims := [0]
  operandBatchingDims := []
  startIndicesBatchingDims := []
  startIndexMap := [0]
  indexVectorDim := 1
  sliceSizes := ![1, 8, 16]
  wf := gather_S50000x8x16_S600000x1_S600000x8x16_12_0_n_n_0_1_1816_wf
def scatter_S50000x8x16_S600000x1_S600000x8x16_12_0_0_1 : ScatterDims S50000x8x16 S600000x1 S600000x8x16 where
  updateWindowDims := [1, 2]
  insertedWindowDims := [0]
  scatterDimsToOperandDims := [0]
  indexVectorDim := 1
  wf := scatter_S50000x8x16_S600000x1_S600000x8x16_12_0_0_1_wf
def scatter_S50000x8_S600000x1_S600000x8_1_0_0_1 : ScatterDims S50000x8 S600000x1 S600000x8 where
  updateWindowDims := [1]
  insertedWindowDims := [0]
  scatterDimsToOperandDims := [0]
  indexVectorDim := 1
  wf := scatter_S50000x8_S600000x1_S600000x8_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.K.Region0.lean ====
/-
  Region 0 of the pipeline: the fused projection  x · [W_Q | W_K | W_V]  over f32[50000, 128] × f32[128, 384], 25 grid points.
  At grid point t the body reads rows [2000 t, 2000 (t+1)) of x (window 0), the whole weight matrix (window 1, whose block never
  moves) and leaves in the output window's buffer (window 2) the 2000 × 384 product of the two, each operand first rounded to
  bf16, accumulated from zero. Everything here is stated at a parameter V: the buffers' contents when the region is entered.
-/
import proofs.«116564_j90065464197253_2_alg».proof.Proof.Gen.Kernel.Launch
import proofs.«116564_j90065464197253_2_alg».proof.Proof.Gen.Kernel.Skeleton
import proofs.«116564_j90065464197253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x the body is handed at t are the block of x there, whether or not a transfer brought them at t. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix the body is handed at t is the whole matrix: it is brought once, and its block index never moves. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

abbrev rX0 : Rect S2000x128 := Rect.unit (s := S2000x128) ![0, 0] S2000x128.size inb_S2000x128_S2000x128_0_0
abbrev rW0 : Rect S128x384 := Rect.unit (s := S128x384) ![0, 0] S128x384.size inb_S128x384_S128x384_0_0
abbrev rO0 : Rect S2000x384 := Rect.unit (s := S2000x384) ![0, 0] S2000x384.size inb_S2000x384_S2000x384_0_0

/-- What the body leaves in the output window's buffer, from the rows of x and the weights it was handed: its one store, of the
    product, over the whole buffer. -/
def proj0 (x0 : Vec F S2000x128 .f32) (x1 : Vec F S128x384 .f32) : Vec F S2000x384 .f32 :=
  View.canon [⟨rO0, k0_pay1 (View.ld x0 rX0) (View.ld x1 rW0)⟩]

/-- The one store covers the buffer. -/
theorem cover0 (p0 : Vec F S2000x384 .f32) (y : S2000x384.Idx) :
    ∃ pc ∈ ([⟨rO0, p0⟩] : List (View.Piece (Elt F) S2000x384 .f32)), y ∈ pc.1.set :=
  View.cover_of_tiled [⟨rO0, p0⟩] S2000x384.size (by rfl) y

set_option maxHeartbeats 1000000 in
/-- The body on whole staging buffers: the two inputs keep what they hold, the output ends at the product. -/
theorem sound_kernel0 (c : Dev nD) (E : Set ℕ) (i : grid0.Coords)
    (arg1 : Memref sig .tc .vmem S2000x128 .f32) (harg1 : arg1.IsWhole) (arg2 : Memref sig .tc .vmem S128x384 .f32) (harg2 : arg2.IsWhole)
    (arg3 : Memref sig .tc .vmem S2000x384 .f32) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (proj0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of the region on core c: the arrays as the region finds them; after the body at t the two input buffers hold
    their blocks and the output buffer the product of the two; nothing is owed and the invariant is the scoped rest, untouched. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => proj0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = proj0 (blk0 V c 0 t) (blk0 V c 1 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the pipeline: the edge projection  edge_attr · W_E  over f32[600000, 128] × f32[128, 128], 100 grid points.
  At grid point t the body reads rows [6000 t, 6000 (t+1)) of edge_attr (window 0), the whole weight matrix (window 1, whose block
  never moves) and leaves in the output window's buffer (window 2) their 6000 × 128 product, each operand first rounded to bf16,
  accumulated from zero. Stated at a parameter V: the buffers' contents when the region is entered.
-/
import proofs.«116564_j90065464197253_2_alg».proof.Proof.Gen.Kernel.Launch
import proofs.«116564_j90065464197253_2_alg».proof.Proof.Gen.Kernel.Skeleton
import proofs.«116564_j90065464197253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer the body is handed at t holds the window's block there, whether or not a transfer brought it at t (rows of edge_attr). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The buffer the body is handed at t holds the whole (one-block) array: it is brought once, and its block index never moves (the weights W_E). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

abbrev r1_0 : Rect S6000x128 := Rect.unit (s := S6000x128) ![0, 0] S6000x128.size inb_S6000x128_S6000x128_0_0
abbrev r1_1 : Rect S128x128 := Rect.unit (s := S128x128) ![0, 0] S128x128.size inb_S128x128_S128x128_0_0
abbrev r1_2 : Rect S6000x128 := Rect.unit (s := S6000x128) ![0, 0] S6000x128.size inb_S6000x128_S6000x128_0_0

/-- What the body leaves in the output window's buffer, from the rows of edge_attr and the weights it was handed: its one store, of their product, over the whole buffer. -/
def proj1 (x0 : Vec F S6000x128 .f32) (x1 : Vec F S128x128 .f32) : Vec F S6000x128 .f32 :=
  View.canon [⟨r1_2, k1_pay1 (View.ld x0 r1_0) (View.ld x1 r1_1)⟩]

/-- The one store into that buffer covers it. -/
theorem cover1_2 (p0 : Vec F S6000x128 .f32) (y : S6000x128.Idx) :
    ∃ pc ∈ ([⟨r1_2, p0⟩] : List (View.Piece (Elt F) S6000x128 .f32)), y ∈ pc.1.set :=
  View.cover_of_tiled [⟨r1_2, p0⟩] S6000x128.size (by rfl) y

set_option maxHeartbeats 4000000 in
/-- The body on whole staging buffers: every input keeps what it holds, every output ends at its value above. -/
theorem sound_kernel1 (c : Dev nD) (E : Set ℕ) (i : grid1.Coords)
    (arg1 : Memref sig .tc .vmem S6000x128 .f32) (harg1 : arg1.IsWhole) (arg2 : Memref sig .tc .vmem S128x128 .f32) (harg2 : arg2.IsWhole) (arg3 : Memref sig .tc .vmem S6000x128 .f32) (harg3 : arg3.IsWhole)
    (x0 : Vec F S6000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (proj1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core c: the arrays as the region finds them; after the body at t every input buffer holds its
    block and every output buffer its value above, of the input blocks at t; nothing is owed and the invariant is the scoped rest,
    untouched. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => proj1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = proj1 (blk1 V c 0 t) (blk1 V c 1 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
/-- The body at any point: the inputs' buffers hold their blocks, so the body's run applies; the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the pipeline: the per-edge attention weights and messages, 600 grid points of 1000 edges each.
  At grid point t the body reads the blocks [1000 t, 1000 (t+1)) of the gathered keys K[src], queries Q[dst], values V[src] and of the
  projected edge features Eh (windows 0–3, each 1000 × 8 × 16) and leaves in window 4 the weights  s = exp(clip(Σ_d k·q·¼·eh, −5, 5))
  (1000 × 8) and in window 5 the messages  v · s  (1000 × 8 × 16). Stated at a parameter V: the buffers' contents when the region
  is entered.
-/
import proofs.«116564_j90065464197253_2_alg».proof.Proof.Gen.Kernel.Launch
import proofs.«116564_j90065464197253_2_alg».proof.Proof.Gen.Kernel.Skeleton
import proofs.«116564_j90065464197253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffer the body is handed at t holds the window's block there, whether or not a transfer brought it at t (gathered keys). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The buffer the body is handed at t holds the window's block there, whether or not a transfer brought it at t (gathered queries). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The buffer the body is handed at t holds the window's block there, whether or not a transfer brought it at t (gathered values). -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The buffer the body is handed at t holds the window's block there, whether or not a transfer brought it at t (projected edge features). -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

abbrev r2_0 : Rect S1000x8x16 := Rect.unit (s := S1000x8x16) ![0, 0, 0] S1000x8x16.size inb_S1000x8x16_S1000x8x16_0_0_0
abbrev r2_1 : Rect S1000x8x16 := Rect.unit (s := S1000x8x16) ![0, 0, 0] S1000x8x16.size inb_S1000x8x16_S1000x8x16_0_0_0
abbrev r2_2 : Rect S1000x8x16 := Rect.unit (s := S1000x8x16) ![0, 0, 0] S1000x8x16.size inb_S1000x8x16_S1000x8x16_0_0_0
abbrev r2_3 : Rect S1000x8x16 := Rect.unit (s := S1000x8x16) ![0, 0, 0] S1000x8x16.size inb_S1000x8x16_S1000x8x16_0_0_0
abbrev r2_4 : Rect S1000x8 := Rect.unit (s := S1000x8) ![0, 0] S1000x8.size inb_S1000x8_S1000x8_0_0
abbrev r2_5 : Rect S1000x8x16 := Rect.unit (s := S1000x8x16) ![0, 0, 0] S1000x8x16.size inb_S1000x8x16_S1000x8x16_0_0_0

/-- What the body leaves in the weights' buffer: its one store, of exp(clip(Σ_d k·q·¼·eh)), over the whole buffer. -/
def weights2 (x0 : Vec F S1000x8x16 .f32) (x1 : Vec F S1000x8x16 .f32) (x2 : Vec F S1000x8x16 .f32) (x3 : Vec F S1000x8x16 .f32) : Vec F S1000x8 .f32 :=
  View.canon [⟨r2_4, k2_pay1 (View.ld x0 r2_0) (View.ld x1 r2_1) (View.ld x3 r2_3)⟩]

/-- The one store into that buffer covers it. -/
theorem cover2_4 (p0 : Vec F S1000x8 .f32) (y : S1000x8.Idx) :
    ∃ pc ∈ ([⟨r2_4, p0⟩] : List (View.Piece (Elt F) S1000x8 .f32)), y ∈ pc.1.set :=
  View.cover_of_tiled [⟨r2_4, p0⟩] S1000x8.size (by rfl) y

/-- What the body leaves in the messages' buffer: its one store, of v · s, over the whole buffer. -/
def messages2 (x0 : Vec F S1000x8x16 .f32) (x1 : Vec F S1000x8x16 .f32) (x2 : Vec F S1000x8x16 .f32) (x3 : Vec F S1000x8x16 .f32) : Vec F S1000x8x16 .f32 :=
  View.canon [⟨r2_5, k2_pay2 (View.ld x0 r2_0) (View.ld x1 r2_1) (View.ld x2 r2_2) (View.ld x3 r2_3)⟩]

/-- The one store into that buffer covers it. -/
theorem cover2_5 (p0 : Vec F S1000x8x16 .f32) (y : S1000x8x16.Idx) :
    ∃ pc ∈ ([⟨r2_5, p0⟩] : List (View.Piece (Elt F) S1000x8x16 .f32)), y ∈ pc.1.set :=
  View.cover_of_tiled [⟨r2_5, p0⟩] S1000x8x16.size (by rfl) y

set_option maxHeartbeats 4000000 in
/-- The body on whole staging buffers: every input keeps what it holds, every output ends at its value above. -/
theorem sound_kernel2 (c : Dev nD) (E : Set ℕ) (i : grid2.Coords)
    (arg1 : Memref sig .tc .vmem S1000x8x16 .f32) (harg1 : arg1.IsWhole) (arg2 : Memref sig .tc .vmem S1000x8x16 .f32) (harg2 : arg2.IsWhole) (arg3 : Memref sig .tc .vmem S1000x8x16 .f32) (harg3 : arg3.IsWhole) (arg4 : Memref sig .tc .vmem S1000x8x16 .f32) (harg4 : arg4.IsWhole) (arg5 : Memref sig .tc .vmem S1000x8 .f32) (harg5 : arg5.IsWhole) (arg6 : Memref sig .tc .vmem S1000x8x16 .f32) (harg6 : arg6.IsWhole)
    (x0 : Vec F S1000x8x16 .f32) (x1 : Vec F S1000x8x16 .f32) (x2 : Vec F S1000x8x16 .f32) (x3 : Vec F S1000x8x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (weights2 x0 x1 x2 x3) ∗ owns (c : Thread nD τ) arg6 fullShare (messages2 x0 x1 x2 x3)) -∗ K ⟨⟩))
      ⊢ wp frame (wpE (defs₀ (F := F)) Variants.none c none) E (cc2__kernel i arg1 harg1 arg2 harg2 arg3 harg3 arg4 harg4 arg5 harg5 arg6 harg6) K := by
  simp only [cc2__kernel_eq_skeleton]; unfold cc2__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-- The proof data of the region on core c: the arrays as the region finds them; after the body at t every input buffer holds its
    block and every output buffer its value above, of the input blocks at t; nothing is owed and the invariant is the scoped rest,
    untouched. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => weights2 (blk2 V c 0 t) (blk2 V c 1 t) (blk2 V c 2 t) (blk2 V c 3 t)
    | ⟨5, _⟩ => messages2 (blk2 V c 0 t) (blk2 V c 1 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = weights2 (blk2 V c 0 t) (blk2 V c 1 t) (blk2 V c 2 t) (blk2 V c 3 t) := by dsimp only [dat2]
theorem after2_5 (c : Dev nD) (t : Fin cfg2.N) : (dat2 V c).after 5 t = messages2 (blk2 V c 0 t) (blk2 V c 1 t) (blk2 V c 2 t) (blk2 V c 3 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d
theorem held2_2 (c : Dev nD) (t : Fin cfg2.N) (d) : (dat2 V c).before 2 t d = blk2 V c 2 t :=
  held2_2_of V (dat2 V c) (A_eq2 V c 2) (after2_2 V c) t d
theorem held2_3 (c : Dev nD) (t : Fin cfg2.N) (d) : (dat2 V c).before 3 t d = blk2 V c 3 t :=
  held2_3_of V (dat2 V c) (A_eq2 V c 3) (after2_3 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the inputs' buffers hold their blocks, so the body's run applies; the invariant and what the core owes
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2, held2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Region 3 of the pipeline: the first normalisation fused with the feed-forward block, 25 grid points of 2000 rows each.
  At grid point t the body reads rows [2000 t, 2000 (t+1)) of x and of the attention output (windows 0, 1), the column statistics
  μ, σ² and the scale γ₁ and shift β₁ (windows 2–5, each 1 × 128, never moving), the weights W₁, b₁, W₂, b₂ (windows 6–9, never
  moving) and leaves in window 10  h + (relu(h W₁ + b₁) W₂ + b₂)  with  h = γ₁ (x + a − μ) rsqrt(σ² + ε) + β₁. Stated at a
  parameter V: the buffers' contents when the region is entered.
-/
import proofs.«116564_j90065464197253_2_alg».proof.Proof.Gen.Kernel.Launch
import proofs.«116564_j90065464197253_2_alg».proof.Proof.Gen.Kernel.Skeleton
import proofs.«116564_j90065464197253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The buffer the body is handed at t holds the window's block there, whether or not a transfer brought it at t (rows of x). -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the window's block there, whether or not a transfer brought it at t (rows of the attention output). -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (column means). -/
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (column variances). -/
theorem held3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (scale γ₁). -/
theorem held3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (shift β₁). -/
theorem held3_5_of {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (W₁). -/
theorem held3_6_of {c : Dev nD} (dat : Dat τ (Elt F) Unit ℕ (UR sig nD τ) ℕ cfg3 c) (hA : dat.A 6 = V c (Pipeline.arrRef spec3 6))
    (hafter : ∀ t, dat.after 6 t = blk3 V c 6 t) (t : Fin cfg3.N) (d) : dat.before 6 t d = blk3 V c 6 t :=
  (dat.before_in_eq_fetched 6 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (b₁). -/
theorem held3_7_of {c : Dev nD} (dat : Dat τ (Elt F) Unit ℕ (UR sig nD τ) ℕ cfg3 c) (hA : dat.A 7 = V c (Pipeline.arrRef spec3 7))
    (hafter : ∀ t, dat.after 7 t = blk3 V c 7 t) (t : Fin cfg3.N) (d) : dat.before 7 t d = blk3 V c 7 t :=
  (dat.before_in_eq_fetched 7 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (W₂). -/
theorem held3_8_of {c : Dev nD} (dat : Dat τ (Elt F) Unit ℕ (UR sig nD τ) ℕ cfg3 c) (hA : dat.A 8 = V c (Pipeline.arrRef spec3 8))
    (hafter : ∀ t, dat.after 8 t = blk3 V c 8 t) (t : Fin cfg3.N) (d) : dat.before 8 t d = blk3 V c 8 t :=
  (dat.before_in_eq_fetched 8 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (b₂). -/
theorem held3_9_of {c : Dev nD} (dat : Dat τ (Elt F) Unit ℕ (UR sig nD τ) ℕ cfg3 c) (hA : dat.A 9 = V c (Pipeline.arrRef spec3 9))
    (hafter : ∀ t, dat.after 9 t = blk3 V c 9 t) (t : Fin cfg3.N) (d) : dat.before 9 t d = blk3 V c 9 t :=
  (dat.before_in_eq_fetched 9 rfl (fun _ => rfl) (fun _ _ _ => rfl) (fun t => by rw [hafter]; unfold Dat.blockOf blk3; rw [hA]; try rfl) t d).trans
    (by unfold Dat.fetched Dat.blockOf blk3; rw [hA]; try rfl)

abbrev r3_0 : Rect S2000x128 := Rect.unit (s := S2000x128) ![0, 0] S2000x128.size inb_S2000x128_S2000x128_0_0
abbrev r3_1 : Rect S2000x128 := Rect.unit (s := S2000x128) ![0, 0] S2000x128.size inb_S2000x128_S2000x128_0_0
abbrev r3_2 : Rect S1x128 := Rect.unit (s := S1x128) ![0, 0] S1x128.size inb_S1x128_S1x128_0_0
abbrev r3_3 : Rect S1x128 := Rect.unit (s := S1x128) ![0, 0] S1x128.size inb_S1x128_S1x128_0_0
abbrev r3_4 : Rect S1x128 := Rect.unit (s := S1x128) ![0, 0] S1x128.size inb_S1x128_S1x128_0_0
abbrev r3_5 : Rect S1x128 := Rect.unit (s := S1x128) ![0, 0] S1x128.size inb_S1x128_S1x128_0_0
abbrev r3_6 : Rect S128x256 := Rect.unit (s := S128x256) ![0, 0] S128x256.size inb_S128x256_S128x256_0_0
abbrev r3_7 : Rect S1x256 := Rect.unit (s := S1x256) ![0, 0] S1x256.size inb_S1x256_S1x256_0_0
abbrev r3_8 : Rect S256x128 := Rect.unit (s := S256x128) ![0, 0] S256x128.size inb_S256x128_S256x128_0_0
abbrev r3_9 : Rect S1x128 := Rect.unit (s := S1x128) ![0, 0] S1x128.size inb_S1x128_S1x128_0_0
abbrev r3_10 : Rect S2000x128 := Rect.unit (s := S2000x128) ![0, 0] S2000x128.size inb_S2000x128_S2000x128_0_0

/-- What the body leaves in the output window's buffer: its one store, of h + (relu(h W₁ + b₁) W₂ + b₂), over the whole buffer. -/
def normff3 (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) : Vec F S2000x128 .f32 :=
  View.canon [⟨r3_10, k3_pay1 (k3_pay2 (View.ld x0 r3_0) (View.ld x1 r3_1) (View.ld x2 r3_2) (View.ld x3 r3_3) (View.ld x4 r3_4) (View.ld x5 r3_5)) (k3_pay3 (View.ld x0 r3_0) (View.ld x1 r3_1) (View.ld x2 r3_2) (View.ld x3 r3_3) (View.ld x4 r3_4) (View.ld x5 r3_5) (View.ld x6 r3_6) (View.ld x7 r3_7)) (k3_pay4 (View.ld x8 r3_8)) (View.ld x9 r3_9)⟩]

/-- The one store into that buffer covers it. -/
theorem cover3_10 (p0 : Vec F S2000x128 .f32) (y : S2000x128.Idx) :
    ∃ pc ∈ ([⟨r3_10, p0⟩] : List (View.Piece (Elt F) S2000x128 .f32)), y ∈ pc.1.set :=
  View.cover_of_tiled [⟨r3_10, p0⟩] S2000x128.size (by rfl) y

set_option maxHeartbeats 4000000 in
/-- The body on whole staging buffers: every input keeps what it holds, every output ends at its value above. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S2000x128 .f32) (harg11 : arg11.IsWhole)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (normff3 x0 x1 x2 x3 x4 x5 x6 x7 x8 x9)) -∗ K ⟨⟩))
      ⊢ wp frame (wpE (defs₀ (F := F)) Variants.none c none) E (cc3__bn1_ff_kernel i arg1 harg1 arg2 harg2 arg3 harg3 arg4 harg4 arg5 harg5 arg6 harg6 arg7 harg7 arg8 harg8 arg9 harg9 arg10 harg10 arg11 harg11) K := by
  simp only [cc3__bn1_ff_kernel_eq_skeleton]; unfold cc3__bn1_ff_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-- The proof data of the region on core c: the arrays as the region finds them; after the body at t every input buffer holds its
    block and every output buffer its value above, of the input blocks at t; nothing is owed and the invariant is the scoped rest,
    untouched. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => blk3 V c 8 t
    | ⟨9, _⟩ => blk3 V c 9 t
    | ⟨10, _⟩ => normff3 (blk3 V c 0 t) (blk3 V c 1 t) (blk3 V c 2 t) (blk3 V c 3 t) (blk3 V c 4 t) (blk3 V c 5 t) (blk3 V c 6 t) (blk3 V c 7 t) (blk3 V c 8 t) (blk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = blk3 V c 6 t := by dsimp only [dat3]
theorem after3_7 (c : Dev nD) (t : Fin cfg3.N) : (dat3 V c).after 7 t = blk3 V c 7 t := by dsimp only [dat3]
theorem after3_8 (c : Dev nD) (t : Fin cfg3.N) : (dat3 V c).after 8 t = blk3 V c 8 t := by dsimp only [dat3]
theorem after3_9 (c : Dev nD) (t : Fin cfg3.N) : (dat3 V c).after 9 t = blk3 V c 9 t := by dsimp only [dat3]
theorem after3_10 (c : Dev nD) (t : Fin cfg3.N) : (dat3 V c).after 10 t = normff3 (blk3 V c 0 t) (blk3 V c 1 t) (blk3 V c 2 t) (blk3 V c 3 t) (blk3 V c 4 t) (blk3 V c 5 t) (blk3 V c 6 t) (blk3 V c 7 t) (blk3 V c 8 t) (blk3 V c 9 t) := by dsimp only [dat3]

theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d
theorem held3_2 (c : Dev nD) (t : Fin cfg3.N) (d) : (dat3 V c).before 2 t d = blk3 V c 2 t :=
  held3_2_of V (dat3 V c) (A_eq3 V c 2) (after3_2 V c) t d
theorem held3_3 (c : Dev nD) (t : Fin cfg3.N) (d) : (dat3 V c).before 3 t d = blk3 V c 3 t :=
  held3_3_of V (dat3 V c) (A_eq3 V c 3) (after3_3 V c) t d
theorem held3_4 (c : Dev nD) (t : Fin cfg3.N) (d) : (dat3 V c).before 4 t d = blk3 V c 4 t :=
  held3_4_of V (dat3 V c) (A_eq3 V c 4) (after3_4 V c) t d
theorem held3_5 (c : Dev nD) (t : Fin cfg3.N) (d) : (dat3 V c).before 5 t d = blk3 V c 5 t :=
  held3_5_of V (dat3 V c) (A_eq3 V c 5) (after3_5 V c) t d
theorem held3_6 (c : Dev nD) (t : Fin cfg3.N) (d) : (dat3 V c).before 6 t d = blk3 V c 6 t :=
  held3_6_of V (dat3 V c) (A_eq3 V c 6) (after3_6 V c) t d
theorem held3_7 (c : Dev nD) (t : Fin cfg3.N) (d) : (dat3 V c).before 7 t d = blk3 V c 7 t :=
  held3_7_of V (dat3 V c) (A_eq3 V c 7) (after3_7 V c) t d
theorem held3_8 (c : Dev nD) (t : Fin cfg3.N) (d) : (dat3 V c).before 8 t d = blk3 V c 8 t :=
  held3_8_of V (dat3 V c) (A_eq3 V c 8) (after3_8 V c) t d
theorem held3_9 (c : Dev nD) (t : Fin cfg3.N) (d) : (dat3 V c).before 9 t d = blk3 V c 9 t :=
  held3_9_of V (dat3 V c) (A_eq3 V c 9) (after3_9 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 4000000 in
/-- The body at any point: the inputs' buffers hold their blocks, so the body's run applies; the invariant and what the core owes
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1, held3_2, held3_3, held3_4, held3_5, held3_6, held3_7, held3_8, held3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) (blk3 V c 8 t) (blk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
/-
  Region 4 of the pipeline: the second normalisation, 25 grid points of 2000 rows each.
  At grid point t the body reads rows [2000 t, 2000 (t+1)) of the feed-forward block's output (window 0), the column statistics μ, σ²
  and the scale γ₂ and shift β₂ (windows 1–4, each 1 × 128, never moving) and leaves in window 5  γ₂ (h − μ) rsqrt(σ² + ε) + β₂.
  Stated at a parameter V: the buffers' contents when the region is entered.
-/
import proofs.«116564_j90065464197253_2_alg».proof.Proof.Gen.Kernel.Launch
import proofs.«116564_j90065464197253_2_alg».proof.Proof.Gen.Kernel.Skeleton
import proofs.«116564_j90065464197253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The buffer the body is handed at t holds the window's block there, whether or not a transfer brought it at t (rows of the feed-forward output). -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- The buffer the body is handed at t holds the whole (one-block) array: it is brought once, and its block index never moves (column means). -/
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- The buffer the body is handed at t holds the whole (one-block) array: it is brought once, and its block index never moves (column variances). -/
theorem held4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The buffer the body is handed at t holds the whole (one-block) array: it is brought once, and its block index never moves (scale γ₂). -/
theorem held4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- The buffer the body is handed at t holds the whole (one-block) array: it is brought once, and its block index never moves (shift β₂). -/
theorem held4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0
abbrev r4_2 : Rect S1x128 := Rect.unit (s := S1x128) ![0, 0] S1x128.size inb_S1x128_S1x128_0_0
abbrev r4_3 : Rect S1x128 := Rect.unit (s := S1x128) ![0, 0] S1x128.size inb_S1x128_S1x128_0_0
abbrev r4_4 : Rect S1x128 := Rect.unit (s := S1x128) ![0, 0] S1x128.size inb_S1x128_S1x128_0_0
abbrev r4_5 : Rect S2000x128 := Rect.unit (s := S2000x128) ![0, 0] S2000x128.size inb_S2000x128_S2000x128_0_0

/-- What the body leaves in the output window's buffer: its one store, of γ₂ (h − μ) rsqrt(σ² + ε) + β₂, over the whole buffer. -/
def norm4 (x0 : Vec F S2000x128 .f32) (x1 : Vec F S1x128 .f32) (x2 : Vec F S1x128 .f32) (x3 : Vec F S1x128 .f32) (x4 : Vec F S1x128 .f32) : Vec F S2000x128 .f32 :=
  View.canon [⟨r4_5, k4_pay1 (View.ld x0 r4_0) (View.ld x1 r4_1) (View.ld x2 r4_2) (View.ld x3 r4_3) (View.ld x4 r4_4)⟩]

/-- The one store into that buffer covers it. -/
theorem cover4_5 (p0 : Vec F S2000x128 .f32) (y : S2000x128.Idx) :
    ∃ pc ∈ ([⟨r4_5, p0⟩] : List (View.Piece (Elt F) S2000x128 .f32)), y ∈ pc.1.set :=
  View.cover_of_tiled [⟨r4_5, p0⟩] S2000x128.size (by rfl) y

set_option maxHeartbeats 4000000 in
/-- The body on whole staging buffers: every input keeps what it holds, every output ends at its value above. -/
theorem sound_kernel4 (c : Dev nD) (E : Set ℕ) (i : grid4.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (norm4 x0 x1 x2 x3 x4)) -∗ K ⟨⟩))
      ⊢ wp frame (wpE (defs₀ (F := F)) Variants.none c none) E (cc4__bn2_kernel i arg1 harg1 arg2 harg2 arg3 harg3 arg4 harg4 arg5 harg5 arg6 harg6) K := by
  simp only [cc4__bn2_kernel_eq_skeleton]; unfold cc4__bn2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of the region on core c: the arrays as the region finds them; after the body at t every input buffer holds its
    block and every output buffer its value above, of the input blocks at t; nothing is owed and the invariant is the scoped rest,
    untouched. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => norm4 (blk4 V c 0 t) (blk4 V c 1 t) (blk4 V c 2 t) (blk4 V c 3 t) (blk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = norm4 (blk4 V c 0 t) (blk4 V c 1 t) (blk4 V c 2 t) (blk4 V c 3 t) (blk4 V c 4 t) := by dsimp only [dat4]

theorem held4_0 (c : Dev nD) (t : Fin cfg4.N) (d) : (dat4 V c).before 0 t d = blk4 V c 0 t :=
  held4_0_of V (dat4 V c) (A_eq4 V c 0) (after4_0 V c) t d
theorem held4_1 (c : Dev nD) (t : Fin cfg4.N) (d) : (dat4 V c).before 1 t d = blk4 V c 1 t :=
  held4_1_of V (dat4 V c) (A_eq4 V c 1) (after4_1 V c) t d
theorem held4_2 (c : Dev nD) (t : Fin cfg4.N) (d) : (dat4 V c).before 2 t d = blk4 V c 2 t :=
  held4_2_of V (dat4 V c) (A_eq4 V c 2) (after4_2 V c) t d
theorem held4_3 (c : Dev nD) (t : Fin cfg4.N) (d) : (dat4 V c).before 3 t d = blk4 V c 3 t :=
  held4_3_of V (dat4 V c) (A_eq4 V c 3) (after4_3 V c) t d
theorem held4_4 (c : Dev nD) (t : Fin cfg4.N) (d) : (dat4 V c).before 4 t d = blk4 V c 4 t :=
  held4_4_of V (dat4 V c) (A_eq4 V c 4) (after4_4 V c) t d

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 4000000 in
/-- The body at any point: the inputs' buffers hold their blocks, so the body's run applies; the invariant and what the core owes
    pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [held4_0, held4_1, held4_2, held4_3, held4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Contents.lean ====
/-
  The contents of the core's buffers at every boundary of the pipeline's run: host operations, then each of the five regions in turn,
  each entered from what the host operations before it computed from what the regions before it left. What region K leaves in its
  output array is named (o…), the contents at every boundary follow (B…), and the family of proof data is each region's at its entry
  contents.
-/
import proofs.«116564_j90065464197253_2_alg».proof.Proof.K.Region0
import proofs.«116564_j90065464197253_2_alg».proof.Proof.K.Region1
import proofs.«116564_j90065464197253_2_alg».proof.Proof.K.Region2
import proofs.«116564_j90065464197253_2_alg».proof.Proof.K.Region3
import proofs.«116564_j90065464197253_2_alg».proof.Proof.K.Region4
import proofs.«116564_j90065464197253_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, and the contents at every boundary -/

/-- The buffers at launch. -/
def B0 (c : Dev nD) : Valuation τ sig (Elt F) := fun b => m (c, b)
/-- After the host operations `hostOps0`. -/
def B1 (c : Dev nD) : Valuation τ sig (Elt F) := StableHlo.after hostOps0 (B0 m c)
/-- What region 0 leaves in `main_v5`: the write-backs of its output window 2, folded over the grid. -/
def o0_2 (c : Dev nD) : Buf (Elt F) ((c : Thread nD τ).loc main_v5) := (dat0 (fun c b => B1 m c b) c).arrAt 2 cfg0.N
/-- After region 0. -/
def B2 (c : Dev nD) : Valuation τ sig (Elt F) := Function.update (B1 m c) main_v5 (o0_2 m c)
/-- After the host operations `hostOps1`. -/
def B3 (c : Dev nD) : Valuation τ sig (Elt F) := StableHlo.after hostOps1 (B2 m c)
/-- What region 1 leaves in `main_v12`: the write-backs of its output window 2, folded over the grid. -/
def o1_2 (c : Dev nD) : Buf (Elt F) ((c : Thread nD τ).loc main_v12) := (dat1 (fun c b => B3 m c b) c).arrAt 2 cfg1.N
/-- After region 1. -/
def B4 (c : Dev nD) : Valuation τ sig (Elt F) := Function.update (B3 m c) main_v12 (o1_2 m c)
/-- After the host operations `hostOps2`. -/
def B5 (c : Dev nD) : Valuation τ sig (Elt F) := StableHlo.after hostOps2 (B4 m c)
/-- What region 2 leaves in `main_v35_0`: the write-backs of its output window 4, folded over the grid. -/
def o2_4 (c : Dev nD) : Buf (Elt F) ((c : Thread nD τ).loc main_v35_0) := (dat2 (fun c b => B5 m c b) c).arrAt 4 cfg2.N
/-- What region 2 leaves in `main_v35_1`: the write-backs of its output window 5, folded over the grid. -/
def o2_5 (c : Dev nD) : Buf (Elt F) ((c : Thread nD τ).loc main_v35_1) := (dat2 (fun c b => B5 m c b) c).arrAt 5 cfg2.N
/-- After region 2. -/
def B6 (c : Dev nD) : Valuation τ sig (Elt F) := Function.update (Function.update (B5 m c) main_v35_0 (o2_4 m c)) main_v35_1 (o2_5 m c)
/-- After the host operations `hostOps3`. -/
def B7 (c : Dev nD) : Valuation τ sig (Elt F) := StableHlo.after hostOps3 (B6 m c)
/-- After the host operations `hostOps3_1`. -/
def B8 (c : Dev nD) : Valuation τ sig (Elt F) := StableHlo.after hostOps3_1 (B7 m c)
/-- After the host operations `hostOps3_2`. -/
def B9 (c : Dev nD) : Valuation τ sig (Elt F) := StableHlo.after hostOps3_2 (B8 m c)
/-- What region 3 leaves in `main_v58`: the write-backs of its output window 10, folded over the grid. -/
def o3_10 (c : Dev nD) : Buf (Elt F) ((c : Thread nD τ).loc main_v58) := (dat3 (fun c b => B9 m c b) c).arrAt 10 cfg3.N
/-- After region 3. -/
def B10 (c : Dev nD) : Valuation τ sig (Elt F) := Function.update (B9 m c) main_v58 (o3_10 m c)
/-- After the host operations `hostOps4`. -/
def B11 (c : Dev nD) : Valuation τ sig (Elt F) := StableHlo.after hostOps4 (B10 m c)
/-- After the host operations `hostOps4_1`. -/
def B12 (c : Dev nD) : Valuation τ sig (Elt F) := StableHlo.after hostOps4_1 (B11 m c)
/-- After the host operations `hostOps4_2`. -/
def B13 (c : Dev nD) : Valuation τ sig (Elt F) := StableHlo.after hostOps4_2 (B12 m c)
/-- What region 4 leaves in `main_v66`: the write-backs of its output window 5, folded over the grid. -/
def o4_5 (c : Dev nD) : Buf (Elt F) ((c : Thread nD τ).loc main_v66) := (dat4 (fun c b => B13 m c b) c).arrAt 5 cfg4.N
/-- After region 4. -/
def B14 (c : Dev nD) : Valuation τ sig (Elt F) := Function.update (B13 m c) main_v66 (o4_5 m c)

/-- The family of contents the regions leave, as the conditional frame reads it: at each of the six output arrays the write-backs'
    fold above, elsewhere (never read) the launch contents. -/
def left : Outs (F := F) := fun _ r c =>
  if h : r = main_v5 then h ▸ o0_2 m c else
  if h : r = main_v12 then h ▸ o1_2 m c else
  if h : r = main_v35_0 then h ▸ o2_4 m c else
  if h : r = main_v35_1 then h ▸ o2_5 m c else
  if h : r = main_v58 then h ▸ o3_10 m c else
  if h : r = main_v66 then h ▸ o4_5 m c else
  m ((c : Thread nD τ).loc r)

theorem left_main_v5 (J : ℕ) (c : Dev nD) : left m J main_v5 c = o0_2 m c := by
  unfold left; rw [dif_pos rfl]
theorem left_main_v12 (J : ℕ) (c : Dev nD) : left m J main_v12 c = o1_2 m c := by
  unfold left; rw [dif_neg (by decide), dif_pos rfl]
theorem left_main_v35_0 (J : ℕ) (c : Dev nD) : left m J main_v35_0 c = o2_4 m c := by
  unfold left; rw [dif_neg (by decide), dif_neg (by decide), dif_pos rfl]
theorem left_main_v35_1 (J : ℕ) (c : Dev nD) : left m J main_v35_1 c = o2_5 m c := by
  unfold left; rw [dif_neg (by decide), dif_neg (by decide), dif_neg (by decide), dif_pos rfl]
theorem left_main_v58 (J : ℕ) (c : Dev nD) : left m J main_v58 c = o3_10 m c := by
  unfold left; rw [dif_neg (by decide), dif_neg (by decide), dif_neg (by decide), dif_neg (by decide), dif_pos rfl]
theorem left_main_v66 (J : ℕ) (c : Dev nD) : left m J main_v66 c = o4_5 m c := by
  unfold left; rw [dif_neg (by decide), dif_neg (by decide), dif_neg (by decide), dif_neg (by decide), dif_neg (by decide), dif_pos rfl]

/-- The boundary contents the conditional frame is stated over are the ones named here. -/
theorem V0_eq (c : Dev nD) : V0 m c = B0 m c := by
  rfl
theorem V1_eq (c : Dev nD) : V1 m c = B1 m c := by
  show StableHlo.after hostOps0 (V0 m c) = _; rw [V0_eq]; rfl
theorem V2_eq (c : Dev nD) : V2 m (left m) c = B2 m c := by
  unfold V2 B2; rw [V1_eq, left_main_v5]
theorem V3_eq (c : Dev nD) : V3 m (left m) c = B3 m c := by
  show StableHlo.after hostOps1 (V2 m (left m) c) = _; rw [V2_eq]; rfl
theorem V4_eq (c : Dev nD) : V4 m (left m) c = B4 m c := by
  unfold V4 B4; rw [V3_eq, left_main_v12]
theorem V5_eq (c : Dev nD) : V5 m (left m) c = B5 m c := by
  show StableHlo.after hostOps2 (V4 m (left m) c) = _; rw [V4_eq]; rfl
theorem V6_eq (c : Dev nD) : V6 m (left m) c = B6 m c := by
  unfold V6 B6; rw [V5_eq, left_main_v35_0, left_main_v35_1]
theorem V7_eq (c : Dev nD) : V7 m (left m) c = B7 m c := by
  show StableHlo.after hostOps3 (V6 m (left m) c) = _; rw [V6_eq]; rfl
theorem V8_eq (c : Dev nD) : V8 m (left m) c = B8 m c := by
  show StableHlo.after hostOps3_1 (V7 m (left m) c) = _; rw [V7_eq]; rfl
theorem V9_eq (c : Dev nD) : V9 m (left m) c = B9 m c := by
  show StableHlo.after hostOps3_2 (V8 m (left m) c) = _; rw [V8_eq]; rfl
theorem V10_eq (c : Dev nD) : V10 m (left m) c = B10 m c := by
  unfold V10 B10; rw [V9_eq, left_main_v58]
theorem V11_eq (c : Dev nD) : V11 m (left m) c = B11 m c := by
  show StableHlo.after hostOps4 (V10 m (left m) c) = _; rw [V10_eq]; rfl
theorem V12_eq (c : Dev nD) : V12 m (left m) c = B12 m c := by
  show StableHlo.after hostOps4_1 (V11 m (left m) c) = _; rw [V11_eq]; rfl
theorem V13_eq (c : Dev nD) : V13 m (left m) c = B13 m c := by
  show StableHlo.after hostOps4_2 (V12 m (left m) c) = _; rw [V12_eq]; rfl
theorem V14_eq (c : Dev nD) : V14 m (left m) c = B14 m c := by
  unfold V14 B14; rw [V13_eq, left_main_v66]

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => dat0 (fun c b => B1 m c b) c
  | ⟨1, _⟩ => fun c => dat1 (fun c b => B3 m c b) c
  | ⟨2, _⟩ => fun c => dat2 (fun c b => B5 m c b) c
  | ⟨3, _⟩ => fun c => dat3 (fun c b => B9 m c b) c
  | ⟨4, _⟩ => fun c => dat4 (fun c b => B13 m c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev Rest (c : Dev nD) : sProp 𝕄 := iprop((∃ r, prngReg c r) ∗ ∃ W, owes (c : Thread nD τ) (0 : CellTallies nD τ sig Unit) W)
abbrev Rests : Fin 6 → Dev nD → sProp 𝕄 := fun _ c => Rest c

end Cert.Kernel.Hand

end
-- ==== Proof.K.Seg0.lean ====
/-
  Region 0 as a segment of the run: it changes only its output array, every other buffer keeps what it held, and over the thread
  state its arrays are split out of the core's buffers at entry and put back at exit.
-/
import proofs.«116564_j90065464197253_2_alg».proof.Proof.K.Contents

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 0 its output array `main_v5` holds the write-backs' fold. -/
theorem exit0_2 (c : Dev nD) : B2 m c main_v5 = o0_2 m c := by
  rw [← V2_eq, ← left_main_v5 m 2 c]
  simp only [V2, Function.update_self]

/-- Region 0 changes only its output array. -/
theorem exit0_of (c : Dev nD) (b : Ref sig .tc) (h : b ∉ ([main_v5] : List (Ref sig .tc))) : B2 m c b = B1 m c b := by
  have := V2_of m (left m) c b h
  rwa [V2_eq, V1_eq] at this

set_option maxHeartbeats 4000000 in
/-- At region 0's exit each of its arrays holds what the pipeline leaves: an input array what it held, the output array the
    write-backs' fold. -/
theorem hF0 (c : Dev nD) : ∀ w : Fin cfg0.W, (dat0 (fun c b => B1 m c b) c).arrAt w cfg0.N = B2 m c (Pipeline.arrRef spec0 w)
  | ⟨0, _⟩ => ((dat0 (fun c b => B1 m c b) c).arrAt_in 0 rfl cfg0.N).trans (exit0_of m c main_arg0 (by decide)).symm
  | ⟨1, _⟩ => ((dat0 (fun c b => B1 m c b) c).arrAt_in 1 rfl cfg0.N).trans (exit0_of m c main_v4 (by decide)).symm
  | ⟨2, _⟩ => (exit0_2 m c).symm

/-- and every other buffer what it held at entry. -/
theorem hrest0 (c : Dev nD) : ∀ b, b ∉ Finset.univ.image (Pipeline.arrRef spec0) → B2 m c b = B1 m c b :=
  fun b hb => exit0_of m c b (by
    intro hmem
    simp only [List.mem_cons, List.mem_singleton, List.not_mem_nil, or_false] at hmem
    rcases hmem with rfl
    · exact hb (Finset.mem_image.mpr ⟨2, Finset.mem_univ _, rfl⟩))

set_option backward.isDefEq.respectTransparency.types false in
/-- Region 0 over the thread state: entered from every unscoped buffer at the contents before it, left at the contents after it.
    Its arrays are split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => B1 m c b) c).loose
  hwaits := Pipeline.hwaits_of_owed_zero _ _ _ _ L lv 0 fun _ _ => rfl
  pre c := iprop(StableHlo.held (c : Thread nD τ) (Pipeline.ucRefs τ sig) (V1 m c) ∗ Rests 0 c)
  post c := iprop(StableHlo.held (c : Thread nD τ) (Pipeline.ucRefs τ sig) (V2 m (left m) c) ∗ Rests 1 c)
  X c := iprop(∃ r, prngReg c r)
  Y c := iprop(∃ r, prngReg c r)
  Z c := Pipeline.unscopedRest (Ix := Unit) (Name := ℕ) (U := UR sig nD τ) (Lvl := ℕ) spec0 c (fun b => B1 m c b)
  hentry c := by
    rw [Pipeline.ownSems0_none, V1_eq]
    have hsplit := Pipeline.arrays_of_unscopedBufs (p := 0) (pcfgs (F := F)) adm (pdats m) launch0.win launch0.arr_whole c
      ((pdats m 0 c).share_full fun _ => rfl) (fun b => B1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => B1 m c b) (fun b => B2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/-
  Region 1 as a segment of the run: it changes only its output array, every other buffer keeps what it held, and over the thread
  state its arrays are split out of the core's buffers at entry and put back at exit.
-/
import proofs.«116564_j90065464197253_2_alg».proof.Proof.K.Contents

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 1 its output array `main_v12` holds the write-backs' fold. -/
theorem exit1_2 (c : Dev nD) : B4 m c main_v12 = o1_2 m c := by
  rw [← V4_eq, ← left_main_v12 m 4 c]
  simp only [V4, Function.update_self]

/-- Region 1 changes only its output array. -/
theorem exit1_of (c : Dev nD) (b : Ref sig .tc) (h : b ∉ ([main_v12] : List (Ref sig .tc))) : B4 m c b = B3 m c b := by
  have := V4_of m (left m) c b h
  rwa [V4_eq, V3_eq] at this

set_option maxHeartbeats 4000000 in
/-- At region 1's exit each of its arrays holds what the pipeline leaves: an input array what it held, the output array the
    write-backs' fold. -/
theorem hF1 (c : Dev nD) : ∀ w : Fin cfg1.W, (dat1 (fun c b => B3 m c b) c).arrAt w cfg1.N = B4 m c (Pipeline.arrRef spec1 w)
  | ⟨0, _⟩ => ((dat1 (fun c b => B3 m c b) c).arrAt_in 0 rfl cfg1.N).trans (exit1_of m c main_arg2 (by decide)).symm
  | ⟨1, _⟩ => ((dat1 (fun c b => B3 m c b) c).arrAt_in 1 rfl cfg1.N).trans (exit1_of m c main_arg6 (by decide)).symm
  | ⟨2, _⟩ => (exit1_2 m c).symm

/-- and every other buffer what it held at entry. -/
theorem hrest1 (c : Dev nD) : ∀ b, b ∉ Finset.univ.image (Pipeline.arrRef spec1) → B4 m c b = B3 m c b :=
  fun b hb => exit1_of m c b (by
    intro hmem
    simp only [List.mem_cons, List.mem_singleton, List.not_mem_nil, or_false] at hmem
    rcases hmem with rfl
    · exact hb (Finset.mem_image.mpr ⟨2, Finset.mem_univ _, rfl⟩))

set_option backward.isDefEq.respectTransparency.types false in
/-- Region 1 over the thread state: entered from every unscoped buffer at the contents before it, left at the contents after it.
    Its arrays are split out of the unscoped buffers and put back at the exit contents; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => B3 m c b) c).loose
  hwaits := Pipeline.hwaits_of_owed_zero _ _ _ _ L lv 1 fun _ _ => rfl
  pre c := iprop(StableHlo.held (c : Thread nD τ) (Pipeline.ucRefs τ sig) (V3 m (left m) c) ∗ Rests 1 c)
  post c := iprop(StableHlo.held (c : Thread nD τ) (Pipeline.ucRefs τ sig) (V4 m (left m) c) ∗ Rests 2 c)
  X c := iprop(∃ r, prngReg c r)
  Y c := iprop(∃ r, prngReg c r)
  Z c := Pipeline.unscopedRest (Ix := Unit) (Name := ℕ) (U := UR sig nD τ) (Lvl := ℕ) spec1 c (fun b => B3 m c b)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (fun b => B3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => B3 m c b) (fun b => B4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/-
  Region 2 as a segment of the run: it changes only its output arrays, every other buffer keeps what it held, and over the thread
  state its arrays are split out of the core's buffers at entry and put back at exit.
-/
import proofs.«116564_j90065464197253_2_alg».proof.Proof.K.Contents

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 2 its output array `main_v35_0` holds the write-backs' fold. -/
theorem exit2_4 (c : Dev nD) : B6 m c main_v35_0 = o2_4 m c := by
  rw [← V6_eq, ← left_main_v35_0 m 6 c]
  simp only [V6, Function.update_self, Function.update_of_ne (StableHlo.devRef_ne_of_ne (by decide : (main_v35_0 : Ref sig .tc) ≠ main_v35_1) : (Proc.devRef .tc main_v35_0 : DevRef τ sig) ≠ Proc.devRef .tc main_v35_1)]

/-- After region 2 its output array `main_v35_1` holds the write-backs' fold. -/
theorem exit2_5 (c : Dev nD) : B6 m c main_v35_1 = o2_5 m c := by
  rw [← V6_eq, ← left_main_v35_1 m 6 c]
  simp only [V6, Function.update_self]

/-- Region 2 changes only its output arrays. -/
theorem exit2_of (c : Dev nD) (b : Ref sig .tc) (h : b ∉ ([main_v35_0, main_v35_1] : List (Ref sig .tc))) : B6 m c b = B5 m c b := by
  have := V6_of m (left m) c b h
  rwa [V6_eq, V5_eq] at this

set_option maxHeartbeats 4000000 in
/-- At region 2's exit each of its arrays holds what the pipeline leaves: an input array what it held, the output array the
    write-backs' fold. -/
theorem hF2 (c : Dev nD) : ∀ w : Fin cfg2.W, (dat2 (fun c b => B5 m c b) c).arrAt w cfg2.N = B6 m c (Pipeline.arrRef spec2 w)
  | ⟨0, _⟩ => ((dat2 (fun c b => B5 m c b) c).arrAt_in 0 rfl cfg2.N).trans (exit2_of m c main_v20 (by decide)).symm
  | ⟨1, _⟩ => ((dat2 (fun c b => B5 m c b) c).arrAt_in 1 rfl cfg2.N).trans (exit2_of m c main_v27 (by decide)).symm
  | ⟨2, _⟩ => ((dat2 (fun c b => B5 m c b) c).arrAt_in 2 rfl cfg2.N).trans (exit2_of m c main_v34 (by decide)).symm
  | ⟨3, _⟩ => ((dat2 (fun c b => B5 m c b) c).arrAt_in 3 rfl cfg2.N).trans (exit2_of m c main_v13 (by decide)).symm
  | ⟨4, _⟩ => (exit2_4 m c).symm
  | ⟨5, _⟩ => (exit2_5 m c).symm

/-- and every other buffer what it held at entry. -/
theorem hrest2 (c : Dev nD) : ∀ b, b ∉ Finset.univ.image (Pipeline.arrRef spec2) → B6 m c b = B5 m c b :=
  fun b hb => exit2_of m c b (by
    intro hmem
    simp only [List.mem_cons, List.mem_singleton, List.not_mem_nil, or_false] at hmem
    rcases hmem with rfl | rfl
    · exact hb (Finset.mem_image.mpr ⟨4, Finset.mem_univ _, rfl⟩)
    · exact hb (Finset.mem_image.mpr ⟨5, Finset.mem_univ _, rfl⟩))

set_option backward.isDefEq.respectTransparency.types false in
/-- Region 2 over the thread state: entered from every unscoped buffer at the contents before it, left at the contents after it.
    Its arrays are split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => B5 m c b) c).loose
  hwaits := Pipeline.hwaits_of_owed_zero _ _ _ _ L lv 2 fun _ _ => rfl
  pre c := iprop(StableHlo.held (c : Thread nD τ) (Pipeline.ucRefs τ sig) (V5 m (left m) c) ∗ Rests 2 c)
  post c := iprop(StableHlo.held (c : Thread nD τ) (Pipeline.ucRefs τ sig) (V6 m (left m) c) ∗ Rests 3 c)
  X c := iprop(∃ r, prngReg c r)
  Y c := iprop(∃ r, prngReg c r)
  Z c := Pipeline.unscopedRest (Ix := Unit) (Name := ℕ) (U := UR sig nD τ) (Lvl := ℕ) spec2 c (fun b => B5 m c b)
  hentry c := by
    rw [Pipeline.ownSems0_none, V5_eq]
    have hsplit := Pipeline.arrays_of_unscopedBufs (p := 2) (pcfgs (F := F)) adm (pdats m) launch2.win launch2.arr_whole c
      ((pdats m 2 c).share_full fun _ => rfl) (fun b => B5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => B5 m c b) (fun b => B6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/-
  Region 3 as a segment of the run: it changes only its output array, every other buffer keeps what it held, and over the thread
  state its arrays are split out of the core's buffers at entry and put back at exit.
-/
import proofs.«116564_j90065464197253_2_alg».proof.Proof.K.Contents

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 3 its output array `main_v58` holds the write-backs' fold. -/
theorem exit3_10 (c : Dev nD) : B10 m c main_v58 = o3_10 m c := by
  rw [← V10_eq, ← left_main_v58 m 10 c]
  simp only [V10, Function.update_self]

/-- Region 3 changes only its output array. -/
theorem exit3_of (c : Dev nD) (b : Ref sig .tc) (h : b ∉ ([main_v58] : List (Ref sig .tc))) : B10 m c b = B9 m c b := by
  have := V10_of m (left m) c b h
  rwa [V10_eq, V9_eq] at this

set_option maxHeartbeats 4000000 in
/-- At region 3's exit each of its arrays holds what the pipeline leaves: an input array what it held, the output array the
    write-backs' fold. -/
theorem hF3 (c : Dev nD) : ∀ w : Fin cfg3.W, (dat3 (fun c b => B9 m c b) c).arrAt w cfg3.N = B10 m c (Pipeline.arrRef spec3 w)
  | ⟨0, _⟩ => ((dat3 (fun c b => B9 m c b) c).arrAt_in 0 rfl cfg3.N).trans (exit3_of m c main_arg0 (by decide)).symm
  | ⟨1, _⟩ => ((dat3 (fun c b => B9 m c b) c).arrAt_in 1 rfl cfg3.N).trans (exit3_of m c main_v47 (by decide)).symm
  | ⟨2, _⟩ => ((dat3 (fun c b => B9 m c b) c).arrAt_in 2 rfl cfg3.N).trans (exit3_of m c main_v52 (by decide)).symm
  | ⟨3, _⟩ => ((dat3 (fun c b => B9 m c b) c).arrAt_in 3 rfl cfg3.N).trans (exit3_of m c main_v53 (by decide)).symm
  | ⟨4, _⟩ => ((dat3 (fun c b => B9 m c b) c).arrAt_in 4 rfl cfg3.N).trans (exit3_of m c main_v54 (by decide)).symm
  | ⟨5, _⟩ => ((dat3 (fun c b => B9 m c b) c).arrAt_in 5 rfl cfg3.N).trans (exit3_of m c main_v55 (by decide)).symm
  | ⟨6, _⟩ => ((dat3 (fun c b => B9 m c b) c).arrAt_in 6 rfl cfg3.N).trans (exit3_of m c main_arg11 (by decide)).symm
  | ⟨7, _⟩ => ((dat3 (fun c b => B9 m c b) c).arrAt_in 7 rfl cfg3.N).trans (exit3_of m c main_v56 (by decide)).symm
  | ⟨8, _⟩ => ((dat3 (fun c b => B9 m c b) c).arrAt_in 8 rfl cfg3.N).trans (exit3_of m c main_arg13 (by decide)).symm
  | ⟨9, _⟩ => ((dat3 (fun c b => B9 m c b) c).arrAt_in 9 rfl cfg3.N).trans (exit3_of m c main_v57 (by decide)).symm
  | ⟨10, _⟩ => (exit3_10 m c).symm

/-- and every other buffer what it held at entry. -/
theorem hrest3 (c : Dev nD) : ∀ b, b ∉ Finset.univ.image (Pipeline.arrRef spec3) → B10 m c b = B9 m c b :=
  fun b hb => exit3_of m c b (by
    intro hmem
    simp only [List.mem_cons, List.mem_singleton, List.not_mem_nil, or_false] at hmem
    rcases hmem with rfl
    · exact hb (Finset.mem_image.mpr ⟨10, Finset.mem_univ _, rfl⟩))

set_option backward.isDefEq.respectTransparency.types false in
/-- Region 3 over the thread state: entered from every unscoped buffer at the contents before it, left at the contents after it.
    Its arrays are split out of the unscoped buffers and put back at the exit contents; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => B9 m c b) c).loose
  hwaits := Pipeline.hwaits_of_owed_zero _ _ _ _ L lv 3 fun _ _ => rfl
  pre c := iprop(StableHlo.held (c : Thread nD τ) (Pipeline.ucRefs τ sig) (V9 m (left m) c) ∗ Rests 3 c)
  post c := iprop(StableHlo.held (c : Thread nD τ) (Pipeline.ucRefs τ sig) (V10 m (left m) c) ∗ Rests 4 c)
  X c := iprop(∃ r, prngReg c r)
  Y c := iprop(∃ r, prngReg c r)
  Z c := Pipeline.unscopedRest (Ix := Unit) (Name := ℕ) (U := UR sig nD τ) (Lvl := ℕ) spec3 c (fun b => B9 m c b)
  hentry c := by
    rw [Pipeline.ownSems0_none, V9_eq]
    have hsplit := Pipeline.arrays_of_unscopedBufs (p := 3) (pcfgs (F := F)) adm (pdats m) launch3.win launch3.arr_whole c
      ((pdats m 3 c).share_full fun _ => rfl) (fun b => B9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    rw [V10_eq]
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => B9 m c b) (fun b => B10 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/-
  Region 4 as a segment of the run: it changes only its output array, every other buffer keeps what it held, and over the thread
  state its arrays are split out of the core's buffers at entry and put back at exit.
-/
import proofs.«116564_j90065464197253_2_alg».proof.Proof.K.Contents

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 4 its output array `main_v66` holds the write-backs' fold. -/
theorem exit4_5 (c : Dev nD) : B14 m c main_v66 = o4_5 m c := by
  rw [← V14_eq, ← left_main_v66 m 14 c]
  simp only [V14, Function.update_self]

/-- Region 4 changes only its output array. -/
theorem exit4_of (c : Dev nD) (b : Ref sig .tc) (h : b ∉ ([main_v66] : List (Ref sig .tc))) : B14 m c b = B13 m c b := by
  have := V14_of m (left m) c b h
  rwa [V14_eq, V13_eq] at this

set_option maxHeartbeats 4000000 in
/-- At region 4's exit each of its arrays holds what the pipeline leaves: an input array what it held, the output array the
    write-backs' fold. -/
theorem hF4 (c : Dev nD) : ∀ w : Fin cfg4.W, (dat4 (fun c b => B13 m c b) c).arrAt w cfg4.N = B14 m c (Pipeline.arrRef spec4 w)
  | ⟨0, _⟩ => ((dat4 (fun c b => B13 m c b) c).arrAt_in 0 rfl cfg4.N).trans (exit4_of m c main_v58 (by decide)).symm
  | ⟨1, _⟩ => ((dat4 (fun c b => B13 m c b) c).arrAt_in 1 rfl cfg4.N).trans (exit4_of m c main_v62 (by decide)).symm
  | ⟨2, _⟩ => ((dat4 (fun c b => B13 m c b) c).arrAt_in 2 rfl cfg4.N).trans (exit4_of m c main_v63 (by decide)).symm
  | ⟨3, _⟩ => ((dat4 (fun c b => B13 m c b) c).arrAt_in 3 rfl cfg4.N).trans (exit4_of m c main_v64 (by decide)).symm
  | ⟨4, _⟩ => ((dat4 (fun c b => B13 m c b) c).arrAt_in 4 rfl cfg4.N).trans (exit4_of m c main_v65 (by decide)).symm
  | ⟨5, _⟩ => (exit4_5 m c).symm

/-- and every other buffer what it held at entry. -/
theorem hrest4 (c : Dev nD) : ∀ b, b ∉ Finset.univ.image (Pipeline.arrRef spec4) → B14 m c b = B13 m c b :=
  fun b hb => exit4_of m c b (by
    intro hmem
    simp only [List.mem_cons, List.mem_singleton, List.not_mem_nil, or_false] at hmem
    rcases hmem with rfl
    · exact hb (Finset.mem_image.mpr ⟨5, Finset.mem_univ _, rfl⟩))

set_option backward.isDefEq.respectTransparency.types false in
/-- Region 4 over the thread state: entered from every unscoped buffer at the contents before it, left at the contents after it.
    Its arrays are split out of the unscoped buffers and put back at the exit contents; the generator register goes into the
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => B13 m c b) c).loose
  hwaits := Pipeline.hwaits_of_owed_zero _ _ _ _ L lv 4 fun _ _ => rfl
  pre c := iprop(StableHlo.held (c : Thread nD τ) (Pipeline.ucRefs τ sig) (V13 m (left m) c) ∗ Rests 4 c)
  post c := iprop(StableHlo.held (c : Thread nD τ) (Pipeline.ucRefs τ sig) (V14 m (left m) c) ∗ Rests 5 c)
  X c := iprop(∃ r, prngReg c r)
  Y c := iprop(∃ r, prngReg c r)
  Z c := Pipeline.unscopedRest (Ix := Unit) (Name := ℕ) (U := UR sig nD τ) (Lvl := ℕ) spec4 c (fun b => B13 m c b)
  hentry c := by
    rw [Pipeline.ownSems0_none, V13_eq]
    have hsplit := Pipeline.arrays_of_unscopedBufs (p := 4) (pcfgs (F := F)) adm (pdats m) launch4.win launch4.arr_whole c
      ((pdats m 4 c).share_full fun _ => rfl) (fun b => B13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    rw [V14_eq]
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => B13 m c b) (fun b => B14 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
/-
  The frame of the whole pipeline: the conditional frame at the five regions' records.
-/
import proofs.«116564_j90065464197253_2_alg».proof.Proof.K.Seg0
import proofs.«116564_j90065464197253_2_alg».proof.Proof.K.Seg1
import proofs.«116564_j90065464197253_2_alg».proof.Proof.K.Seg2
import proofs.«116564_j90065464197253_2_alg».proof.Proof.K.Seg3
import proofs.«116564_j90065464197253_2_alg».proof.Proof.K.Seg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame -/

set_option backward.isDefEq.respectTransparency.types false in
/-- From any memory with zero counters every weakly fair execution of @main terminates, nothing faulting, and every final state has
    the argument arrays as launched: the conditional frame at the five records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond m emb₁ () 𝒱₀ L lv (fun _ _ => rfl) ρ (left m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    Rests
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)

end Cert.Kernel.Hand

end
-- ==== Proof.KI.Region0.lean ====
/-
  Region 0 of the pipeline: the fused projection  x · [W_Q | W_K | W_V]  over f32[50000, 128] × f32[128, 384], 25 grid points.
  At grid point t the body reads rows [2000 t, 2000 (t+1)) of x (window 0), the whole weight matrix (window 1, whose block never
  moves) and leaves in the output window's buffer (window 2) the 2000 × 384 product of the two, each operand first rounded to
  bf16, accumulated from zero. Everything here is stated at a parameter V: the buffers' contents when the region is entered.
-/
import proofs.«116564_j90065464197253_2_alg».proof.Proof.Gen.KernelIdeal.Launch
import proofs.«116564_j90065464197253_2_alg».proof.Proof.Gen.KernelIdeal.Skeleton
import proofs.«116564_j90065464197253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x the body is handed at t are the block of x there, whether or not a transfer brought them at t. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix the body is handed at t is the whole matrix: it is brought once, and its block index never moves. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

abbrev rX0 : Rect S2000x128 := Rect.unit (s := S2000x128) ![0, 0] S2000x128.size inb_S2000x128_S2000x128_0_0
abbrev rW0 : Rect S128x384 := Rect.unit (s := S128x384) ![0, 0] S128x384.size inb_S128x384_S128x384_0_0
abbrev rO0 : Rect S2000x384 := Rect.unit (s := S2000x384) ![0, 0] S2000x384.size inb_S2000x384_S2000x384_0_0

/-- What the body leaves in the output window's buffer, from the rows of x and the weights it was handed: its one store, of the
    product, over the whole buffer. -/
def proj0 (x0 : Vec F S2000x128 .f32) (x1 : Vec F S128x384 .f32) : Vec F S2000x384 .f32 :=
  View.canon [⟨rO0, k0_pay1 (View.ld x0 rX0) (View.ld x1 rW0)⟩]

/-- The one store covers the buffer. -/
theorem cover0 (p0 : Vec F S2000x384 .f32) (y : S2000x384.Idx) :
    ∃ pc ∈ ([⟨rO0, p0⟩] : List (View.Piece (Elt F) S2000x384 .f32)), y ∈ pc.1.set :=
  View.cover_of_tiled [⟨rO0, p0⟩] S2000x384.size (by rfl) y

set_option maxHeartbeats 1000000 in
/-- The body on whole staging buffers: the two inputs keep what they hold, the output ends at the product. -/
theorem sound_kernel0 (c : Dev nD) (E : Set ℕ) (i : grid0.Coords)
    (arg1 : Memref sig .tc .vmem S2000x128 .f32) (harg1 : arg1.IsWhole) (arg2 : Memref sig .tc .vmem S128x384 .f32) (harg2 : arg2.IsWhole)
    (arg3 : Memref sig .tc .vmem S2000x384 .f32) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (proj0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of the region on core c: the arrays as the region finds them; after the body at t the two input buffers hold
    their blocks and the output buffer the product of the two; nothing is owed and the invariant is the scoped rest, untouched. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => proj0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = proj0 (blk0 V c 0 t) (blk0 V c 1 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the pipeline: the edge projection  edge_attr · W_E  over f32[600000, 128] × f32[128, 128], 100 grid points.
  At grid point t the body reads rows [6000 t, 6000 (t+1)) of edge_attr (window 0), the whole weight matrix (window 1, whose block
  never moves) and leaves in the output window's buffer (window 2) their 6000 × 128 product, each operand first rounded to bf16,
  accumulated from zero. Stated at a parameter V: the buffers' contents when the region is entered.
-/
import proofs.«116564_j90065464197253_2_alg».proof.Proof.Gen.KernelIdeal.Launch
import proofs.«116564_j90065464197253_2_alg».proof.Proof.Gen.KernelIdeal.Skeleton
import proofs.«116564_j90065464197253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer the body is handed at t holds the window's block there, whether or not a transfer brought it at t (rows of edge_attr). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The buffer the body is handed at t holds the whole (one-block) array: it is brought once, and its block index never moves (the weights W_E). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

abbrev r1_0 : Rect S6000x128 := Rect.unit (s := S6000x128) ![0, 0] S6000x128.size inb_S6000x128_S6000x128_0_0
abbrev r1_1 : Rect S128x128 := Rect.unit (s := S128x128) ![0, 0] S128x128.size inb_S128x128_S128x128_0_0
abbrev r1_2 : Rect S6000x128 := Rect.unit (s := S6000x128) ![0, 0] S6000x128.size inb_S6000x128_S6000x128_0_0

/-- What the body leaves in the output window's buffer, from the rows of edge_attr and the weights it was handed: its one store, of their product, over the whole buffer. -/
def proj1 (x0 : Vec F S6000x128 .f32) (x1 : Vec F S128x128 .f32) : Vec F S6000x128 .f32 :=
  View.canon [⟨r1_2, k1_pay1 (View.ld x0 r1_0) (View.ld x1 r1_1)⟩]

/-- The one store into that buffer covers it. -/
theorem cover1_2 (p0 : Vec F S6000x128 .f32) (y : S6000x128.Idx) :
    ∃ pc ∈ ([⟨r1_2, p0⟩] : List (View.Piece (Elt F) S6000x128 .f32)), y ∈ pc.1.set :=
  View.cover_of_tiled [⟨r1_2, p0⟩] S6000x128.size (by rfl) y

set_option maxHeartbeats 4000000 in
/-- The body on whole staging buffers: every input keeps what it holds, every output ends at its value above. -/
theorem sound_kernel1 (c : Dev nD) (E : Set ℕ) (i : grid1.Coords)
    (arg1 : Memref sig .tc .vmem S6000x128 .f32) (harg1 : arg1.IsWhole) (arg2 : Memref sig .tc .vmem S128x128 .f32) (harg2 : arg2.IsWhole) (arg3 : Memref sig .tc .vmem S6000x128 .f32) (harg3 : arg3.IsWhole)
    (x0 : Vec F S6000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (proj1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core c: the arrays as the region finds them; after the body at t every input buffer holds its
    block and every output buffer its value above, of the input blocks at t; nothing is owed and the invariant is the scoped rest,
    untouched. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => proj1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = proj1 (blk1 V c 0 t) (blk1 V c 1 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
/-- The body at any point: the inputs' buffers hold their blocks, so the body's run applies; the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the pipeline: the per-edge attention weights and messages, 600 grid points of 1000 edges each.
  At grid point t the body reads the blocks [1000 t, 1000 (t+1)) of the gathered keys K[src], queries Q[dst], values V[src] and of the
  projected edge features Eh (windows 0–3, each 1000 × 8 × 16) and leaves in window 4 the weights  s = exp(clip(Σ_d k·q·¼·eh, −5, 5))
  (1000 × 8) and in window 5 the messages  v · s  (1000 × 8 × 16). Stated at a parameter V: the buffers' contents when the region
  is entered.
-/
import proofs.«116564_j90065464197253_2_alg».proof.Proof.Gen.KernelIdeal.Launch
import proofs.«116564_j90065464197253_2_alg».proof.Proof.Gen.KernelIdeal.Skeleton
import proofs.«116564_j90065464197253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffer the body is handed at t holds the window's block there, whether or not a transfer brought it at t (gathered keys). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The buffer the body is handed at t holds the window's block there, whether or not a transfer brought it at t (gathered queries). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The buffer the body is handed at t holds the window's block there, whether or not a transfer brought it at t (gathered values). -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The buffer the body is handed at t holds the window's block there, whether or not a transfer brought it at t (projected edge features). -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

abbrev r2_0 : Rect S1000x8x16 := Rect.unit (s := S1000x8x16) ![0, 0, 0] S1000x8x16.size inb_S1000x8x16_S1000x8x16_0_0_0
abbrev r2_1 : Rect S1000x8x16 := Rect.unit (s := S1000x8x16) ![0, 0, 0] S1000x8x16.size inb_S1000x8x16_S1000x8x16_0_0_0
abbrev r2_2 : Rect S1000x8x16 := Rect.unit (s := S1000x8x16) ![0, 0, 0] S1000x8x16.size inb_S1000x8x16_S1000x8x16_0_0_0
abbrev r2_3 : Rect S1000x8x16 := Rect.unit (s := S1000x8x16) ![0, 0, 0] S1000x8x16.size inb_S1000x8x16_S1000x8x16_0_0_0
abbrev r2_4 : Rect S1000x8 := Rect.unit (s := S1000x8) ![0, 0] S1000x8.size inb_S1000x8_S1000x8_0_0
abbrev r2_5 : Rect S1000x8x16 := Rect.unit (s := S1000x8x16) ![0, 0, 0] S1000x8x16.size inb_S1000x8x16_S1000x8x16_0_0_0

/-- What the body leaves in the weights' buffer: its one store, of exp(clip(Σ_d k·q·¼·eh)), over the whole buffer. -/
def weights2 (x0 : Vec F S1000x8x16 .f32) (x1 : Vec F S1000x8x16 .f32) (x2 : Vec F S1000x8x16 .f32) (x3 : Vec F S1000x8x16 .f32) : Vec F S1000x8 .f32 :=
  View.canon [⟨r2_4, k2_pay1 (View.ld x0 r2_0) (View.ld x1 r2_1) (View.ld x3 r2_3)⟩]

/-- The one store into that buffer covers it. -/
theorem cover2_4 (p0 : Vec F S1000x8 .f32) (y : S1000x8.Idx) :
    ∃ pc ∈ ([⟨r2_4, p0⟩] : List (View.Piece (Elt F) S1000x8 .f32)), y ∈ pc.1.set :=
  View.cover_of_tiled [⟨r2_4, p0⟩] S1000x8.size (by rfl) y

/-- What the body leaves in the messages' buffer: its one store, of v · s, over the whole buffer. -/
def messages2 (x0 : Vec F S1000x8x16 .f32) (x1 : Vec F S1000x8x16 .f32) (x2 : Vec F S1000x8x16 .f32) (x3 : Vec F S1000x8x16 .f32) : Vec F S1000x8x16 .f32 :=
  View.canon [⟨r2_5, k2_pay2 (View.ld x0 r2_0) (View.ld x1 r2_1) (View.ld x2 r2_2) (View.ld x3 r2_3)⟩]

/-- The one store into that buffer covers it. -/
theorem cover2_5 (p0 : Vec F S1000x8x16 .f32) (y : S1000x8x16.Idx) :
    ∃ pc ∈ ([⟨r2_5, p0⟩] : List (View.Piece (Elt F) S1000x8x16 .f32)), y ∈ pc.1.set :=
  View.cover_of_tiled [⟨r2_5, p0⟩] S1000x8x16.size (by rfl) y

set_option maxHeartbeats 4000000 in
/-- The body on whole staging buffers: every input keeps what it holds, every output ends at its value above. -/
theorem sound_kernel2 (c : Dev nD) (E : Set ℕ) (i : grid2.Coords)
    (arg1 : Memref sig .tc .vmem S1000x8x16 .f32) (harg1 : arg1.IsWhole) (arg2 : Memref sig .tc .vmem S1000x8x16 .f32) (harg2 : arg2.IsWhole) (arg3 : Memref sig .tc .vmem S1000x8x16 .f32) (harg3 : arg3.IsWhole) (arg4 : Memref sig .tc .vmem S1000x8x16 .f32) (harg4 : arg4.IsWhole) (arg5 : Memref sig .tc .vmem S1000x8 .f32) (harg5 : arg5.IsWhole) (arg6 : Memref sig .tc .vmem S1000x8x16 .f32) (harg6 : arg6.IsWhole)
    (x0 : Vec F S1000x8x16 .f32) (x1 : Vec F S1000x8x16 .f32) (x2 : Vec F S1000x8x16 .f32) (x3 : Vec F S1000x8x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (weights2 x0 x1 x2 x3) ∗ owns (c : Thread nD τ) arg6 fullShare (messages2 x0 x1 x2 x3)) -∗ K ⟨⟩))
      ⊢ wp frame (wpE (defs₀ (F := F)) Variants.none c none) E (cc2__kernel i arg1 harg1 arg2 harg2 arg3 harg3 arg4 harg4 arg5 harg5 arg6 harg6) K := by
  simp only [cc2__kernel_eq_skeleton]; unfold cc2__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-- The proof data of the region on core c: the arrays as the region finds them; after the body at t every input buffer holds its
    block and every output buffer its value above, of the input blocks at t; nothing is owed and the invariant is the scoped rest,
    untouched. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => weights2 (blk2 V c 0 t) (blk2 V c 1 t) (blk2 V c 2 t) (blk2 V c 3 t)
    | ⟨5, _⟩ => messages2 (blk2 V c 0 t) (blk2 V c 1 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = weights2 (blk2 V c 0 t) (blk2 V c 1 t) (blk2 V c 2 t) (blk2 V c 3 t) := by dsimp only [dat2]
theorem after2_5 (c : Dev nD) (t : Fin cfg2.N) : (dat2 V c).after 5 t = messages2 (blk2 V c 0 t) (blk2 V c 1 t) (blk2 V c 2 t) (blk2 V c 3 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d
theorem held2_2 (c : Dev nD) (t : Fin cfg2.N) (d) : (dat2 V c).before 2 t d = blk2 V c 2 t :=
  held2_2_of V (dat2 V c) (A_eq2 V c 2) (after2_2 V c) t d
theorem held2_3 (c : Dev nD) (t : Fin cfg2.N) (d) : (dat2 V c).before 3 t d = blk2 V c 3 t :=
  held2_3_of V (dat2 V c) (A_eq2 V c 3) (after2_3 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the inputs' buffers hold their blocks, so the body's run applies; the invariant and what the core owes
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2, held2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of the pipeline: the first normalisation fused with the feed-forward block, 25 grid points of 2000 rows each.
  At grid point t the body reads rows [2000 t, 2000 (t+1)) of x and of the attention output (windows 0, 1), the column statistics
  μ, σ² and the scale γ₁ and shift β₁ (windows 2–5, each 1 × 128, never moving), the weights W₁, b₁, W₂, b₂ (windows 6–9, never
  moving) and leaves in window 10  h + (relu(h W₁ + b₁) W₂ + b₂)  with  h = γ₁ (x + a − μ) rsqrt(σ² + ε) + β₁. Stated at a
  parameter V: the buffers' contents when the region is entered.
-/
import proofs.«116564_j90065464197253_2_alg».proof.Proof.Gen.KernelIdeal.Launch
import proofs.«116564_j90065464197253_2_alg».proof.Proof.Gen.KernelIdeal.Skeleton
import proofs.«116564_j90065464197253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The buffer the body is handed at t holds the window's block there, whether or not a transfer brought it at t (rows of x). -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the window's block there, whether or not a transfer brought it at t (rows of the attention output). -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (column means). -/
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (column variances). -/
theorem held3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (scale γ₁). -/
theorem held3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (shift β₁). -/
theorem held3_5_of {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (W₁). -/
theorem held3_6_of {c : Dev nD} (dat : Dat τ (Elt F) Unit ℕ (UR sig nD τ) ℕ cfg3 c) (hA : dat.A 6 = V c (Pipeline.arrRef spec3 6))
    (hafter : ∀ t, dat.after 6 t = blk3 V c 6 t) (t : Fin cfg3.N) (d) : dat.before 6 t d = blk3 V c 6 t :=
  (dat.before_in_eq_fetched 6 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (b₁). -/
theorem held3_7_of {c : Dev nD} (dat : Dat τ (Elt F) Unit ℕ (UR sig nD τ) ℕ cfg3 c) (hA : dat.A 7 = V c (Pipeline.arrRef spec3 7))
    (hafter : ∀ t, dat.after 7 t = blk3 V c 7 t) (t : Fin cfg3.N) (d) : dat.before 7 t d = blk3 V c 7 t :=
  (dat.before_in_eq_fetched 7 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (W₂). -/
theorem held3_8_of {c : Dev nD} (dat : Dat τ (Elt F) Unit ℕ (UR sig nD τ) ℕ cfg3 c) (hA : dat.A 8 = V c (Pipeline.arrRef spec3 8))
    (hafter : ∀ t, dat.after 8 t = blk3 V c 8 t) (t : Fin cfg3.N) (d) : dat.before 8 t d = blk3 V c 8 t :=
  (dat.before_in_eq_fetched 8 rfl (fun _ => rfl) (fun _ _ _ => rfl) (fun t => by rw [hafter]; unfold Dat.blockOf blk3; rw [hA]; try rfl) t d).trans
    (by unfold Dat.fetched Dat.blockOf blk3; rw [hA]; try rfl)

/-- The buffer the body is handed at t holds the whole (one-block) array: it is brought once, and its block index never moves (b₂). -/
theorem held3_9_of {c : Dev nD} (dat : Dat τ (Elt F) Unit ℕ (UR sig nD τ) ℕ cfg3 c) (hA : dat.A 9 = V c (Pipeline.arrRef spec3 9))
    (hafter : ∀ t, dat.after 9 t = blk3 V c 9 t) (t : Fin cfg3.N) (d) : dat.before 9 t d = blk3 V c 9 t :=
  (dat.before_in_eq_fetched 9 rfl (fun _ => rfl) (fun _ _ _ => rfl) (fun t => by rw [hafter]; unfold Dat.blockOf blk3; rw [hA]; try rfl) t d).trans
    (by unfold Dat.fetched Dat.blockOf blk3; rw [hA]; try rfl)

abbrev r3_0 : Rect S2000x128 := Rect.unit (s := S2000x128) ![0, 0] S2000x128.size inb_S2000x128_S2000x128_0_0
abbrev r3_1 : Rect S2000x128 := Rect.unit (s := S2000x128) ![0, 0] S2000x128.size inb_S2000x128_S2000x128_0_0
abbrev r3_2 : Rect S1x128 := Rect.unit (s := S1x128) ![0, 0] S1x128.size inb_S1x128_S1x128_0_0
abbrev r3_3 : Rect S1x128 := Rect.unit (s := S1x128) ![0, 0] S1x128.size inb_S1x128_S1x128_0_0
abbrev r3_4 : Rect S1x128 := Rect.unit (s := S1x128) ![0, 0] S1x128.size inb_S1x128_S1x128_0_0
abbrev r3_5 : Rect S1x128 := Rect.unit (s := S1x128) ![0, 0] S1x128.size inb_S1x128_S1x128_0_0
abbrev r3_6 : Rect S128x256 := Rect.unit (s := S128x256) ![0, 0] S128x256.size inb_S128x256_S128x256_0_0
abbrev r3_7 : Rect S1x256 := Rect.unit (s := S1x256) ![0, 0] S1x256.size inb_S1x256_S1x256_0_0
abbrev r3_8 : Rect S256x128 := Rect.unit (s := S256x128) ![0, 0] S256x128.size inb_S256x128_S256x128_0_0
abbrev r3_9 : Rect S1x128 := Rect.unit (s := S1x128) ![0, 0] S1x128.size inb_S1x128_S1x128_0_0
abbrev r3_10 : Rect S2000x128 := Rect.unit (s := S2000x128) ![0, 0] S2000x128.size inb_S2000x128_S2000x128_0_0

/-- What the body leaves in the output window's buffer: its one store, of h + (relu(h W₁ + b₁) W₂ + b₂), over the whole buffer. -/
def normff3 (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) : Vec F S2000x128 .f32 :=
  View.canon [⟨r3_10, k3_pay1 (k3_pay2 (View.ld x0 r3_0) (View.ld x1 r3_1) (View.ld x2 r3_2) (View.ld x3 r3_3) (View.ld x4 r3_4) (View.ld x5 r3_5)) (k3_pay3 (View.ld x0 r3_0) (View.ld x1 r3_1) (View.ld x2 r3_2) (View.ld x3 r3_3) (View.ld x4 r3_4) (View.ld x5 r3_5) (View.ld x6 r3_6) (View.ld x7 r3_7)) (k3_pay4 (View.ld x8 r3_8)) (View.ld x9 r3_9)⟩]

/-- The one store into that buffer covers it. -/
theorem cover3_10 (p0 : Vec F S2000x128 .f32) (y : S2000x128.Idx) :
    ∃ pc ∈ ([⟨r3_10, p0⟩] : List (View.Piece (Elt F) S2000x128 .f32)), y ∈ pc.1.set :=
  View.cover_of_tiled [⟨r3_10, p0⟩] S2000x128.size (by rfl) y

set_option maxHeartbeats 4000000 in
/-- The body on whole staging buffers: every input keeps what it holds, every output ends at its value above. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S2000x128 .f32) (harg11 : arg11.IsWhole)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (normff3 x0 x1 x2 x3 x4 x5 x6 x7 x8 x9)) -∗ K ⟨⟩))
      ⊢ wp frame (wpE (defs₀ (F := F)) Variants.none c none) E (cc3__bn1_ff_kernel i arg1 harg1 arg2 harg2 arg3 harg3 arg4 harg4 arg5 harg5 arg6 harg6 arg7 harg7 arg8 harg8 arg9 harg9 arg10 harg10 arg11 harg11) K := by
  simp only [cc3__bn1_ff_kernel_eq_skeleton]; unfold cc3__bn1_ff_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-- The proof data of the region on core c: the arrays as the region finds them; after the body at t every input buffer holds its
    block and every output buffer its value above, of the input blocks at t; nothing is owed and the invariant is the scoped rest,
    untouched. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => blk3 V c 8 t
    | ⟨9, _⟩ => blk3 V c 9 t
    | ⟨10, _⟩ => normff3 (blk3 V c 0 t) (blk3 V c 1 t) (blk3 V c 2 t) (blk3 V c 3 t) (blk3 V c 4 t) (blk3 V c 5 t) (blk3 V c 6 t) (blk3 V c 7 t) (blk3 V c 8 t) (blk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = blk3 V c 6 t := by dsimp only [dat3]
theorem after3_7 (c : Dev nD) (t : Fin cfg3.N) : (dat3 V c).after 7 t = blk3 V c 7 t := by dsimp only [dat3]
theorem after3_8 (c : Dev nD) (t : Fin cfg3.N) : (dat3 V c).after 8 t = blk3 V c 8 t := by dsimp only [dat3]
theorem after3_9 (c : Dev nD) (t : Fin cfg3.N) : (dat3 V c).after 9 t = blk3 V c 9 t := by dsimp only [dat3]
theorem after3_10 (c : Dev nD) (t : Fin cfg3.N) : (dat3 V c).after 10 t = normff3 (blk3 V c 0 t) (blk3 V c 1 t) (blk3 V c 2 t) (blk3 V c 3 t) (blk3 V c 4 t) (blk3 V c 5 t) (blk3 V c 6 t) (blk3 V c 7 t) (blk3 V c 8 t) (blk3 V c 9 t) := by dsimp only [dat3]

theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d
theorem held3_2 (c : Dev nD) (t : Fin cfg3.N) (d) : (dat3 V c).before 2 t d = blk3 V c 2 t :=
  held3_2_of V (dat3 V c) (A_eq3 V c 2) (after3_2 V c) t d
theorem held3_3 (c : Dev nD) (t : Fin cfg3.N) (d) : (dat3 V c).before 3 t d = blk3 V c 3 t :=
  held3_3_of V (dat3 V c) (A_eq3 V c 3) (after3_3 V c) t d
theorem held3_4 (c : Dev nD) (t : Fin cfg3.N) (d) : (dat3 V c).before 4 t d = blk3 V c 4 t :=
  held3_4_of V (dat3 V c) (A_eq3 V c 4) (after3_4 V c) t d
theorem held3_5 (c : Dev nD) (t : Fin cfg3.N) (d) : (dat3 V c).before 5 t d = blk3 V c 5 t :=
  held3_5_of V (dat3 V c) (A_eq3 V c 5) (after3_5 V c) t d
theorem held3_6 (c : Dev nD) (t : Fin cfg3.N) (d) : (dat3 V c).before 6 t d = blk3 V c 6 t :=
  held3_6_of V (dat3 V c) (A_eq3 V c 6) (after3_6 V c) t d
theorem held3_7 (c : Dev nD) (t : Fin cfg3.N) (d) : (dat3 V c).before 7 t d = blk3 V c 7 t :=
  held3_7_of V (dat3 V c) (A_eq3 V c 7) (after3_7 V c) t d
theorem held3_8 (c : Dev nD) (t : Fin cfg3.N) (d) : (dat3 V c).before 8 t d = blk3 V c 8 t :=
  held3_8_of V (dat3 V c) (A_eq3 V c 8) (after3_8 V c) t d
theorem held3_9 (c : Dev nD) (t : Fin cfg3.N) (d) : (dat3 V c).before 9 t d = blk3 V c 9 t :=
  held3_9_of V (dat3 V c) (A_eq3 V c 9) (after3_9 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 4000000 in
/-- The body at any point: the inputs' buffers hold their blocks, so the body's run applies; the invariant and what the core owes
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1, held3_2, held3_3, held3_4, held3_5, held3_6, held3_7, held3_8, held3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) (blk3 V c 8 t) (blk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
/-
  Region 4 of the pipeline: the second normalisation, 25 grid points of 2000 rows each.
  At grid point t the body reads rows [2000 t, 2000 (t+1)) of the feed-forward block's output (window 0), the column statistics μ, σ²
  and the scale γ₂ and shift β₂ (windows 1–4, each 1 × 128, never moving) and leaves in window 5  γ₂ (h − μ) rsqrt(σ² + ε) + β₂.
  Stated at a parameter V: the buffers' contents when the region is entered.
-/
import proofs.«116564_j90065464197253_2_alg».proof.Proof.Gen.KernelIdeal.Launch
import proofs.«116564_j90065464197253_2_alg».proof.Proof.Gen.KernelIdeal.Skeleton
import proofs.«116564_j90065464197253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, cut out of the window's array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The buffer the body is handed at t holds the window's block there, whether or not a transfer brought it at t (rows of the feed-forward output). -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- The buffer the body is handed at t holds the whole (one-block) array: it is brought once, and its block index never moves (column means). -/
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- The buffer the body is handed at t holds the whole (one-block) array: it is brought once, and its block index never moves (column variances). -/
theorem held4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The buffer the body is handed at t holds the whole (one-block) array: it is brought once, and its block index never moves (scale γ₂). -/
theorem held4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- The buffer the body is handed at t holds the whole (one-block) array: it is brought once, and its block index never moves (shift β₂). -/
theorem held4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0
abbrev r4_2 : Rect S1x128 := Rect.unit (s := S1x128) ![0, 0] S1x128.size inb_S1x128_S1x128_0_0
abbrev r4_3 : Rect S1x128 := Rect.unit (s := S1x128) ![0, 0] S1x128.size inb_S1x128_S1x128_0_0
abbrev r4_4 : Rect S1x128 := Rect.unit (s := S1x128) ![0, 0] S1x128.size inb_S1x128_S1x128_0_0
abbrev r4_5 : Rect S2000x128 := Rect.unit (s := S2000x128) ![0, 0] S2000x128.size inb_S2000x128_S2000x128_0_0

/-- What the body leaves in the output window's buffer: its one store, of γ₂ (h − μ) rsqrt(σ² + ε) + β₂, over the whole buffer. -/
def norm4 (x0 : Vec F S2000x128 .f32) (x1 : Vec F S1x128 .f32) (x2 : Vec F S1x128 .f32) (x3 : Vec F S1x128 .f32) (x4 : Vec F S1x128 .f32) : Vec F S2000x128 .f32 :=
  View.canon [⟨r4_5, k4_pay1 (View.ld x0 r4_0) (View.ld x1 r4_1) (View.ld x2 r4_2) (View.ld x3 r4_3) (View.ld x4 r4_4)⟩]

/-- The one store into that buffer covers it. -/
theorem cover4_5 (p0 : Vec F S2000x128 .f32) (y : S2000x128.Idx) :
    ∃ pc ∈ ([⟨r4_5, p0⟩] : List (View.Piece (Elt F) S2000x128 .f32)), y ∈ pc.1.set :=
  View.cover_of_tiled [⟨r4_5, p0⟩] S2000x128.size (by rfl) y

set_option maxHeartbeats 4000000 in
/-- The body on whole staging buffers: every input keeps what it holds, every output ends at its value above. -/
theorem sound_kernel4 (c : Dev nD) (E : Set ℕ) (i : grid4.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (norm4 x0 x1 x2 x3 x4)) -∗ K ⟨⟩))
      ⊢ wp frame (wpE (defs₀ (F := F)) Variants.none c none) E (cc4__bn2_kernel i arg1 harg1 arg2 harg2 arg3 harg3 arg4 harg4 arg5 harg5 arg6 harg6) K := by
  simp only [cc4__bn2_kernel_eq_skeleton]; unfold cc4__bn2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of the region on core c: the arrays as the region finds them; after the body at t every input buffer holds its
    block and every output buffer its value above, of the input blocks at t; nothing is owed and the invariant is the scoped rest,
    untouched. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => norm4 (blk4 V c 0 t) (blk4 V c 1 t) (blk4 V c 2 t) (blk4 V c 3 t) (blk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = norm4 (blk4 V c 0 t) (blk4 V c 1 t) (blk4 V c 2 t) (blk4 V c 3 t) (blk4 V c 4 t) := by dsimp only [dat4]

theorem held4_0 (c : Dev nD) (t : Fin cfg4.N) (d) : (dat4 V c).before 0 t d = blk4 V c 0 t :=
  held4_0_of V (dat4 V c) (A_eq4 V c 0) (after4_0 V c) t d
theorem held4_1 (c : Dev nD) (t : Fin cfg4.N) (d) : (dat4 V c).before 1 t d = blk4 V c 1 t :=
  held4_1_of V (dat4 V c) (A_eq4 V c 1) (after4_1 V c) t d
theorem held4_2 (c : Dev nD) (t : Fin cfg4.N) (d) : (dat4 V c).before 2 t d = blk4 V c 2 t :=
  held4_2_of V (dat4 V c) (A_eq4 V c 2) (after4_2 V c) t d
theorem held4_3 (c : Dev nD) (t : Fin cfg4.N) (d) : (dat4 V c).before 3 t d = blk4 V c 3 t :=
  held4_3_of V (dat4 V c) (A_eq4 V c 3) (after4_3 V c) t d
theorem held4_4 (c : Dev nD) (t : Fin cfg4.N) (d) : (dat4 V c).before 4 t d = blk4 V c 4 t :=
  held4_4_of V (dat4 V c) (A_eq4 V c 4) (after4_4 V c) t d

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 4000000 in
/-- The body at any point: the inputs' buffers hold their blocks, so the body's run applies; the invariant and what the core owes
    pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [held4_0, held4_1, held4_2, held4_3, held4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Contents.lean ====
/-
  The contents of the core's buffers at every boundary of the pipeline's run: host operations, then each of the five regions in turn,
  each entered from what the host operations before it computed from what the regions before it left. What region K leaves in its
  output array is named (o…), the contents at every boundary follow (B…), and the family of proof data is each region's at its entry
  contents.
-/
import proofs.«116564_j90065464197253_2_alg».proof.Proof.KI.Region0
import proofs.«116564_j90065464197253_2_alg».proof.Proof.KI.Region1
import proofs.«116564_j90065464197253_2_alg».proof.Proof.KI.Region2
import proofs.«116564_j90065464197253_2_alg».proof.Proof.KI.Region3
import proofs.«116564_j90065464197253_2_alg».proof.Proof.KI.Region4
import proofs.«116564_j90065464197253_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, and the contents at every boundary -/

/-- The buffers at launch. -/
def B0 (c : Dev nD) : Valuation τ sig (Elt F) := fun b => m (c, b)
/-- After the host operations `hostOps0`. -/
def B1 (c : Dev nD) : Valuation τ sig (Elt F) := StableHlo.after hostOps0 (B0 m c)
/-- What region 0 leaves in `main_v5`: the write-backs of its output window 2, folded over the grid. -/
def o0_2 (c : Dev nD) : Buf (Elt F) ((c : Thread nD τ).loc main_v5) := (dat0 (fun c b => B1 m c b) c).arrAt 2 cfg0.N
/-- After region 0. -/
def B2 (c : Dev nD) : Valuation τ sig (Elt F) := Function.update (B1 m c) main_v5 (o0_2 m c)
/-- After the host operations `hostOps1`. -/
def B3 (c : Dev nD) : Valuation τ sig (Elt F) := StableHlo.after hostOps1 (B2 m c)
/-- What region 1 leaves in `main_v12`: the write-backs of its output window 2, folded over the grid. -/
def o1_2 (c : Dev nD) : Buf (Elt F) ((c : Thread nD τ).loc main_v12) := (dat1 (fun c b => B3 m c b) c).arrAt 2 cfg1.N
/-- After region 1. -/
def B4 (c : Dev nD) : Valuation τ sig (Elt F) := Function.update (B3 m c) main_v12 (o1_2 m c)
/-- After the host operations `hostOps2`. -/
def B5 (c : Dev nD) : Valuation τ sig (Elt F) := StableHlo.after hostOps2 (B4 m c)
/-- What region 2 leaves in `main_v35_0`: the write-backs of its output window 4, folded over the grid. -/
def o2_4 (c : Dev nD) : Buf (Elt F) ((c : Thread nD τ).loc main_v35_0) := (dat2 (fun c b => B5 m c b) c).arrAt 4 cfg2.N
/-- What region 2 leaves in `main_v35_1`: the write-backs of its output window 5, folded over the grid. -/
def o2_5 (c : Dev nD) : Buf (Elt F) ((c : Thread nD τ).loc main_v35_1) := (dat2 (fun c b => B5 m c b) c).arrAt 5 cfg2.N
/-- After region 2. -/
def B6 (c : Dev nD) : Valuation τ sig (Elt F) := Function.update (Function.update (B5 m c) main_v35_0 (o2_4 m c)) main_v35_1 (o2_5 m c)
/-- After the host operations `hostOps3`. -/
def B7 (c : Dev nD) : Valuation τ sig (Elt F) := StableHlo.after hostOps3 (B6 m c)
/-- After the host operations `hostOps3_1`. -/
def B8 (c : Dev nD) : Valuation τ sig (Elt F) := StableHlo.after hostOps3_1 (B7 m c)
/-- After the host operations `hostOps3_2`. -/
def B9 (c : Dev nD) : Valuation τ sig (Elt F) := StableHlo.after hostOps3_2 (B8 m c)
/-- What region 3 leaves in `main_v58`: the write-backs of its output window 10, folded over the grid. -/
def o3_10 (c : Dev nD) : Buf (Elt F) ((c : Thread nD τ).loc main_v58) := (dat3 (fun c b => B9 m c b) c).arrAt 10 cfg3.N
/-- After region 3. -/
def B10 (c : Dev nD) : Valuation τ sig (Elt F) := Function.update (B9 m c) main_v58 (o3_10 m c)
/-- After the host operations `hostOps4`. -/
def B11 (c : Dev nD) : Valuation τ sig (Elt F) := StableHlo.after hostOps4 (B10 m c)
/-- After the host operations `hostOps4_1`. -/
def B12 (c : Dev nD) : Valuation τ sig (Elt F) := StableHlo.after hostOps4_1 (B11 m c)
/-- After the host operations `hostOps4_2`. -/
def B13 (c : Dev nD) : Valuation τ sig (Elt F) := StableHlo.after hostOps4_2 (B12 m c)
/-- What region 4 leaves in `main_v66`: the write-backs of its output window 5, folded over the grid. -/
def o4_5 (c : Dev nD) : Buf (Elt F) ((c : Thread nD τ).loc main_v66) := (dat4 (fun c b => B13 m c b) c).arrAt 5 cfg4.N
/-- After region 4. -/
def B14 (c : Dev nD) : Valuation τ sig (Elt F) := Function.update (B13 m c) main_v66 (o4_5 m c)

/-- The family of contents the regions leave, as the conditional frame reads it: at each of the six output arrays the write-backs'
    fold above, elsewhere (never read) the launch contents. -/
def left : Outs (F := F) := fun _ r c =>
  if h : r = main_v5 then h ▸ o0_2 m c else
  if h : r = main_v12 then h ▸ o1_2 m c else
  if h : r = main_v35_0 then h ▸ o2_4 m c else
  if h : r = main_v35_1 then h ▸ o2_5 m c else
  if h : r = main_v58 then h ▸ o3_10 m c else
  if h : r = main_v66 then h ▸ o4_5 m c else
  m ((c : Thread nD τ).loc r)

theorem left_main_v5 (J : ℕ) (c : Dev nD) : left m J main_v5 c = o0_2 m c := by
  unfold left; rw [dif_pos rfl]
theorem left_main_v12 (J : ℕ) (c : Dev nD) : left m J main_v12 c = o1_2 m c := by
  unfold left; rw [dif_neg (by decide), dif_pos rfl]
theorem left_main_v35_0 (J : ℕ) (c : Dev nD) : left m J main_v35_0 c = o2_4 m c := by
  unfold left; rw [dif_neg (by decide), dif_neg (by decide), dif_pos rfl]
theorem left_main_v35_1 (J : ℕ) (c : Dev nD) : left m J main_v35_1 c = o2_5 m c := by
  unfold left; rw [dif_neg (by decide), dif_neg (by decide), dif_neg (by decide), dif_pos rfl]
theorem left_main_v58 (J : ℕ) (c : Dev nD) : left m J main_v58 c = o3_10 m c := by
  unfold left; rw [dif_neg (by decide), dif_neg (by decide), dif_neg (by decide), dif_neg (by decide), dif_pos rfl]
theorem left_main_v66 (J : ℕ) (c : Dev nD) : left m J main_v66 c = o4_5 m c := by
  unfold left; rw [dif_neg (by decide), dif_neg (by decide), dif_neg (by decide), dif_neg (by decide), dif_neg (by decide), dif_pos rfl]

/-- The boundary contents the conditional frame is stated over are the ones named here. -/
theorem V0_eq (c : Dev nD) : V0 m c = B0 m c := by
  rfl
theorem V1_eq (c : Dev nD) : V1 m c = B1 m c := by
  show StableHlo.after hostOps0 (V0 m c) = _; rw [V0_eq]; rfl
theorem V2_eq (c : Dev nD) : V2 m (left m) c = B2 m c := by
  unfold V2 B2; rw [V1_eq, left_main_v5]
theorem V3_eq (c : Dev nD) : V3 m (left m) c = B3 m c := by
  show StableHlo.after hostOps1 (V2 m (left m) c) = _; rw [V2_eq]; rfl
theorem V4_eq (c : Dev nD) : V4 m (left m) c = B4 m c := by
  unfold V4 B4; rw [V3_eq, left_main_v12]
theorem V5_eq (c : Dev nD) : V5 m (left m) c = B5 m c := by
  show StableHlo.after hostOps2 (V4 m (left m) c) = _; rw [V4_eq]; rfl
theorem V6_eq (c : Dev nD) : V6 m (left m) c = B6 m c := by
  unfold V6 B6; rw [V5_eq, left_main_v35_0, left_main_v35_1]
theorem V7_eq (c : Dev nD) : V7 m (left m) c = B7 m c := by
  show StableHlo.after hostOps3 (V6 m (left m) c) = _; rw [V6_eq]; rfl
theorem V8_eq (c : Dev nD) : V8 m (left m) c = B8 m c := by
  show StableHlo.after hostOps3_1 (V7 m (left m) c) = _; rw [V7_eq]; rfl
theorem V9_eq (c : Dev nD) : V9 m (left m) c = B9 m c := by
  show StableHlo.after hostOps3_2 (V8 m (left m) c) = _; rw [V8_eq]; rfl
theorem V10_eq (c : Dev nD) : V10 m (left m) c = B10 m c := by
  unfold V10 B10; rw [V9_eq, left_main_v58]
theorem V11_eq (c : Dev nD) : V11 m (left m) c = B11 m c := by
  show StableHlo.after hostOps4 (V10 m (left m) c) = _; rw [V10_eq]; rfl
theorem V12_eq (c : Dev nD) : V12 m (left m) c = B12 m c := by
  show StableHlo.after hostOps4_1 (V11 m (left m) c) = _; rw [V11_eq]; rfl
theorem V13_eq (c : Dev nD) : V13 m (left m) c = B13 m c := by
  show StableHlo.after hostOps4_2 (V12 m (left m) c) = _; rw [V12_eq]; rfl
theorem V14_eq (c : Dev nD) : V14 m (left m) c = B14 m c := by
  unfold V14 B14; rw [V13_eq, left_main_v66]

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => dat0 (fun c b => B1 m c b) c
  | ⟨1, _⟩ => fun c => dat1 (fun c b => B3 m c b) c
  | ⟨2, _⟩ => fun c => dat2 (fun c b => B5 m c b) c
  | ⟨3, _⟩ => fun c => dat3 (fun c b => B9 m c b) c
  | ⟨4, _⟩ => fun c => dat4 (fun c b => B13 m c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev Rest (c : Dev nD) : sProp 𝕄 := iprop((∃ r, prngReg c r) ∗ ∃ W, owes (c : Thread nD τ) (0 : CellTallies nD τ sig Unit) W)
abbrev Rests : Fin 6 → Dev nD → sProp 𝕄 := fun _ c => Rest c

end Cert.KernelIdeal.Hand

end
-- ==== Proof.KI.Seg0.lean ====
/-
  Region 0 as a segment of the run: it changes only its output array, every other buffer keeps what it held, and over the thread
  state its arrays are split out of the core's buffers at entry and put back at exit.
-/
import proofs.«116564_j90065464197253_2_alg».proof.Proof.KI.Contents

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 0 its output array `main_v5` holds the write-backs' fold. -/
theorem exit0_2 (c : Dev nD) : B2 m c main_v5 = o0_2 m c := by
  rw [← V2_eq, ← left_main_v5 m 2 c]
  simp only [V2, Function.update_self]

/-- Region 0 changes only its output array. -/
theorem exit0_of (c : Dev nD) (b : Ref sig .tc) (h : b ∉ ([main_v5] : List (Ref sig .tc))) : B2 m c b = B1 m c b := by
  have := V2_of m (left m) c b h
  rwa [V2_eq, V1_eq] at this

set_option maxHeartbeats 4000000 in
/-- At region 0's exit each of its arrays holds what the pipeline leaves: an input array what it held, the output array the
    write-backs' fold. -/
theorem hF0 (c : Dev nD) : ∀ w : Fin cfg0.W, (dat0 (fun c b => B1 m c b) c).arrAt w cfg0.N = B2 m c (Pipeline.arrRef spec0 w)
  | ⟨0, _⟩ => ((dat0 (fun c b => B1 m c b) c).arrAt_in 0 rfl cfg0.N).trans (exit0_of m c main_arg0 (by decide)).symm
  | ⟨1, _⟩ => ((dat0 (fun c b => B1 m c b) c).arrAt_in 1 rfl cfg0.N).trans (exit0_of m c main_v4 (by decide)).symm
  | ⟨2, _⟩ => (exit0_2 m c).symm

/-- and every other buffer what it held at entry. -/
theorem hrest0 (c : Dev nD) : ∀ b, b ∉ Finset.univ.image (Pipeline.arrRef spec0) → B2 m c b = B1 m c b :=
  fun b hb => exit0_of m c b (by
    intro hmem
    simp only [List.mem_cons, List.mem_singleton, List.not_mem_nil, or_false] at hmem
    rcases hmem with rfl
    · exact hb (Finset.mem_image.mpr ⟨2, Finset.mem_univ _, rfl⟩))

set_option backward.isDefEq.respectTransparency.types false in
/-- Region 0 over the thread state: entered from every unscoped buffer at the contents before it, left at the contents after it.
    Its arrays are split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => B1 m c b) c).loose
  hwaits := Pipeline.hwaits_of_owed_zero _ _ _ _ L lv 0 fun _ _ => rfl
  pre c := iprop(StableHlo.held (c : Thread nD τ) (Pipeline.ucRefs τ sig) (V1 m c) ∗ Rests 0 c)
  post c := iprop(StableHlo.held (c : Thread nD τ) (Pipeline.ucRefs τ sig) (V2 m (left m) c) ∗ Rests 1 c)
  X c := iprop(∃ r, prngReg c r)
  Y c := iprop(∃ r, prngReg c r)
  Z c := Pipeline.unscopedRest (Ix := Unit) (Name := ℕ) (U := UR sig nD τ) (Lvl := ℕ) spec0 c (fun b => B1 m c b)
  hentry c := by
    rw [Pipeline.ownSems0_none, V1_eq]
    have hsplit := Pipeline.arrays_of_unscopedBufs (p := 0) (pcfgs (F := F)) adm (pdats m) launch0.win launch0.arr_whole c
      ((pdats m 0 c).share_full fun _ => rfl) (fun b => B1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => B1 m c b) (fun b => B2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as a segment of the run: it changes only its output array, every other buffer keeps what it held, and over the thread
  state its arrays are split out of the core's buffers at entry and put back at exit.
-/
import proofs.«116564_j90065464197253_2_alg».proof.Proof.KI.Contents

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 1 its output array `main_v12` holds the write-backs' fold. -/
theorem exit1_2 (c : Dev nD) : B4 m c main_v12 = o1_2 m c := by
  rw [← V4_eq, ← left_main_v12 m 4 c]
  simp only [V4, Function.update_self]

/-- Region 1 changes only its output array. -/
theorem exit1_of (c : Dev nD) (b : Ref sig .tc) (h : b ∉ ([main_v12] : List (Ref sig .tc))) : B4 m c b = B3 m c b := by
  have := V4_of m (left m) c b h
  rwa [V4_eq, V3_eq] at this

set_option maxHeartbeats 4000000 in
/-- At region 1's exit each of its arrays holds what the pipeline leaves: an input array what it held, the output array the
    write-backs' fold. -/
theorem hF1 (c : Dev nD) : ∀ w : Fin cfg1.W, (dat1 (fun c b => B3 m c b) c).arrAt w cfg1.N = B4 m c (Pipeline.arrRef spec1 w)
  | ⟨0, _⟩ => ((dat1 (fun c b => B3 m c b) c).arrAt_in 0 rfl cfg1.N).trans (exit1_of m c main_arg2 (by decide)).symm
  | ⟨1, _⟩ => ((dat1 (fun c b => B3 m c b) c).arrAt_in 1 rfl cfg1.N).trans (exit1_of m c main_arg6 (by decide)).symm
  | ⟨2, _⟩ => (exit1_2 m c).symm

/-- and every other buffer what it held at entry. -/
theorem hrest1 (c : Dev nD) : ∀ b, b ∉ Finset.univ.image (Pipeline.arrRef spec1) → B4 m c b = B3 m c b :=
  fun b hb => exit1_of m c b (by
    intro hmem
    simp only [List.mem_cons, List.mem_singleton, List.not_mem_nil, or_false] at hmem
    rcases hmem with rfl
    · exact hb (Finset.mem_image.mpr ⟨2, Finset.mem_univ _, rfl⟩))

set_option backward.isDefEq.respectTransparency.types false in
/-- Region 1 over the thread state: entered from every unscoped buffer at the contents before it, left at the contents after it.
    Its arrays are split out of the unscoped buffers and put back at the exit contents; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => B3 m c b) c).loose
  hwaits := Pipeline.hwaits_of_owed_zero _ _ _ _ L lv 1 fun _ _ => rfl
  pre c := iprop(StableHlo.held (c : Thread nD τ) (Pipeline.ucRefs τ sig) (V3 m (left m) c) ∗ Rests 1 c)
  post c := iprop(StableHlo.held (c : Thread nD τ) (Pipeline.ucRefs τ sig) (V4 m (left m) c) ∗ Rests 2 c)
  X c := iprop(∃ r, prngReg c r)
  Y c := iprop(∃ r, prngReg c r)
  Z c := Pipeline.unscopedRest (Ix := Unit) (Name := ℕ) (U := UR sig nD τ) (Lvl := ℕ) spec1 c (fun b => B3 m c b)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (fun b => B3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => B3 m c b) (fun b => B4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as a segment of the run: it changes only its output arrays, every other buffer keeps what it held, and over the thread
  state its arrays are split out of the core's buffers at entry and put back at exit.
-/
import proofs.«116564_j90065464197253_2_alg».proof.Proof.KI.Contents

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 2 its output array `main_v35_0` holds the write-backs' fold. -/
theorem exit2_4 (c : Dev nD) : B6 m c main_v35_0 = o2_4 m c := by
  rw [← V6_eq, ← left_main_v35_0 m 6 c]
  simp only [V6, Function.update_self, Function.update_of_ne (StableHlo.devRef_ne_of_ne (by decide : (main_v35_0 : Ref sig .tc) ≠ main_v35_1) : (Proc.devRef .tc main_v35_0 : DevRef τ sig) ≠ Proc.devRef .tc main_v35_1)]

/-- After region 2 its output array `main_v35_1` holds the write-backs' fold. -/
theorem exit2_5 (c : Dev nD) : B6 m c main_v35_1 = o2_5 m c := by
  rw [← V6_eq, ← left_main_v35_1 m 6 c]
  simp only [V6, Function.update_self]

/-- Region 2 changes only its output arrays. -/
theorem exit2_of (c : Dev nD) (b : Ref sig .tc) (h : b ∉ ([main_v35_0, main_v35_1] : List (Ref sig .tc))) : B6 m c b = B5 m c b := by
  have := V6_of m (left m) c b h
  rwa [V6_eq, V5_eq] at this

set_option maxHeartbeats 4000000 in
/-- At region 2's exit each of its arrays holds what the pipeline leaves: an input array what it held, the output array the
    write-backs' fold. -/
theorem hF2 (c : Dev nD) : ∀ w : Fin cfg2.W, (dat2 (fun c b => B5 m c b) c).arrAt w cfg2.N = B6 m c (Pipeline.arrRef spec2 w)
  | ⟨0, _⟩ => ((dat2 (fun c b => B5 m c b) c).arrAt_in 0 rfl cfg2.N).trans (exit2_of m c main_v20 (by decide)).symm
  | ⟨1, _⟩ => ((dat2 (fun c b => B5 m c b) c).arrAt_in 1 rfl cfg2.N).trans (exit2_of m c main_v27 (by decide)).symm
  | ⟨2, _⟩ => ((dat2 (fun c b => B5 m c b) c).arrAt_in 2 rfl cfg2.N).trans (exit2_of m c main_v34 (by decide)).symm
  | ⟨3, _⟩ => ((dat2 (fun c b => B5 m c b) c).arrAt_in 3 rfl cfg2.N).trans (exit2_of m c main_v13 (by decide)).symm
  | ⟨4, _⟩ => (exit2_4 m c).symm
  | ⟨5, _⟩ => (exit2_5 m c).symm

/-- and every other buffer what it held at entry. -/
theorem hrest2 (c : Dev nD) : ∀ b, b ∉ Finset.univ.image (Pipeline.arrRef spec2) → B6 m c b = B5 m c b :=
  fun b hb => exit2_of m c b (by
    intro hmem
    simp only [List.mem_cons, List.mem_singleton, List.not_mem_nil, or_false] at hmem
    rcases hmem with rfl | rfl
    · exact hb (Finset.mem_image.mpr ⟨4, Finset.mem_univ _, rfl⟩)
    · exact hb (Finset.mem_image.mpr ⟨5, Finset.mem_univ _, rfl⟩))

set_option backward.isDefEq.respectTransparency.types false in
/-- Region 2 over the thread state: entered from every unscoped buffer at the contents before it, left at the contents after it.
    Its arrays are split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => B5 m c b) c).loose
  hwaits := Pipeline.hwaits_of_owed_zero _ _ _ _ L lv 2 fun _ _ => rfl
  pre c := iprop(StableHlo.held (c : Thread nD τ) (Pipeline.ucRefs τ sig) (V5 m (left m) c) ∗ Rests 2 c)
  post c := iprop(StableHlo.held (c : Thread nD τ) (Pipeline.ucRefs τ sig) (V6 m (left m) c) ∗ Rests 3 c)
  X c := iprop(∃ r, prngReg c r)
  Y c := iprop(∃ r, prngReg c r)
  Z c := Pipeline.unscopedRest (Ix := Unit) (Name := ℕ) (U := UR sig nD τ) (Lvl := ℕ) spec2 c (fun b => B5 m c b)
  hentry c := by
    rw [Pipeline.ownSems0_none, V5_eq]
    have hsplit := Pipeline.arrays_of_unscopedBufs (p := 2) (pcfgs (F := F)) adm (pdats m) launch2.win launch2.arr_whole c
      ((pdats m 2 c).share_full fun _ => rfl) (fun b => B5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => B5 m c b) (fun b => B6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 as a segment of the run: it changes only its output array, every other buffer keeps what it held, and over the thread
  state its arrays are split out of the core's buffers at entry and put back at exit.
-/
import proofs.«116564_j90065464197253_2_alg».proof.Proof.KI.Contents

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 3 its output array `main_v58` holds the write-backs' fold. -/
theorem exit3_10 (c : Dev nD) : B10 m c main_v58 = o3_10 m c := by
  rw [← V10_eq, ← left_main_v58 m 10 c]
  simp only [V10, Function.update_self]

/-- Region 3 changes only its output array. -/
theorem exit3_of (c : Dev nD) (b : Ref sig .tc) (h : b ∉ ([main_v58] : List (Ref sig .tc))) : B10 m c b = B9 m c b := by
  have := V10_of m (left m) c b h
  rwa [V10_eq, V9_eq] at this

set_option maxHeartbeats 4000000 in
/-- At region 3's exit each of its arrays holds what the pipeline leaves: an input array what it held, the output array the
    write-backs' fold. -/
theorem hF3 (c : Dev nD) : ∀ w : Fin cfg3.W, (dat3 (fun c b => B9 m c b) c).arrAt w cfg3.N = B10 m c (Pipeline.arrRef spec3 w)
  | ⟨0, _⟩ => ((dat3 (fun c b => B9 m c b) c).arrAt_in 0 rfl cfg3.N).trans (exit3_of m c main_arg0 (by decide)).symm
  | ⟨1, _⟩ => ((dat3 (fun c b => B9 m c b) c).arrAt_in 1 rfl cfg3.N).trans (exit3_of m c main_v47 (by decide)).symm
  | ⟨2, _⟩ => ((dat3 (fun c b => B9 m c b) c).arrAt_in 2 rfl cfg3.N).trans (exit3_of m c main_v52 (by decide)).symm
  | ⟨3, _⟩ => ((dat3 (fun c b => B9 m c b) c).arrAt_in 3 rfl cfg3.N).trans (exit3_of m c main_v53 (by decide)).symm
  | ⟨4, _⟩ => ((dat3 (fun c b => B9 m c b) c).arrAt_in 4 rfl cfg3.N).trans (exit3_of m c main_v54 (by decide)).symm
  | ⟨5, _⟩ => ((dat3 (fun c b => B9 m c b) c).arrAt_in 5 rfl cfg3.N).trans (exit3_of m c main_v55 (by decide)).symm
  | ⟨6, _⟩ => ((dat3 (fun c b => B9 m c b) c).arrAt_in 6 rfl cfg3.N).trans (exit3_of m c main_arg11 (by decide)).symm
  | ⟨7, _⟩ => ((dat3 (fun c b => B9 m c b) c).arrAt_in 7 rfl cfg3.N).trans (exit3_of m c main_v56 (by decide)).symm
  | ⟨8, _⟩ => ((dat3 (fun c b => B9 m c b) c).arrAt_in 8 rfl cfg3.N).trans (exit3_of m c main_arg13 (by decide)).symm
  | ⟨9, _⟩ => ((dat3 (fun c b => B9 m c b) c).arrAt_in 9 rfl cfg3.N).trans (exit3_of m c main_v57 (by decide)).symm
  | ⟨10, _⟩ => (exit3_10 m c).symm

/-- and every other buffer what it held at entry. -/
theorem hrest3 (c : Dev nD) : ∀ b, b ∉ Finset.univ.image (Pipeline.arrRef spec3) → B10 m c b = B9 m c b :=
  fun b hb => exit3_of m c b (by
    intro hmem
    simp only [List.mem_cons, List.mem_singleton, List.not_mem_nil, or_false] at hmem
    rcases hmem with rfl
    · exact hb (Finset.mem_image.mpr ⟨10, Finset.mem_univ _, rfl⟩))

set_option backward.isDefEq.respectTransparency.types false in
/-- Region 3 over the thread state: entered from every unscoped buffer at the contents before it, left at the contents after it.
    Its arrays are split out of the unscoped buffers and put back at the exit contents; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => B9 m c b) c).loose
  hwaits := Pipeline.hwaits_of_owed_zero _ _ _ _ L lv 3 fun _ _ => rfl
  pre c := iprop(StableHlo.held (c : Thread nD τ) (Pipeline.ucRefs τ sig) (V9 m (left m) c) ∗ Rests 3 c)
  post c := iprop(StableHlo.held (c : Thread nD τ) (Pipeline.ucRefs τ sig) (V10 m (left m) c) ∗ Rests 4 c)
  X c := iprop(∃ r, prngReg c r)
  Y c := iprop(∃ r, prngReg c r)
  Z c := Pipeline.unscopedRest (Ix := Unit) (Name := ℕ) (U := UR sig nD τ) (Lvl := ℕ) spec3 c (fun b => B9 m c b)
  hentry c := by
    rw [Pipeline.ownSems0_none, V9_eq]
    have hsplit := Pipeline.arrays_of_unscopedBufs (p := 3) (pcfgs (F := F)) adm (pdats m) launch3.win launch3.arr_whole c
      ((pdats m 3 c).share_full fun _ => rfl) (fun b => B9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    rw [V10_eq]
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => B9 m c b) (fun b => B10 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 as a segment of the run: it changes only its output array, every other buffer keeps what it held, and over the thread
  state its arrays are split out of the core's buffers at entry and put back at exit.
-/
import proofs.«116564_j90065464197253_2_alg».proof.Proof.KI.Contents

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After region 4 its output array `main_v66` holds the write-backs' fold. -/
theorem exit4_5 (c : Dev nD) : B14 m c main_v66 = o4_5 m c := by
  rw [← V14_eq, ← left_main_v66 m 14 c]
  simp only [V14, Function.update_self]

/-- Region 4 changes only its output array. -/
theorem exit4_of (c : Dev nD) (b : Ref sig .tc) (h : b ∉ ([main_v66] : List (Ref sig .tc))) : B14 m c b = B13 m c b := by
  have := V14_of m (left m) c b h
  rwa [V14_eq, V13_eq] at this

set_option maxHeartbeats 4000000 in
/-- At region 4's exit each of its arrays holds what the pipeline leaves: an input array what it held, the output array the
    write-backs' fold. -/
theorem hF4 (c : Dev nD) : ∀ w : Fin cfg4.W, (dat4 (fun c b => B13 m c b) c).arrAt w cfg4.N = B14 m c (Pipeline.arrRef spec4 w)
  | ⟨0, _⟩ => ((dat4 (fun c b => B13 m c b) c).arrAt_in 0 rfl cfg4.N).trans (exit4_of m c main_v58 (by decide)).symm
  | ⟨1, _⟩ => ((dat4 (fun c b => B13 m c b) c).arrAt_in 1 rfl cfg4.N).trans (exit4_of m c main_v62 (by decide)).symm
  | ⟨2, _⟩ => ((dat4 (fun c b => B13 m c b) c).arrAt_in 2 rfl cfg4.N).trans (exit4_of m c main_v63 (by decide)).symm
  | ⟨3, _⟩ => ((dat4 (fun c b => B13 m c b) c).arrAt_in 3 rfl cfg4.N).trans (exit4_of m c main_v64 (by decide)).symm
  | ⟨4, _⟩ => ((dat4 (fun c b => B13 m c b) c).arrAt_in 4 rfl cfg4.N).trans (exit4_of m c main_v65 (by decide)).symm
  | ⟨5, _⟩ => (exit4_5 m c).symm

/-- and every other buffer what it held at entry. -/
theorem hrest4 (c : Dev nD) : ∀ b, b ∉ Finset.univ.image (Pipeline.arrRef spec4) → B14 m c b = B13 m c b :=
  fun b hb => exit4_of m c b (by
    intro hmem
    simp only [List.mem_cons, List.mem_singleton, List.not_mem_nil, or_false] at hmem
    rcases hmem with rfl
    · exact hb (Finset.mem_image.mpr ⟨5, Finset.mem_univ _, rfl⟩))

set_option backward.isDefEq.respectTransparency.types false in
/-- Region 4 over the thread state: entered from every unscoped buffer at the contents before it, left at the contents after it.
    Its arrays are split out of the unscoped buffers and put back at the exit contents; the generator register goes into the
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => B13 m c b) c).loose
  hwaits := Pipeline.hwaits_of_owed_zero _ _ _ _ L lv 4 fun _ _ => rfl
  pre c := iprop(StableHlo.held (c : Thread nD τ) (Pipeline.ucRefs τ sig) (V13 m (left m) c) ∗ Rests 4 c)
  post c := iprop(StableHlo.held (c : Thread nD τ) (Pipeline.ucRefs τ sig) (V14 m (left m) c) ∗ Rests 5 c)
  X c := iprop(∃ r, prngReg c r)
  Y c := iprop(∃ r, prngReg c r)
  Z c := Pipeline.unscopedRest (Ix := Unit) (Name := ℕ) (U := UR sig nD τ) (Lvl := ℕ) spec4 c (fun b => B13 m c b)
  hentry c := by
    rw [Pipeline.ownSems0_none, V13_eq]
    have hsplit := Pipeline.arrays_of_unscopedBufs (p := 4) (pcfgs (F := F)) adm (pdats m) launch4.win launch4.arr_whole c
      ((pdats m 4 c).share_full fun _ => rfl) (fun b => B13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    rw [V14_eq]
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => B13 m c b) (fun b => B14 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/-
  The frame of the whole pipeline: the conditional frame at the five regions' records.
-/
import proofs.«116564_j90065464197253_2_alg».proof.Proof.KI.Seg0
import proofs.«116564_j90065464197253_2_alg».proof.Proof.KI.Seg1
import proofs.«116564_j90065464197253_2_alg».proof.Proof.KI.Seg2
import proofs.«116564_j90065464197253_2_alg».proof.Proof.KI.Seg3
import proofs.«116564_j90065464197253_2_alg».proof.Proof.KI.Seg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame -/

set_option backward.isDefEq.respectTransparency.types false in
/-- From any memory with zero counters every weakly fair execution of @main terminates, nothing faulting, and every final state has
    the argument arrays as launched: the conditional frame at the five records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond m emb₁ () 𝒱₀ L lv (fun _ _ => rfl) ρ (left m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    Rests
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)

end Cert.KernelIdeal.Hand

end
-- ==== Proof.RI.Line.lean ====
/-
  The reference as one straight line of host operations. Its @main is 126 statements, four of them calls (the clip of the scores,
  the two column variances, each ending in a select against a constant, and the relu); with each callee's operations written at its
  call over that call's own buffers the whole is 174 operations in order, listed here by the three windows @main is printed in.
  Every weakly fair execution runs them to the end and leaves in each buffer the fold of the operations' results over the launch
  contents; no operation writes an argument, so the arguments end as launched.
-/
import proofs.«116564_j90065464197253_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window: the index rows, the four projections, the three gathers, the scores with their clip, the exponentials, the
    messages and their scatter-add. -/
abbrev opsA : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v4 main_v5 rfl shapeCasts_S50000x128_S50000x8x16,
    StableHlo.binary main_arg0 main_arg4 main_v6 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v6 main_v7 rfl shapeCasts_S50000x128_S50000x8x16,
    StableHlo.binary main_arg0 main_arg5 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v8 main_v9 rfl shapeCasts_S50000x128_S50000x8x16,
    StableHlo.binary main_arg2 main_arg6 main_v10 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.reshape main_v10 main_v11 rfl shapeCasts_S600000x128_S600000x8x16,
    StableHlo.nullary main_c (constantI S_ 32 0#32),
    StableHlo.unary main_c main_v12 (broadcastInDim S600000 ![] bcast_S_S600000 : (⟨S_, .i32⟩ : BufTy).Contents (Elt F) → (⟨S600000, .i32⟩ : BufTy).Contents (Elt F)),
    StableHlo.binary main_v1 main_v12 main_v13 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v14 (broadcastInDim S600000 ![] bcast_S_S600000 : (⟨S_, .i32⟩ : BufTy).Contents (Elt F) → (⟨S600000, .i32⟩ : BufTy).Contents (Elt F)),
    StableHlo.binary main_v1 main_v14 main_v15 (addi : (⟨S600000, .i32⟩ : BufTy).Contents (Elt F) → (⟨S600000, .i32⟩ : BufTy).Contents (Elt F) → (⟨S600000, .i32⟩ : BufTy).Contents (Elt F)),
    StableHlo.ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v16 main_v17 (broadcastInDim S600000x1 ![0] bcast_S600000_S600000x1_0 : (⟨S600000, .i32⟩ : BufTy).Contents (Elt F) → (⟨S600000x1, .i32⟩ : BufTy).Contents (Elt F)),
    StableHlo.binary main_v7 main_v17 main_v18 ((fun x i => Host.gather gather_S50000x8x16_S600000x1_S600000x8x16_12_0_n_n_0_1_1816 x i) : (⟨S50000x8x16, .f32⟩ : BufTy).Contents (Elt F) → (⟨S600000x1, .i32⟩ : BufTy).Contents (Elt F) → (⟨S600000x8x16, .f32⟩ : BufTy).Contents (Elt F)),
    StableHlo.nullary main_c_1 (constantI S_ 32 0#32),
    StableHlo.unary main_c_1 main_v19 (broadcastInDim S600000 ![] bcast_S_S600000 : (⟨S_, .i32⟩ : BufTy).Contents (Elt F) → (⟨S600000, .i32⟩ : BufTy).Contents (Elt F)),
    StableHlo.binary main_v3 main_v19 main_v20 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v21 (broadcastInDim S600000 ![] bcast_S_S600000 : (⟨S_, .i32⟩ : BufTy).Contents (Elt F) → (⟨S600000, .i32⟩ : BufTy).Contents (Elt F)),
    StableHlo.binary main_v3 main_v21 main_v22 (addi : (⟨S600000, .i32⟩ : BufTy).Contents (Elt F) → (⟨S600000, .i32⟩ : BufTy).Contents (Elt F) → (⟨S600000, .i32⟩ : BufTy).Contents (Elt F)),
    StableHlo.ternary main_v20 main_v22 main_v3 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v23 main_v24 (broadcastInDim S600000x1 ![0] bcast_S600000_S600000x1_0 : (⟨S600000, .i32⟩ : BufTy).Contents (Elt F) → (⟨S600000x1, .i32⟩ : BufTy).Contents (Elt F)),
    StableHlo.binary main_v5 main_v24 main_v25 ((fun x i => Host.gather gather_S50000x8x16_S600000x1_S600000x8x16_12_0_n_n_0_1_1816 x i) : (⟨S50000x8x16, .f32⟩ : BufTy).Contents (Elt F) → (⟨S600000x1, .i32⟩ : BufTy).Contents (Elt F) → (⟨S600000x8x16, .f32⟩ : BufTy).Contents (Elt F)),
    StableHlo.binary main_v18 main_v25 main_v26 (mulf : (⟨S600000x8x16, .f32⟩ : BufTy).Contents (Elt F) → (⟨S600000x8x16, .f32⟩ : BufTy).Contents (Elt F) → (⟨S600000x8x16, .f32⟩ : BufTy).Contents (Elt F)),
    StableHlo.nullary main_cst (constant S_ .f32 0x3E800000#32),
    StableHlo.unary main_cst main_v27 (broadcastInDim S600000x8x16 ![] bcast_S_S600000x8x16 : (⟨S_, .f32⟩ : BufTy).Contents (Elt F) → (⟨S600000x8x16, .f32⟩ : BufTy).Contents (Elt F)),
    StableHlo.binary main_v26 main_v27 main_v28 (mulf : (⟨S600000x8x16, .f32⟩ : BufTy).Contents (Elt F) → (⟨S600000x8x16, .f32⟩ : BufTy).Contents (Elt F) → (⟨S600000x8x16, .f32⟩ : BufTy).Contents (Elt F)),
    StableHlo.binary main_v28 main_v11 main_v29 (mulf : (⟨S600000x8x16, .f32⟩ : BufTy).Contents (Elt F) → (⟨S600000x8x16, .f32⟩ : BufTy).Contents (Elt F) → (⟨S600000x8x16, .f32⟩ : BufTy).Contents (Elt F)),
    StableHlo.nullary main_cst_3 (constant S_ .f32 0x00000000#32),
    StableHlo.binary main_v29 main_cst_3 main_v30 ((fun x v => Host.reduceAdd x v reducesTo_S600000x8x16_S600000x8_d2 h_S_) : (⟨S600000x8x16, .f32⟩ : BufTy).Contents (Elt F) → (⟨S_, .f32⟩ : BufTy).Contents (Elt F) → (⟨S600000x8, .f32⟩ : BufTy).Contents (Elt F)),
    StableHlo.nullary main_cst_4 (constant S_ .f32 0xC0A00000#32),
    StableHlo.nullary main_cst_5 (constant S_ .f32 0x40A00000#32),
    StableHlo.TRef.unary (.of main_cst_4) main_call0.v0 id,
    StableHlo.TRef.unary main_call0.v0 main_call0.v1 (broadcastInDim S600000x8 ![] bcast_S_S600000x8),
    StableHlo.TRef.binary main_call0.v1 (.of main_v30) main_call0.v2 maximumf,
    StableHlo.TRef.unary (.of main_cst_5) main_call0.v3 id,
    StableHlo.TRef.unary main_call0.v3 main_call0.v4 (broadcastInDim S600000x8 ![] bcast_S_S600000x8),
    StableHlo.TRef.binary main_call0.v4 main_call0.v2 main_call0.v5 minimumf,
    StableHlo.unary main_v31 main_v32 (Host.exp : (⟨S600000x8, .f32⟩ : BufTy).Contents (Elt F) → (⟨S600000x8, .f32⟩ : BufTy).Contents (Elt F)),
    StableHlo.nullary main_c_6 (constantI S_ 32 0#32),
    StableHlo.unary main_c_6 main_v33 (broadcastInDim S600000 ![] bcast_S_S600000 : (⟨S_, .i32⟩ : BufTy).Contents (Elt F) → (⟨S600000, .i32⟩ : BufTy).Contents (Elt F)),
    StableHlo.binary main_v1 main_v33 main_v34 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v35 (broadcastInDim S600000 ![] bcast_S_S600000 : (⟨S_, .i32⟩ : BufTy).Contents (Elt F) → (⟨S600000, .i32⟩ : BufTy).Contents (Elt F)),
    StableHlo.binary main_v1 main_v35 main_v36 (addi : (⟨S600000, .i32⟩ : BufTy).Contents (Elt F) → (⟨S600000, .i32⟩ : BufTy).Contents (Elt F) → (⟨S600000, .i32⟩ : BufTy).Contents (Elt F)),
    StableHlo.ternary main_v34 main_v36 main_v1 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v37 main_v38 (broadcastInDim S600000x1 ![0] bcast_S600000_S600000x1_0 : (⟨S600000, .i32⟩ : BufTy).Contents (Elt F) → (⟨S600000x1, .i32⟩ : BufTy).Contents (Elt F)),
    StableHlo.binary main_v9 main_v38 main_v39 ((fun x i => Host.gather gather_S50000x8x16_S600000x1_S600000x8x16_12_0_n_n_0_1_1816 x i) : (⟨S50000x8x16, .f32⟩ : BufTy).Contents (Elt F) → (⟨S600000x1, .i32⟩ : BufTy).Contents (Elt F) → (⟨S600000x8x16, .f32⟩ : BufTy).Contents (Elt F)),
    StableHlo.unary main_v32 main_v40 (broadcastInDim S600000x8x1 ![0, 1] bcast_S600000x8_S600000x8x1_0_1 : (⟨S600000x8, .f32⟩ : BufTy).Contents (Elt F) → (⟨S600000x8x1, .f32⟩ : BufTy).Contents (Elt F)),
    StableHlo.unary main_v40 main_v41 (broadcastInDim S600000x8x16 ![0, 1, 2] bcast_S600000x8x1_S600000x8x16_0_1_2 : (⟨S600000x8x1, .f32⟩ : BufTy).Contents (Elt F) → (⟨S600000x8x16, .f32⟩ : BufTy).Contents (Elt F)),
    StableHlo.binary main_v39 main_v41 main_v42 (mulf : (⟨S600000x8x16, .f32⟩ : BufTy).Contents (Elt F) → (⟨S600000x8x16, .f32⟩ : BufTy).Contents (Elt F) → (⟨S600000x8x16, .f32⟩ : BufTy).Contents (Elt F)),
    StableHlo.nullary main_cst_8 (constant S_ .f32 0x00000000#32),
    StableHlo.unary main_cst_8 main_v43 (broadcastInDim S50000x8x16 ![] bcast_S_S50000x8x16 : (⟨S_, .f32⟩ : BufTy).Contents (Elt F) → (⟨S50000x8x16, .f32⟩ : BufTy).Contents (Elt F)),
    StableHlo.unary main_v3 main_v44 (broadcastInDim S600000x1 ![0] bcast_S600000_S600000x1_0 : (⟨S600000, .i32⟩ : BufTy).Contents (Elt F) → (⟨S600000x1, .i32⟩ : BufTy).Contents (Elt F)),
    StableHlo.ternary main_v43 main_v44 main_v42 main_v45 ((fun x i u => Host.scatterAdd scatter_S50000x8x16_S600000x1_S600000x8x16_12_0_0_1 x i u) : (⟨S50000x8x16, .f32⟩ : BufTy).Contents (Elt F) → (⟨S600000x1, .i32⟩ : BufTy).Contents (Elt F) → (⟨S600000x8x16, .f32⟩ : BufTy).Contents (Elt F) → (⟨S50000x8x16, .f32⟩ : BufTy).Contents (Elt F)),
    StableHlo.nullary main_cst_9 (constant S_ .f32 0x00000000#32),
    StableHlo.unary main_cst_9 main_v46 (broadcastInDim S50000x8 ![] bcast_S_S50000x8 : (⟨S_, .f32⟩ : BufTy).Contents (Elt F) → (⟨S50000x8, .f32⟩ : BufTy).Contents (Elt F)),
    StableHlo.unary main_v3 main_v47 (broadcastInDim S600000x1 ![0] bcast_S600000_S600000x1_0 : (⟨S600000, .i32⟩ : BufTy).Contents (Elt F) → (⟨S600000x1, .i32⟩ : BufTy).Contents (Elt F)) ]

/-- The second window: the weights' scatter-add, the quotient, the residual, the first normalisation (mean, variance, scale and
    shift), the feed-forward block with its relu, the second residual and the second normalisation up to the reciprocal root. -/
abbrev opsB : List (HloOp τ sig (Elt F)) :=
  [ StableHlo.ternary main_v46 main_v47 main_v32 main_v48 ((fun x i u => Host.scatterAdd scatter_S50000x8_S600000x1_S600000x8_1_0_0_1 x i u) : (⟨S50000x8, .f32⟩ : BufTy).Contents (Elt F) → (⟨S600000x1, .i32⟩ : BufTy).Contents (Elt F) → (⟨S600000x8, .f32⟩ : BufTy).Contents (Elt F) → (⟨S50000x8, .f32⟩ : BufTy).Contents (Elt F)),
    StableHlo.unary main_v48 main_v49 (broadcastInDim S50000x8x1 ![0, 1] bcast_S50000x8_S50000x8x1_0_1 : (⟨S50000x8, .f32⟩ : BufTy).Contents (Elt F) → (⟨S50000x8x1, .f32⟩ : BufTy).Contents (Elt F)),
    StableHlo.nullary main_cst_10 (constant S_ .f32 0x358637BD#32),
    StableHlo.unary main_cst_10 main_v50 (broadcastInDim S50000x8x1 ![] bcast_S_S50000x8x1 : (⟨S_, .f32⟩ : BufTy).Contents (Elt F) → (⟨S50000x8x1, .f32⟩ : BufTy).Contents (Elt F)),
    StableHlo.binary main_v49 main_v50 main_v51 (addf : (⟨S50000x8x1, .f32⟩ : BufTy).Contents (Elt F) → (⟨S50000x8x1, .f32⟩ : BufTy).Contents (Elt F) → (⟨S50000x8x1, .f32⟩ : BufTy).Contents (Elt F)),
    StableHlo.unary main_v51 main_v52 (broadcastInDim S50000x8x16 ![0, 1, 2] bcast_S50000x8x1_S50000x8x16_0_1_2 : (⟨S50000x8x1, .f32⟩ : BufTy).Contents (Elt F) → (⟨S50000x8x16, .f32⟩ : BufTy).Contents (Elt F)),
    StableHlo.binary main_v45 main_v52 main_v53 (Host.divf : (⟨S50000x8x16, .f32⟩ : BufTy).Contents (Elt F) → (⟨S50000x8x16, .f32⟩ : BufTy).Contents (Elt F) → (⟨S50000x8x16, .f32⟩ : BufTy).Contents (Elt F)),
    StableHlo.reshape main_v53 main_v54 rfl shapeCasts_S50000x8x16_S50000x128,
    StableHlo.binary main_arg0 main_v54 main_v55 (addf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.binary main_v55 main_cst_11 main_v56 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_12 (constant S_ .f32 0x47435000#32),
    StableHlo.unary main_cst_12 main_v57 (broadcastInDim S128 ![] bcast_S_S128 : (⟨S_, .f32⟩ : BufTy).Contents (Elt F) → (⟨S128, .f32⟩ : BufTy).Contents (Elt F)),
    StableHlo.binary main_v56 main_v57 main_v58 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call1.cst (constant S_ .f32 0x00000000#32),
    StableHlo.TRef.binary (.of main_v55) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v55) main_call1.v4 main_call1.v5 subf,
    StableHlo.TRef.binary main_call1.v5 main_call1.v5 main_call1.v6 mulf,
    StableHlo.TRef.unary (.of main_c_13) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v58 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v61 main_v62 (subf : (⟨S50000x128, .f32⟩ : BufTy).Contents (Elt F) → (⟨S50000x128, .f32⟩ : BufTy).Contents (Elt F) → (⟨S50000x128, .f32⟩ : BufTy).Contents (Elt F)),
    StableHlo.unary main_arg7 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v62 main_v65 (mulf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v66 (broadcastInDim S128 ![] bcast_S_S128 : (⟨S_, .f32⟩ : BufTy).Contents (Elt F) → (⟨S128, .f32⟩ : BufTy).Contents (Elt F)),
    StableHlo.binary main_v59 main_v66 main_v67 (addf : (⟨S128, .f32⟩ : BufTy).Contents (Elt F) → (⟨S128, .f32⟩ : BufTy).Contents (Elt F) → (⟨S128, .f32⟩ : BufTy).Contents (Elt F)),
    StableHlo.unary main_v67 main_v68 (Host.rsqrt : (⟨S128, .f32⟩ : BufTy).Contents (Elt F) → (⟨S128, .f32⟩ : BufTy).Contents (Elt F)),
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_arg8 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)),
    StableHlo.binary main_v74 main_arg11 main_v75 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg12 main_v76 (broadcastInDim S1x256 ![1] bcast_S256_S1x256_1 : (⟨S256, .f32⟩ : BufTy).Contents (Elt F) → (⟨S1x256, .f32⟩ : BufTy).Contents (Elt F)),
    StableHlo.unary main_v76 main_v77 (broadcastInDim S50000x256 ![0, 1] bcast_S1x256_S50000x256_0_1 : (⟨S1x256, .f32⟩ : BufTy).Contents (Elt F) → (⟨S50000x256, .f32⟩ : BufTy).Contents (Elt F)),
    StableHlo.binary main_v75 main_v77 main_v78 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v78) main_call2.v0 main_call2.v1 maximumf,
    StableHlo.binary main_v79 main_arg13 main_v80 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg14 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (addf : (⟨S50000x128, .f32⟩ : BufTy).Contents (Elt F) → (⟨S50000x128, .f32⟩ : BufTy).Contents (Elt F) → (⟨S50000x128, .f32⟩ : BufTy).Contents (Elt F)),
    StableHlo.binary main_v74 main_v83 main_v84 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x00000000#32),
    StableHlo.binary main_v84 main_cst_15 main_v85 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call3.cst (constant S_ .f32 0x00000000#32),
    StableHlo.TRef.binary (.of main_v84) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v84) main_call3.v4 main_call3.v5 subf,
    StableHlo.TRef.binary main_call3.v5 main_call3.v5 main_call3.v6 mulf,
    StableHlo.TRef.unary (.of main_c_17) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v90 main_v91 (subf : (⟨S50000x128, .f32⟩ : BufTy).Contents (Elt F) → (⟨S50000x128, .f32⟩ : BufTy).Contents (Elt F) → (⟨S50000x128, .f32⟩ : BufTy).Contents (Elt F)),
    StableHlo.unary main_arg9 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v91 main_v94 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v95 (broadcastInDim S128 ![] bcast_S_S128 : (⟨S_, .f32⟩ : BufTy).Contents (Elt F) → (⟨S128, .f32⟩ : BufTy).Contents (Elt F)),
    StableHlo.binary main_v88 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)),
    StableHlo.unary main_v97 main_v98 (broadcastInDim S1x128 ![1] bcast_S128_S1x128_1 : (⟨S128, .f32⟩ : BufTy).Contents (Elt F) → (⟨S1x128, .f32⟩ : BufTy).Contents (Elt F)) ]

/-- The third window: the second normalisation's scale and shift. -/
abbrev opsC : List (HloOp τ sig (Elt F)) :=
  [ StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_arg10 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)) ]

/-- The whole line. -/
abbrev ops : List (HloOp τ sig (Elt F)) := opsA ++ (opsB ++ opsC)

set_option maxRecDepth 8192 in
set_option maxHeartbeats 4000000 in
theorem partA_eq (c : Dev nD) : main_part0 (F := F) c = seq opsA := by
  simp only [main_part0, fn_clip.body, seq, bind_assoc, pure_bind]
  rfl

set_option maxRecDepth 16384 in
set_option maxHeartbeats 8000000 in
theorem partB_eq (c : Dev nD) : main_part1 (F := F) c = seq opsB := by
  simp only [main_part1, fn_var.body, fn_where.body, fn_relu.body, seq, bind_assoc, pure_bind]
  rfl

theorem partC_eq (c : Dev nD) : main_part2 (F := F) c = seq opsC := by
  simp only [main_part2, seq, bind_assoc, pure_bind]

/-- @main is that line: its three windows one after the other are their concatenation run as one. -/
theorem main_eq (c : Dev nD) : main (F := F) c = seq ops := by
  rw [seq_append, seq_append, ← partA_eq c, ← partB_eq c, ← partC_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., binary_bufs_sub .., reshape_bufs_sub .., binary_bufs_sub .., reshape_bufs_sub .., binary_bufs_sub .., reshape_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub .., nullary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub ..⟩
theorem opsB_sub : (opsB : List (HloOp τ sig (Elt F))).Forall fun op => op.bufs ⊆ tcRefs τ sig :=
  ⟨ternary_bufs_sub .., unary_bufs_sub .., nullary_bufs_sub .., unary_bufs_sub .., binary_bufs_sub .., unary_bufs_sub .., binary_bufs_sub .., reshape_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub ..⟩
theorem opsC_sub : (opsC : List (HloOp τ sig (Elt F))).Forall fun op => op.bufs ⊆ tcRefs τ sig :=
  ⟨unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    rcases List.mem_append.mp h with h | h
    · exact List.forall_iff_forall_mem.mp opsB_sub op h
    · exact List.forall_iff_forall_mem.mp opsC_sub op h

/-- The buffers the line writes: one per operation, none of them an argument. -/
abbrev written : List (Ref sig .tc) :=
  [main_v0, main_v1, main_v2, main_v3, main_v4, main_v5, main_v6, main_v7, main_v8, main_v9, main_v10, main_v11, main_c, main_v12, main_v13, main_c_0, main_v14, main_v15, main_v16, main_v17, main_v18, main_c_1, main_v19, main_v20, main_c_2, main_v21, main_v22, main_v23, main_v24, main_v25, main_v26, main_cst, main_v27, main_v28, main_v29, main_cst_3, main_v30, main_cst_4, main_cst_5, main_call0_v0, main_call0_v1, main_call0_v2, main_call0_v3, main_call0_v4, main_v31, main_v32, main_c_6, main_v33, main_v34, main_c_7, main_v35, main_v36, main_v37, main_v38, main_v39, main_v40, main_v41, main_v42, main_cst_8, main_v43, main_v44, main_v45, main_cst_9, main_v46, main_v47, main_v48, main_v49, main_cst_10, main_v50, main_v51, main_v52, main_v53, main_v54, main_v55, main_cst_11, main_v56, main_cst_12, main_v57, main_v58, main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v59, main_v60, main_v61, main_v62, main_v63, main_v64, main_v65, main_cst_14, main_v66, main_v67, main_v68, main_v69, main_v70, main_v71, main_v72, main_v73, main_v74, main_v75, main_v76, main_v77, main_v78, main_call2_cst, main_call2_v0, main_v79, main_v80, main_v81, main_v82, main_v83, main_v84, main_cst_15, main_v85, main_cst_16, main_v86, main_v87, main_c_17, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v88, main_v89, main_v90, main_v91, main_v92, main_v93, main_v94, main_cst_18, main_v95, main_v96, main_v97, main_v98, main_v99, main_v100, main_v101, main_v102, main_v103]

set_option maxHeartbeats 8000000 in
theorem opsA_writes : (opsA : List (HloOp τ sig (Elt F))).Forall fun op => op.writes ⊆ (written.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
set_option maxHeartbeats 8000000 in
theorem opsB_writes : (opsB : List (HloOp τ sig (Elt F))).Forall fun op => op.writes ⊆ (written.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem opsC_writes : (opsC : List (HloOp τ sig (Elt F))).Forall fun op => op.writes ⊆ (written.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem ops_writes : (ops : List (HloOp τ sig (Elt F))).Forall fun op => op.writes ⊆ (written.map (Proc.devRef (τ := τ) .tc)).toFinset :=
  List.forall_iff_forall_mem.mpr fun op h => by
    rcases List.mem_append.mp h with h | h
    · exact List.forall_iff_forall_mem.mp opsA_writes op h
    rcases List.mem_append.mp h with h | h
    · exact List.forall_iff_forall_mem.mp opsB_writes op h
    · exact List.forall_iff_forall_mem.mp opsC_writes op h

theorem ops_fresh : ∀ op ∈ (ops : List (HloOp τ sig (Elt F))), op.fresh = ∅ := by
  have hA : (opsA : List (HloOp τ sig (Elt F))).Forall fun op => op.fresh = ∅ := by simp only [List.Forall]; repeat' constructor
  have hB : (opsB : List (HloOp τ sig (Elt F))).Forall fun op => op.fresh = ∅ := by simp only [List.Forall]; repeat' constructor
  have hC : (opsC : List (HloOp τ sig (Elt F))).Forall fun op => op.fresh = ∅ := by simp only [List.Forall]; repeat' constructor
  intro op h
  rcases List.mem_append.mp h with h | h
  · exact List.forall_iff_forall_mem.mp hA op h
  rcases List.mem_append.mp h with h | h
  · exact List.forall_iff_forall_mem.mp hB op h
  · exact List.forall_iff_forall_mem.mp hC op h

/-- From any memory with zero counters every weakly fair execution of @main terminates, nothing faulting, and every final state
    has each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- An argument is written by no operation: it ends as launched. -/
theorem arg_kept (V : Valuation τ sig (Elt F)) (r : Ref sig .tc) (h : r ∉ written) : after ops V (Proc.devRef .tc r) = V (Proc.devRef .tc r) :=
  after_of_writes_sub ops V ops_writes h

/-- The frame: the arguments end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide)),
      (h c main_arg8).trans (arg_kept _ main_arg8 (by decide)),
      (h c main_arg9).trans (arg_kept _ main_arg9 (by decide)),
      (h c main_arg10).trans (arg_kept _ main_arg10 (by decide)),
      (h c main_arg11).trans (arg_kept _ main_arg11 (by decide)),
      (h c main_arg12).trans (arg_kept _ main_arg12 (by decide)),
      (h c main_arg13).trans (arg_kept _ main_arg13 (by decide)),
      (h c main_arg14).trans (arg_kept _ main_arg14 (by decide))⟩)
    (run_main m ρ)

end Cert.ReferenceIdeal.Hand

end
-- ==== Proof.KI.RunValue.lean ====
/-
  The idealized kernel's run with its result named: every weakly fair execution terminates with the result array at what the last
  region's write-backs leave (o4_5) and the arguments as launched.
-/
import proofs.«116564_j90065464197253_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its result named. Under the same hypotheses as the conditional frame — per region a segment record entered from the
    contents before it and left at the contents after it — every weakly fair execution of @main from memory m with zero counters
    terminates, and every final memory holds the result array at the last boundary's contents and each argument as launched. The
    proof is the conditional frame's, with the result array read off the last contents beside the arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c)) :
    θ_run defs (onTc (τ := τ) (main (F := F))) ⟨m, fun _ => 0, ρ⟩ (fun r => ∀ c : Dev nD,
      r.2.mem ((c.tc : Thread nD τ).loc main_v66) = V14 m outs c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, hpre0 c, hpost0 c, hpre1 c, hpost1 c, hpre2 c, hpost2 c, .rfl, .rfl, hpre3 c, hpost3 c, .rfl, .rfl, hpre4 c, (hpost4 c).trans (sep_mono .rfl (hE5 c))⟩)
    (hinit := ?_) (QY := fun c s => s.mem ((c.tc : Thread nD τ).loc main_v66) = V14 m outs c main_v66 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v66) (Finset.mem_filter.mpr ⟨StableHlo.devRef_mem_tcRefs main_v66, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c),
        (h (Proc.devRef .tc main_arg7) (Finset.mem_filter.mpr ⟨StableHlo.devRef_mem_tcRefs main_arg7, by decide⟩)).trans (V14_main_arg7 m outs c),
        (h (Proc.devRef .tc main_arg8) (Finset.mem_filter.mpr ⟨StableHlo.devRef_mem_tcRefs main_arg8, by decide⟩)).trans (V14_main_arg8 m outs c),
        (h (Proc.devRef .tc main_arg9) (Finset.mem_filter.mpr ⟨StableHlo.devRef_mem_tcRefs main_arg9, by decide⟩)).trans (V14_main_arg9 m outs c),
        (h (Proc.devRef .tc main_arg10) (Finset.mem_filter.mpr ⟨StableHlo.devRef_mem_tcRefs main_arg10, by decide⟩)).trans (V14_main_arg10 m outs c),
        (h (Proc.devRef .tc main_arg11) (Finset.mem_filter.mpr ⟨StableHlo.devRef_mem_tcRefs main_arg11, by decide⟩)).trans (V14_main_arg11 m outs c),
        (h (Proc.devRef .tc main_arg12) (Finset.mem_filter.mpr ⟨StableHlo.devRef_mem_tcRefs main_arg12, by decide⟩)).trans (V14_main_arg12 m outs c),
        (h (Proc.devRef .tc main_arg13) (Finset.mem_filter.mpr ⟨StableHlo.devRef_mem_tcRefs main_arg13, by decide⟩)).trans (V14_main_arg13 m outs c),
        (h (Proc.devRef .tc main_arg14) (Finset.mem_filter.mpr ⟨StableHlo.devRef_mem_tcRefs main_arg14, by decide⟩)).trans (V14_main_arg14 m outs c)⟩
    · iexact HSI

set_option backward.isDefEq.respectTransparency.types false in
/-- From any memory with zero counters every weakly fair execution of @main terminates, nothing faulting; every final state has the
    result array at the fold of the last region's write-backs and the argument arrays as launched. -/
theorem run : θ_run defs (onTc (τ := τ) (main (F := F))) ⟨m, fun _ => 0, ρ⟩ (fun r => ∀ c : Dev nD,
      r.2.mem ((c.tc : Thread nD τ).loc main_v66) = o4_5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (by rw [V14_eq]; exact exit4_5 m c), (h c).2⟩)
    (run_cond m emb₁ () 𝒱₀ L lv (fun _ _ => rfl) ρ (left m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    Rests
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl))

end Cert.KernelIdeal.Hand

end
-- ==== Proof.KI.Reads.lean ====
/-
  Buffers that a stretch of host operations or a region does not write keep their contents across it; chained, an argument or an
  intermediate array read several boundaries later is what it was when it was written.
-/
import proofs.«116564_j90065464197253_2_alg».proof.Proof.KI.Seg0
import proofs.«116564_j90065464197253_2_alg».proof.Proof.KI.Seg1
import proofs.«116564_j90065464197253_2_alg».proof.Proof.KI.Seg2
import proofs.«116564_j90065464197253_2_alg».proof.Proof.KI.Seg3
import proofs.«116564_j90065464197253_2_alg».proof.Proof.KI.Seg4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F] (m : (ℓ : Loc nD τ sig) → Buf (Elt F) ℓ)

theorem keep1 (c : Dev nD) (r : Ref sig .tc) (h : r ∉ hostOps0_W) : B1 m c r = B0 m c r := by
  have := V1_of m c r h
  rwa [V1_eq, V0_eq] at this

theorem keep3 (c : Dev nD) (r : Ref sig .tc) (h : r ∉ hostOps1_W) : B3 m c r = B2 m c r := by
  have := V3_of m (left m) c r h
  rwa [V3_eq, V2_eq] at this

theorem keep5 (c : Dev nD) (r : Ref sig .tc) (h : r ∉ hostOps2_W) : B5 m c r = B4 m c r := by
  have := V5_of m (left m) c r h
  rwa [V5_eq, V4_eq] at this

theorem keep7 (c : Dev nD) (r : Ref sig .tc) (h : r ∉ hostOps3_W) : B7 m c r = B6 m c r := by
  have := V7_of m (left m) c r h
  rwa [V7_eq, V6_eq] at this

theorem keep8 (c : Dev nD) (r : Ref sig .tc) (h : r ∉ hostOps3_1_W) : B8 m c r = B7 m c r := by
  have := V8_of m (left m) c r h
  rwa [V8_eq, V7_eq] at this

theorem keep9 (c : Dev nD) (r : Ref sig .tc) (h : r ∉ hostOps3_2_W) : B9 m c r = B8 m c r := by
  have := V9_of m (left m) c r h
  rwa [V9_eq, V8_eq] at this

theorem keep11 (c : Dev nD) (r : Ref sig .tc) (h : r ∉ hostOps4_W) : B11 m c r = B10 m c r := by
  have := V11_of m (left m) c r h
  rwa [V11_eq, V10_eq] at this

theorem keep12 (c : Dev nD) (r : Ref sig .tc) (h : r ∉ hostOps4_1_W) : B12 m c r = B11 m c r := by
  have := V12_of m (left m) c r h
  rwa [V12_eq, V11_eq] at this

theorem keep13 (c : Dev nD) (r : Ref sig .tc) (h : r ∉ hostOps4_2_W) : B13 m c r = B12 m c r := by
  have := V13_of m (left m) c r h
  rwa [V13_eq, V12_eq] at this

theorem keep2 (c : Dev nD) (r : Ref sig .tc) (h : r ∉ ([main_v5] : List (Ref sig .tc))) : B2 m c r = B1 m c r :=
  exit0_of m c r h

theorem keep4 (c : Dev nD) (r : Ref sig .tc) (h : r ∉ ([main_v12] : List (Ref sig .tc))) : B4 m c r = B3 m c r :=
  exit1_of m c r h

theorem keep6 (c : Dev nD) (r : Ref sig .tc) (h : r ∉ ([main_v35_0, main_v35_1] : List (Ref sig .tc))) : B6 m c r = B5 m c r :=
  exit2_of m c r h

theorem keep10 (c : Dev nD) (r : Ref sig .tc) (h : r ∉ ([main_v58] : List (Ref sig .tc))) : B10 m c r = B9 m c r :=
  exit3_of m c r h

theorem keep14 (c : Dev nD) (r : Ref sig .tc) (h : r ∉ ([main_v66] : List (Ref sig .tc))) : B14 m c r = B13 m c r :=
  exit4_of m c r h

theorem pass_main_v3_6_1 (c : Dev nD) : B6 m c main_v3 = B1 m c main_v3 :=
  (keep6 m c main_v3 (by decide)).trans ((keep5 m c main_v3 (by decide)).trans ((keep4 m c main_v3 (by decide)).trans ((keep3 m c main_v3 (by decide)).trans (keep2 m c main_v3 (by decide)))))

theorem pass_main_v1_4_1 (c : Dev nD) : B4 m c main_v1 = B1 m c main_v1 :=
  (keep4 m c main_v1 (by decide)).trans ((keep3 m c main_v1 (by decide)).trans (keep2 m c main_v1 (by decide)))

theorem pass_main_arg0_6_0 (c : Dev nD) : B6 m c main_arg0 = B0 m c main_arg0 :=
  (keep6 m c main_arg0 (by decide)).trans ((keep5 m c main_arg0 (by decide)).trans ((keep4 m c main_arg0 (by decide)).trans ((keep3 m c main_arg0 (by decide)).trans ((keep2 m c main_arg0 (by decide)).trans (keep1 m c main_arg0 (by decide))))))

theorem pass_main_arg0_1_0 (c : Dev nD) : B1 m c main_arg0 = B0 m c main_arg0 :=
  (keep1 m c main_arg0 (by decide))

theorem pass_main_arg0_9_0 (c : Dev nD) : B9 m c main_arg0 = B0 m c main_arg0 :=
  (keep9 m c main_arg0 (by decide)).trans ((keep8 m c main_arg0 (by decide)).trans ((keep7 m c main_arg0 (by decide)).trans ((keep6 m c main_arg0 (by decide)).trans ((keep5 m c main_arg0 (by decide)).trans ((keep4 m c main_arg0 (by decide)).trans ((keep3 m c main_arg0 (by decide)).trans ((keep2 m c main_arg0 (by decide)).trans (keep1 m c main_arg0 (by decide)))))))))

theorem pass_main_arg2_3_0 (c : Dev nD) : B3 m c main_arg2 = B0 m c main_arg2 :=
  (keep3 m c main_arg2 (by decide)).trans ((keep2 m c main_arg2 (by decide)).trans (keep1 m c main_arg2 (by decide)))

theorem pass_main_arg6_3_0 (c : Dev nD) : B3 m c main_arg6 = B0 m c main_arg6 :=
  (keep3 m c main_arg6 (by decide)).trans ((keep2 m c main_arg6 (by decide)).trans (keep1 m c main_arg6 (by decide)))

theorem pass_main_v9_4_3 (c : Dev nD) : B4 m c main_v9 = B3 m c main_v9 :=
  (keep4 m c main_v9 (by decide))

theorem pass_main_v7_4_3 (c : Dev nD) : B4 m c main_v7 = B3 m c main_v7 :=
  (keep4 m c main_v7 (by decide))

theorem pass_main_v11_4_3 (c : Dev nD) : B4 m c main_v11 = B3 m c main_v11 :=
  (keep4 m c main_v11 (by decide))

theorem pass_main_v47_9_7 (c : Dev nD) : B9 m c main_v47 = B7 m c main_v47 :=
  (keep9 m c main_v47 (by decide)).trans (keep8 m c main_v47 (by decide))

theorem pass_main_v52_9_7 (c : Dev nD) : B9 m c main_v52 = B7 m c main_v52 :=
  (keep9 m c main_v52 (by decide)).trans (keep8 m c main_v52 (by decide))

theorem pass_main_v53_9_8 (c : Dev nD) : B9 m c main_v53 = B8 m c main_v53 :=
  (keep9 m c main_v53 (by decide))

theorem pass_main_arg11_9_0 (c : Dev nD) : B9 m c main_arg11 = B0 m c main_arg11 :=
  (keep9 m c main_arg11 (by decide)).trans ((keep8 m c main_arg11 (by decide)).trans ((keep7 m c main_arg11 (by decide)).trans ((keep6 m c main_arg11 (by decide)).trans ((keep5 m c main_arg11 (by decide)).trans ((keep4 m c main_arg11 (by decide)).trans ((keep3 m c main_arg11 (by decide)).trans ((keep2 m c main_arg11 (by decide)).trans (keep1 m c main_arg11 (by decide)))))))))

theorem pass_main_arg13_9_0 (c : Dev nD) : B9 m c main_arg13 = B0 m c main_arg13 :=
  (keep9 m c main_arg13 (by decide)).trans ((keep8 m c main_arg13 (by decide)).trans ((keep7 m c main_arg13 (by decide)).trans ((keep6 m c main_arg13 (by decide)).trans ((keep5 m c main_arg13 (by decide)).trans ((keep4 m c main_arg13 (by decide)).trans ((keep3 m c main_arg13 (by decide)).trans ((keep2 m c main_arg13 (by decide)).trans (keep1 m c main_arg13 (by decide)))))))))

theorem pass_main_arg7_8_0 (c : Dev nD) : B8 m c main_arg7 = B0 m c main_arg7 :=
  (keep8 m c main_arg7 (by decide)).trans ((keep7 m c main_arg7 (by decide)).trans ((keep6 m c main_arg7 (by decide)).trans ((keep5 m c main_arg7 (by decide)).trans ((keep4 m c main_arg7 (by decide)).trans ((keep3 m c main_arg7 (by decide)).trans ((keep2 m c main_arg7 (by decide)).trans (keep1 m c main_arg7 (by decide))))))))

theorem pass_main_arg8_8_0 (c : Dev nD) : B8 m c main_arg8 = B0 m c main_arg8 :=
  (keep8 m c main_arg8 (by decide)).trans ((keep7 m c main_arg8 (by decide)).trans ((keep6 m c main_arg8 (by decide)).trans ((keep5 m c main_arg8 (by decide)).trans ((keep4 m c main_arg8 (by decide)).trans ((keep3 m c main_arg8 (by decide)).trans ((keep2 m c main_arg8 (by decide)).trans (keep1 m c main_arg8 (by decide))))))))

theorem pass_main_arg12_8_0 (c : Dev nD) : B8 m c main_arg12 = B0 m c main_arg12 :=
  (keep8 m c main_arg12 (by decide)).trans ((keep7 m c main_arg12 (by decide)).trans ((keep6 m c main_arg12 (by decide)).trans ((keep5 m c main_arg12 (by decide)).trans ((keep4 m c main_arg12 (by decide)).trans ((keep3 m c main_arg12 (by decide)).trans ((keep2 m c main_arg12 (by decide)).trans (keep1 m c main_arg12 (by decide))))))))

theorem pass_main_arg14_8_0 (c : Dev nD) : B8 m c main_arg14 = B0 m c main_arg14 :=
  (keep8 m c main_arg14 (by decide)).trans ((keep7 m c main_arg14 (by decide)).trans ((keep6 m c main_arg14 (by decide)).trans ((keep5 m c main_arg14 (by decide)).trans ((keep4 m c main_arg14 (by decide)).trans ((keep3 m c main_arg14 (by decide)).trans ((keep2 m c main_arg14 (by decide)).trans (keep1 m c main_arg14 (by decide))))))))

theorem pass_main_arg9_12_0 (c : Dev nD) : B12 m c main_arg9 = B0 m c main_arg9 :=
  (keep12 m c main_arg9 (by decide)).trans ((keep11 m c main_arg9 (by decide)).trans ((keep10 m c main_arg9 (by decide)).trans ((keep9 m c main_arg9 (by decide)).trans ((keep8 m c main_arg9 (by decide)).trans ((keep7 m c main_arg9 (by decide)).trans ((keep6 m c main_arg9 (by decide)).trans ((keep5 m c main_arg9 (by decide)).trans ((keep4 m c main_arg9 (by decide)).trans ((keep3 m c main_arg9 (by decide)).trans ((keep2 m c main_arg9 (by decide)).trans (keep1 m c main_arg9 (by decide))))))))))))

theorem pass_main_arg10_12_0 (c : Dev nD) : B12 m c main_arg10 = B0 m c main_arg10 :=
  (keep12 m c main_arg10 (by decide)).trans ((keep11 m c main_arg10 (by decide)).trans ((keep10 m c main_arg10 (by decide)).trans ((keep9 m c main_arg10 (by decide)).trans ((keep8 m c main_arg10 (by decide)).trans ((keep7 m c main_arg10 (by decide)).trans ((keep6 m c main_arg10 (by decide)).trans ((keep5 m c main_arg10 (by decide)).trans ((keep4 m c main_arg10 (by decide)).trans ((keep3 m c main_arg10 (by decide)).trans ((keep2 m c main_arg10 (by decide)).trans (keep1 m c main_arg10 (by decide))))))))))))

theorem pass_main_v58_13_10 (c : Dev nD) : B13 m c main_v58 = B10 m c main_v58 :=
  (keep13 m c main_v58 (by decide)).trans ((keep12 m c main_v58 (by decide)).trans (keep11 m c main_v58 (by decide)))

theorem pass_main_v62_13_11 (c : Dev nD) : B13 m c main_v62 = B11 m c main_v62 :=
  (keep13 m c main_v62 (by decide)).trans (keep12 m c main_v62 (by decide))

theorem pass_main_v63_13_12 (c : Dev nD) : B13 m c main_v63 = B12 m c main_v63 :=
  (keep13 m c main_v63 (by decide))

theorem pass_main_v58_11_10 (c : Dev nD) : B11 m c main_v58 = B10 m c main_v58 :=
  (keep11 m c main_v58 (by decide))

theorem pass_main_v3_4_1 (c : Dev nD) : B4 m c main_v3 = B1 m c main_v3 :=
  (keep4 m c main_v3 (by decide)).trans ((keep3 m c main_v3 (by decide)).trans (keep2 m c main_v3 (by decide)))

theorem pass_main_v58_12_10 (c : Dev nD) : B12 m c main_v58 = B10 m c main_v58 :=
  (keep12 m c main_v58 (by decide)).trans (keep11 m c main_v58 (by decide))

theorem pass_main_c_12_12_11 (c : Dev nD) : B12 m c main_c_12 = B11 m c main_c_12 :=
  (keep12 m c main_c_12 (by decide))

end Cert.KernelIdeal.Hand

end
-- ==== Proof.Spec.lean ====
/-
  What each stage of the layer computes, as one whole-array function of its input arrays, written with the host's own operations
  (the reference's spelling): the per-edge attention weights and messages, the normalisation over rows with given column statistics,
  and the normalisation fused with the feed-forward block. Statistics, scales, shifts and biases are 1 × n rows, repeated down the
  rows of the matrix they act on. These are the targets each region's array is shown to hold, and the forms the reference's own
  intermediate arrays are shown to have.
-/
import proofs.«116564_j90065464197253_2_alg».proof.ReferenceIdeal
import Idealize.ShloMosaic.PureOps.Ideal

noncomputable section

namespace Cert.Spec

open Cert.ReferenceIdeal Idealize.ShloMosaic
open Cert.ReferenceIdeal.Facts₀

variable {F : FTy → Type} [FloatOps F] [Cert.ReferenceIdeal.Facts]

/-- x · W over 50000 rows. -/
def proj (X : FVec F S50000x128 .f32) (W : FVec F S128x128 .f32) : FVec F S50000x128 .f32 :=
  Host.dotGeneral dot_S50000x128_S128x128_S50000x128_1_0_0_1_n_n none X W

/-- edge_attr · W_E over 600000 rows. -/
def eproj (E : FVec F S600000x128 .f32) (W : FVec F S128x128 .f32) : FVec F S600000x128 .f32 :=
  Host.dotGeneral dot_S600000x128_S128x128_S600000x128_1_0_0_1_n_n none E W

/-- The attention weights of every edge and head: exp of the score Σ_d k·q·¼·eh clipped to [−5, 5]. -/
def weights (Kg Qg Eh : FVec F S600000x8x16 .f32) : FVec F S600000x8 .f32 :=
  Host.exp (minimumf (broadcastInDim S600000x8 ![] bcast_S_S600000x8 (constant S_ .f32 0x40A00000#32))
    (maximumf (broadcastInDim S600000x8 ![] bcast_S_S600000x8 (constant S_ .f32 0xC0A00000#32))
      (Host.reduceAdd (mulf (mulf (mulf Kg Qg) (broadcastInDim S600000x8x16 ![] bcast_S_S600000x8x16 (constant S_ .f32 0x3E800000#32))) Eh)
        (constant S_ .f32 0x00000000#32) reducesTo_S600000x8x16_S600000x8_d2 h_S_)))

/-- The messages: each gathered value scaled by its edge's and head's weight. -/
def messages (Vg : FVec F S600000x8x16 .f32) (s : FVec F S600000x8 .f32) : FVec F S600000x8x16 .f32 :=
  mulf Vg (broadcastInDim S600000x8x16 ![0, 1, 2] bcast_S600000x8x1_S600000x8x16_0_1_2
    (broadcastInDim S600000x8x1 ![0, 1] bcast_S600000x8_S600000x8x1_0_1 s))

/-- A 1 × 128 row repeated down 50000 rows. -/
def rows (v : FVec F S1x128 .f32) : FVec F S50000x128 .f32 :=
  broadcastInDim S50000x128 ![0, 1] bcast_S1x128_S50000x128_0_1 v

/-- The reciprocal root of a row of variances plus the normalisation's epsilon. -/
def invStd (var : FVec F S1x128 .f32) : FVec F S1x128 .f32 :=
  Host.rsqrt (addf var (broadcastInDim S1x128 ![] bcast_S_S1x128 (constant S_ .f32 0x3727C5AC#32)))

/-- γ (h − μ) rsqrt(σ² + ε) + β, the statistics and parameters given as rows. -/
def norm (h : FVec F S50000x128 .f32) (mu var g b : FVec F S1x128 .f32) : FVec F S50000x128 .f32 :=
  addf (mulf (mulf (rows g) (subf h (rows mu))) (rows (invStd var))) (rows b)

/-- relu(h W₁ + b₁) W₂ + b₂. -/
def ff (h : FVec F S50000x128 .f32) (W1 : FVec F S128x256 .f32) (b1 : FVec F S1x256 .f32) (W2 : FVec F S256x128 .f32)
    (b2 : FVec F S1x128 .f32) : FVec F S50000x128 .f32 :=
  addf (Host.dotGeneral dot_S50000x256_S256x128_S50000x128_1_0_0_1_n_n none
      (maximumf (addf (Host.dotGeneral dot_S50000x128_S128x256_S50000x256_1_0_0_1_n_n none h W1)
          (broadcastInDim S50000x256 ![0, 1] bcast_S1x256_S50000x256_0_1 b1))
        (broadcastInDim S50000x256 ![] bcast_S_S50000x256 (constant S_ .f32 0x00000000#32))) W2)
    (rows b2)

/-- The first normalisation of x + a followed by the feed-forward block and its residual: h + ff(h). -/
def normff (x a : FVec F S50000x128 .f32) (mu var g b : FVec F S1x128 .f32) (W1 : FVec F S128x256 .f32) (b1 : FVec F S1x256 .f32)
    (W2 : FVec F S256x128 .f32) (b2 : FVec F S1x128 .f32) : FVec F S50000x128 .f32 :=
  addf (norm (addf x a) mu var g b) (ff (norm (addf x a) mu var g b) W1 b1 W2 b2)

end Cert.Spec

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«116564_j90065464197253_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.KI.Value3.lean ====
/-
  What region 3 leaves: the first normalisation of x + a fused with the feed-forward block and its residual, over the whole
  50000 × 128 matrix.
  The body at grid point t is handed rows [2000 t, 2000 (t+1)) of x and of the attention output a, the four 1 × 128 rows μ, σ², γ, β
  and the weights W₁, b₁, W₂, b₂, and stores  h + (relu(h W₁ + b₁) W₂ + b₂)  with  h = γ (x + a − μ) rsqrt(σ² + ε) + β.  Every
  operation of that chain acts on each row by itself (an entrywise operation, a row repeated down the rows, a product with a fixed
  right factor), so what it makes of a block of rows is that block of rows of what it makes of the whole matrix; the 25 blocks
  tile the matrix.
-/
import proofs.«116564_j90065464197253_2_alg».proof.Proof.KI.Contents
import proofs.«116564_j90065464197253_2_alg».proof.Proof.Spec
import proofs.«116564_j90065464197253_2_alg».proof.Proof.LibDenseLayer
import proofs.«116564_j90065464197253_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! ## Blocks of rows through an entrywise difference, an entrywise product, a narrowing cast -/

namespace Cert.Lib.NormFF

open Idealize.ShloMosaic Idealize.ShloMosaic.ValueIdx Cert.Lib.DenseLayer

/-- Entrywise differences of blocks of rows. -/
theorem rowBlk_sub {Mb M K : Nat} {off : Nat} {a b : FVec Ideal ⟨2, ![Mb, K]⟩ .f32} {A B : FVec Ideal ⟨2, ![M, K]⟩ .f32}
    (ha : RowBlk off a A) (hb : RowBlk off b B) : RowBlk off (subf a b) (subf A B) := fun r hr k => by
  rw [subf_apply, subf_apply, ha r hr k, hb r hr k]

/-- Entrywise products of blocks of rows. -/
theorem rowBlk_mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

end Cert.Lib.NormFF

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Lib.DenseLayer Cert.Lib.NormFF

variable (m : (ℓ : Loc nD τ sig) → Buf (Elt Ideal) ℓ)

/-! ## The four products are textbook products -/

theorem plain3_k1 : Plain Cert.KernelIdeal.dot_S2000x128_S128x256_S2000x256_1_0_0_1_n_n where
  rank := rfl
  size := rfl
  l0 := fun i q => rfl
  l1 := fun i q => rfl
  r0 := fun i q => rfl
  r1 := fun i q => rfl

theorem plain3_k2 : Plain Cert.KernelIdeal.dot_S2000x256_S256x128_S2000x128_1_0_0_1_n_n where
  rank := rfl
  size := rfl
  l0 := fun i q => rfl
  l1 := fun i q => rfl
  r0 := fun i q => rfl
  r1 := fun i q => rfl

theorem plain3_h1 : Plain Cert.ReferenceIdeal.dot_S50000x128_S128x256_S50000x256_1_0_0_1_n_n where
  rank := rfl
  size := rfl
  l0 := fun i q => rfl
  l1 := fun i q => rfl
  r0 := fun i q => rfl
  r1 := fun i q => rfl

theorem plain3_h2 : Plain Cert.ReferenceIdeal.dot_S50000x256_S256x128_S50000x128_1_0_0_1_n_n where
  rank := rfl
  size := rfl
  l0 := fun i q => rfl
  l1 := fun i q => rfl
  r0 := fun i q => rfl
  r1 := fun i q => rfl

/-! ## The body's stored value on a block of rows -/

/-- The normalisation on a block of rows of x and of a is that block of rows of the normalisation of the whole x + a. -/
theorem norm3_rowBlk {off : Nat} (x0 x1 : Vec Ideal S2000x128 .f32) (X A : FVec Ideal ⟨2, ![50000, 128]⟩ .f32)
    (mu var g b : Vec Ideal S1x128 .f32) (hx : RowBlk off x0 X) (ha : RowBlk off x1 A) :
    RowBlk off (k3_pay2 x0 x1 mu var g b) (Cert.Spec.norm (F := Ideal) (addf X A) mu var g b) := by
  unfold k3_pay2 Cert.Spec.norm Cert.Spec.rows
  simp only [shapeCast_self]
  exact RowBlk.add (rowBlk_mul (rowBlk_mul (RowBlk.bias g _ _) (rowBlk_sub (RowBlk.add hx ha) (RowBlk.bias mu _ _)))
    (RowBlk.bias (Cert.Spec.invStd (F := Ideal) var) _ _)) (RowBlk.bias b _ _)

/-- The whole stored value on a block of rows of x and of a is that block of rows of the whole-matrix function. -/
theorem normff3_rowBlk {off : Nat} (x0 x1 : Vec Ideal S2000x128 .f32) (X A : FVec Ideal ⟨2, ![50000, 128]⟩ .f32)
    (mu var g b : Vec Ideal S1x128 .f32) (W1 : Vec Ideal S128x256 .f32) (b1 : Vec Ideal S1x256 .f32)
    (W2 : Vec Ideal S256x128 .f32) (b2 : Vec Ideal S1x128 .f32) (hx : RowBlk off x0 X) (ha : RowBlk off x1 A) :
    RowBlk off (k3_pay1 (k3_pay2 x0 x1 mu var g b) (k3_pay3 x0 x1 mu var g b W1 b1) (k3_pay4 W2) b2)
      (Cert.Spec.normff (F := Ideal) X A mu var g b W1 b1 W2 b2) := by
  have h2 := norm3_rowBlk x0 x1 X A mu var g b hx ha
  unfold k3_pay1 k3_pay3 k3_pay4 Cert.Spec.normff Cert.Spec.ff Cert.Spec.rows
  simp only [shapeCast_self]
  exact RowBlk.add h2 (RowBlk.add
    (RowBlk.matmul plain3_k2 plain3_h2
      (RowBlk.max (RowBlk.add (RowBlk.matmul plain3_k1 plain3_h1 h2 W1 _ _) (RowBlk.bias b1 _ _))
        (RowBlk.const (Ideal.ofBits .f32 0x00000000#32) (fun _ => rfl) (fun _ => rfl))) W2 _ _)
    (RowBlk.bias b2 _ _))

/-! ## The blocks the body is handed -/

theorem hz3 : (![0, 0] : Fin 2 → Nat) = fun _ => 0 := funext fun a => by fin_cases a <;> rfl

/-- The printed index maps, decided over the grid: the windows of x, of a and of the result sit at block t of the rows and block 0
    of the columns; every other window's block never moves. -/
theorem idx_facts3 : ∀ t : Fin cfg3.N, win3_10.index t (0 : Fin 2) = t.val
    ∧ win3_10.index t (1 : Fin 2) = 0
    ∧ win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0 :=
  (by decide +kernel : ∀ t : Fin grid3.N, _)

variable (V : (c : Dev nD) → (b : Ref sig .tc) → Buf (Elt Ideal) ((c : Thread nD τ).loc b))

theorem t_lt3 (t : Fin cfg3.N) : t.val < 25 := lt_of_lt_of_eq t.isLt N_3

/-- The block of window 0 at point t is the block of 2000 rows of its array that starts at row 2000 t. -/
theorem blk3_0_rowBlk (c : Dev nD) (t : Fin cfg3.N) :
    RowBlk (Mb := 2000) (M := 50000) (K := 128) (t.val * 2000) (blk3 V c 0 t) (V c main_arg0) := by
  intro r hr k
  obtain ⟨o0, o1, x0, x1, y0, y1, z20, z21, z30, z31, z40, z41, z50, z51, z60, z61, z70, z71, z80, z81, z90, z91⟩ := idx_facts3 t
  show V c main_arg0 (((cfg3.win 0).blk t).view.emb (ix2 r k)) = _
  refine congrArg (V c main_arg0) (funext fun a => Fin.ext ?_)
  match a with
  | ⟨0, _⟩ => show win3_0.index t (0 : Fin 2) * 2000 + 1 * r.val = t.val * 2000 + r.val; omega
  | ⟨1, _⟩ => show win3_0.index t (1 : Fin 2) * 128 + 1 * k.val = k.val; omega

/-- The block of window 1 at point t is the block of 2000 rows of its array that starts at row 2000 t. -/
theorem blk3_1_rowBlk (c : Dev nD) (t : Fin cfg3.N) :
    RowBlk (Mb := 2000) (M := 50000) (K := 128) (t.val * 2000) (blk3 V c 1 t) (V c main_v47) := by
  intro r hr k
  obtain ⟨o0, o1, x0, x1, y0, y1, z20, z21, z30, z31, z40, z41, z50, z51, z60, z61, z70, z71, z80, z81, z90, z91⟩ := idx_facts3 t
  show V c main_v47 (((cfg3.win 1).blk t).view.emb (ix2 r k)) = _
  refine congrArg (V c main_v47) (funext fun a => Fin.ext ?_)
  match a with
  | ⟨0, _⟩ => show win3_1.index t (0 : Fin 2) * 2000 + 1 * r.val = t.val * 2000 + r.val; omega
  | ⟨1, _⟩ => show win3_1.index t (1 : Fin 2) * 128 + 1 * k.val = k.val; omega

/-- The one block of window 2 is its whole array, at every point. -/
theorem blk3_2_eq (c : Dev nD) (t : Fin cfg3.N) : (blk3 V c 2 t : S1x128.Idx → EReal) = V c main_v52 := by
  obtain ⟨o0, o1, x0, x1, y0, y1, z20, z21, z30, z31, z40, z41, z50, z51, z60, z61, z70, z71, z80, z81, z90, z91⟩ := idx_facts3 t
  funext j
  show V c main_v52 (((cfg3.win 2).blk t).view.emb j) = _
  refine congrArg (V c main_v52) (funext fun a => Fin.ext ?_)
  match a with
  | ⟨0, _⟩ => show win3_2.index t (0 : Fin 2) * 1 + 1 * (j 0).val = (j 0).val; omega
  | ⟨1, _⟩ => show win3_2.index t (1 : Fin 2) * 128 + 1 * (j 1).val = (j 1).val; omega

/-- The one block of window 3 is its whole array, at every point. -/
theorem blk3_3_eq (c : Dev nD) (t : Fin cfg3.N) : (blk3 V c 3 t : S1x128.Idx → EReal) = V c main_v53 := by
  obtain ⟨o0, o1, x0, x1, y0, y1, z20, z21, z30, z31, z40, z41, z50, z51, z60, z61, z70, z71, z80, z81, z90, z91⟩ := idx_facts3 t
  funext j
  show V c main_v53 (((cfg3.win 3).blk t).view.emb j) = _
  refine congrArg (V c main_v53) (funext fun a => Fin.ext ?_)
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- The one block of window 4 is its whole array, at every point. -/
theorem blk3_4_eq (c : Dev nD) (t : Fin cfg3.N) : (blk3 V c 4 t : S1x128.Idx → EReal) = V c main_v54 := by
  obtain ⟨o0, o1, x0, x1, y0, y1, z20, z21, z30, z31, z40, z41, z50, z51, z60, z61, z70, z71, z80, z81, z90, z91⟩ := idx_facts3 t
  funext j
  show V c main_v54 (((cfg3.win 4).blk t).view.emb j) = _
  refine congrArg (V c main_v54) (funext fun a => Fin.ext ?_)
  match a with
  | ⟨0, _⟩ => show win3_4.index t (0 : Fin 2) * 1 + 1 * (j 0).val = (j 0).val; omega
  | ⟨1, _⟩ => show win3_4.index t (1 : Fin 2) * 128 + 1 * (j 1).val = (j 1).val; omega

/-- The one block of window 5 is its whole array, at every point. -/
theorem blk3_5_eq (c : Dev nD) (t : Fin cfg3.N) : (blk3 V c 5 t : S1x128.Idx → EReal) = V c main_v55 := by
  obtain ⟨o0, o1, x0, x1, y0, y1, z20, z21, z30, z31, z40, z41, z50, z51, z60, z61, z70, z71, z80, z81, z90, z91⟩ := idx_facts3 t
  funext j
  show V c main_v55 (((cfg3.win 5).blk t).view.emb j) = _
  refine congrArg (V c main_v55) (funext fun a => Fin.ext ?_)
  match a with
  | ⟨0, _⟩ => show win3_5.index t (0 : Fin 2) * 1 + 1 * (j 0).val = (j 0).val; omega
  | ⟨1, _⟩ => show win3_5.index t (1 : Fin 2) * 128 + 1 * (j 1).val = (j 1).val; omega

/-- The one block of window 6 is its whole array, at every point. -/
theorem blk3_6_eq (c : Dev nD) (t : Fin cfg3.N) : (blk3 V c 6 t : S128x256.Idx → EReal) = V c main_arg11 := by
  obtain ⟨o0, o1, x0, x1, y0, y1, z20, z21, z30, z31, z40, z41, z50, z51, z60, z61, z70, z71, z80, z81, z90, z91⟩ := idx_facts3 t
  funext j
  show V c main_arg11 (((cfg3.win 6).blk t).view.emb j) = _
  refine congrArg (V c main_arg11) (funext fun a => Fin.ext ?_)
  match a with
  | ⟨0, _⟩ => show win3_6.index t (0 : Fin 2) * 128 + 1 * (j 0).val = (j 0).val; omega
  | ⟨1, _⟩ => show win3_6.index t (1 : Fin 2) * 256 + 1 * (j 1).val = (j 1).val; omega

/-- The one block of window 7 is its whole array, at every point. -/
theorem blk3_7_eq (c : Dev nD) (t : Fin cfg3.N) : (blk3 V c 7 t : S1x256.Idx → EReal) = V c main_v56 := by
  obtain ⟨o0, o1, x0, x1, y0, y1, z20, z21, z30, z31, z40, z41, z50, z51, z60, z61, z70, z71, z80, z81, z90, z91⟩ := idx_facts3 t
  funext j
  show V c main_v56 (((cfg3.win 7).blk t).view.emb j) = _
  refine congrArg (V c main_v56) (funext fun a => Fin.ext ?_)
  match a with
  | ⟨0, _⟩ => show win3_7.index t (0 : Fin 2) * 1 + 1 * (j 0).val = (j 0).val; omega
  | ⟨1, _⟩ => show win3_7.index t (1 : Fin 2) * 256 + 1 * (j 1).val = (j 1).val; omega

/-- The one block of window 8 is its whole array, at every point. -/
theorem blk3_8_eq (c : Dev nD) (t : Fin cfg3.N) : (blk3 V c 8 t : S256x128.Idx → EReal) = V c main_arg13 := by
  obtain ⟨o0, o1, x0, x1, y0, y1, z20, z21, z30, z31, z40, z41, z50, z51, z60, z61, z70, z71, z80, z81, z90, z91⟩ := idx_facts3 t
  funext j
  show V c main_arg13 (((cfg3.win 8).blk t).view.emb j) = _
  refine congrArg (V c main_arg13) (funext fun a => Fin.ext ?_)
  match a with
  | ⟨0, _⟩ => show win3_8.index t (0 : Fin 2) * 256 + 1 * (j 0).val = (j 0).val; omega
  | ⟨1, _⟩ => show win3_8.index t (1 : Fin 2) * 128 + 1 * (j 1).val = (j 1).val; omega

/-- The one block of window 9 is its whole array, at every point. -/
theorem blk3_9_eq (c : Dev nD) (t : Fin cfg3.N) : (blk3 V c 9 t : S1x128.Idx → EReal) = V c main_v57 := by
  obtain ⟨o0, o1, x0, x1, y0, y1, z20, z21, z30, z31, z40, z41, z50, z51, z60, z61, z70, z71, z80, z81, z90, z91⟩ := idx_facts3 t
  funext j
  show V c main_v57 (((cfg3.win 9).blk t).view.emb j) = _
  refine congrArg (V c main_v57) (funext fun a => Fin.ext ?_)
  match a with
  | ⟨0, _⟩ => show win3_9.index t (0 : Fin 2) * 1 + 1 * (j 0).val = (j 0).val; omega
  | ⟨1, _⟩ => show win3_9.index t (1 : Fin 2) * 128 + 1 * (j 1).val = (j 1).val; omega

/-! ## From the blocks to the array -/

/-- The whole-matrix function of the arrays as the region finds them. -/
abbrev G3 (c : Dev nD) : S50000x128.Idx → Elt Ideal .f32 :=
  Cert.Spec.normff (F := Ideal) (V c main_arg0) (V c main_v47) (V c main_v52) (V c main_v53) (V c main_v54) (V c main_v55)
    (V c main_arg11) (V c main_v56) (V c main_arg13) (V c main_v57)

/-- What point t writes back is block t of the whole-matrix function of the arrays as the region finds them. -/
theorem flushed3_eq (c : Dev nD) (t : Fin cfg3.N) :
    (dat3 V c).flushed 10 t = ((cfg3.win 10).blk t).view.read (Elt Ideal) (G3 V c) := by
  show (cfg3.win 10).cut (grid3.coords t) ((dat3 V c).after 10 t) = _
  rw [after3_10]
  unfold normff3
  rw [View.canon_unit_zero hz3]
  simp only [View.ld_unit_zero (S := S2000x128) hz3, View.ld_unit_zero (S := S1x128) hz3, View.ld_unit_zero (S := S128x256) hz3,
    View.ld_unit_zero (S := S1x256) hz3, View.ld_unit_zero (S := S256x128) hz3]
  funext j
  obtain ⟨p, q, rfl⟩ : ∃ (p : Fin 2000) (q : Fin 128), j = ix2 p q := ⟨j 0, j 1, eq_ix2 j⟩
  obtain ⟨o0, o1, x0, x1, y0, y1, z20, z21, z30, z31, z40, z41, z50, z51, z60, z61, z70, z71, z80, z81, z90, z91⟩ := idx_facts3 t
  have hp : t.val * 2000 + p.val < 50000 := by have := t_lt3 t; have := p.isLt; omega
  have hi : ((cfg3.win 10).blk t).view.emb (ix2 p q) = ix2 (⟨t.val * 2000 + p.val, hp⟩ : Fin 50000) q := funext fun a => Fin.ext (by
    match a with
    | ⟨0, _⟩ => show win3_10.index t (0 : Fin 2) * 2000 + 1 * p.val = t.val * 2000 + p.val; omega
    | ⟨1, _⟩ => show win3_10.index t (1 : Fin 2) * 128 + 1 * q.val = q.val; omega)
  show k3_pay1 (k3_pay2 (blk3 V c 0 t) (blk3 V c 1 t) (blk3 V c 2 t) (blk3 V c 3 t) (blk3 V c 4 t) (blk3 V c 5 t))
      (k3_pay3 (blk3 V c 0 t) (blk3 V c 1 t) (blk3 V c 2 t) (blk3 V c 3 t) (blk3 V c 4 t) (blk3 V c 5 t) (blk3 V c 6 t) (blk3 V c 7 t))
      (k3_pay4 (blk3 V c 8 t)) (blk3 V c 9 t) (ix2 p q)
    = G3 V c (((cfg3.win 10).blk t).view.emb (ix2 p q))
  rw [hi, blk3_2_eq, blk3_3_eq, blk3_4_eq, blk3_5_eq, blk3_6_eq, blk3_7_eq, blk3_8_eq, blk3_9_eq]
  exact normff3_rowBlk (blk3 V c 0 t) (blk3 V c 1 t) (V c main_arg0) (V c main_v47) (V c main_v52) (V c main_v53) (V c main_v54)
    (V c main_v55) (V c main_arg11) (V c main_v56) (V c main_arg13) (V c main_v57) (blk3_0_rowBlk V c t) (blk3_1_rowBlk V c t) p hp q

/-- An index of the matrix is in point t's block iff each coordinate is in the block's range on its axis. -/
theorem mem_blk3 (t : Fin cfg3.N) (i : S50000x128.Idx) :
    i ∈ ((cfg3.win 10).blk t).view.set ↔ ∀ a : Fin 2, win3_10.index t a * S2000x128.size a ≤ (i a).val ∧ (i a).val < win3_10.index t a * S2000x128.size a + S2000x128.size a := by
  show i ∈ ((View.whole main_v58).slice (win3_10.rect t)).set ↔ _
  rw [View.set_slice_whole, Rect.mem_set_unit]
  exact Iff.rfl

/-- The 25 blocks tile the matrix: row r lies in the block of point r / 2000, which is written back. -/
theorem tiles3 (i : S50000x128.Idx) : ∃ t : Fin cfg3.N, (cfg3.win 10).flush t = true ∧ i ∈ ((cfg3.win 10).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨o0, o1, x0, x1, y0, y1, z20, z21, z30, z31, z40, z41, z50, z51, z60, z61, z70, z71, z80, z81, z90, z91⟩ := idx_facts3 t
  refine ⟨t, flush3_10 t, ?_⟩
  rw [mem_blk3]
  intro a
  have ht : t.val = (i 0).val / 2000 := rfl
  match a with
  | ⟨0, _⟩ => show win3_10.index t (0 : Fin 2) * 2000 ≤ (i 0).val ∧ (i 0).val < win3_10.index t (0 : Fin 2) * 2000 + 2000; omega
  | ⟨1, _⟩ => show win3_10.index t (1 : Fin 2) * 128 ≤ (i 1).val ∧ (i 1).val < win3_10.index t (1 : Fin 2) * 128 + 128; omega

/-- After the region the output array holds the whole-matrix function of the arrays as the region found them. -/
theorem final3 (c : Dev nD) : (dat3 V c).arrAt 10 cfg3.N = G3 V c :=
  (dat3 V c).arrAt_eq_of_cover 10 (G3 V c) (fun t _ => flushed3_eq V c t) tiles3

/-- Region 3 leaves in its output array the normalisation of x + a followed by the feed-forward block and its residual, of the
    arrays it is entered with. -/
theorem value3 (c : Dev nD) : o3_10 m c = Cert.Spec.normff (F := Ideal) (B9 m c main_arg0) (B9 m c main_v47) (B9 m c main_v52) (B9 m c main_v53) (B9 m c main_v54) (B9 m c main_v55) (B9 m c main_arg11) (B9 m c main_v56) (B9 m c main_arg13) (B9 m c main_v57) :=
  final3 (fun c b => B9 m c b) c

end Cert.KernelIdeal.Hand

end
-- ==== Proof.KI.Value4.lean ====
/-
  What region 4 leaves: the second normalisation of the whole 50000 × 128 matrix.
  The body at grid point t is handed rows [2000 t, 2000 (t+1)) of h and the four 1 × 128 rows μ, σ², γ, β, and stores
  γ (h − μ) rsqrt(σ² + ε) + β of them; every entry of the result depends on its own entry of h and on its column's entries of the
  rows, so block t of the result is block t of the whole-matrix normalisation, and the 25 blocks tile the matrix.
-/
import proofs.«116564_j90065464197253_2_alg».proof.Proof.KI.Contents
import proofs.«116564_j90065464197253_2_alg».proof.Proof.Spec
import proofs.«116564_j90065464197253_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-! ## The two sides at an entry -/

/-- A row repeated down the matrix reads, at (r, q), the row at q. -/
theorem rows_apply (v : FVec Ideal S1x128 .f32) (r : Fin 50000) (q : Fin 128) : Cert.Spec.rows v (ix2 r q) = v (ix2 (0 : Fin 1) q) := by
  unfold Cert.Spec.rows
  refine broadcastInDim_apply ![0, 1] _ v (ix2 r q) (ix2 (0 : Fin 1) q) fun a => ?_
  match a with
  | ⟨0, _⟩ => rfl
  | ⟨1, _⟩ => rfl

/-- The reciprocal root of variance plus epsilon, at column q. -/
theorem invStd_apply (var : FVec Ideal S1x128 .f32) (q : Fin 128) :
    Cert.Spec.invStd var (ix2 (0 : Fin 1) q) = Ideal.rsqrt (var (ix2 (0 : Fin 1) q) + Ideal.ofBits .f32 0x3727C5AC#32) := rfl

/-- The whole-matrix normalisation at entry (r, q). -/
theorem norm_apply (h : FVec Ideal S50000x128 .f32) (mu var g b : FVec Ideal S1x128 .f32) (r : Fin 50000) (q : Fin 128) :
    Cert.Spec.norm h mu var g b (ix2 r q)
      = g (ix2 (0 : Fin 1) q) * (h (ix2 r q) - mu (ix2 (0 : Fin 1) q)) * Ideal.rsqrt (var (ix2 (0 : Fin 1) q) + Ideal.ofBits .f32 0x3727C5AC#32)
        + b (ix2 (0 : Fin 1) q) := by
  unfold Cert.Spec.norm
  rw [addf_apply, mulf_apply, mulf_apply, subf_apply, rows_apply, rows_apply, rows_apply, rows_apply, invStd_apply]

/-- The body's stored value at entry (p, q) of the block, from the block of h and the four rows. -/
theorem pay4_apply (x0 : Vec Ideal S2000x128 .f32) (x1 x2 x3 x4 : Vec Ideal S1x128 .f32) (p : Fin 2000) (q : Fin 128) :
    k4_pay1 x0 x1 x2 x3 x4 (ix2 p q)
      = x3 (ix2 (0 : Fin 1) q) * (x0 (ix2 p q) - x1 (ix2 (0 : Fin 1) q)) * Ideal.rsqrt (x2 (ix2 (0 : Fin 1) q) + Ideal.ofBits .f32 0x3727C5AC#32)
        + x4 (ix2 (0 : Fin 1) q) := by
  unfold k4_pay1
  simp only [shapeCast_self]
  rw [addf_apply, mulf_apply, mulf_apply, subf_apply, broadcastTo_1b_ab_apply, broadcastTo_1b_ab_apply, broadcastTo_1b_ab_apply,
    broadcastTo_1b_ab_apply]
  rfl

/-! ## From the blocks to the matrix -/

theorem hz4 : (![0, 0] : Fin 2 → Nat) = fun _ => 0 := funext fun a => by fin_cases a <;> rfl

/-- The printed index maps over the grid: the block of h and the output block are block t of their matrices; the four rows never
    move. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

theorem t_lt4 (t : Fin cfg4.N) : t.val < 25 := lt_of_lt_of_eq t.isLt N_4

/-- Row 2000 t + p of a 50000-row matrix. -/
abbrev row4 (t : Fin cfg4.N) (p : Fin 2000) : Fin 50000 := ⟨t.val * 2000 + p.val, by have := t_lt4 t; have := p.isLt; omega⟩

/-- Entry (p, q) of block t of h is entry (2000 t + p, q) of h. -/
theorem blk4_0_apply (c : Dev nD) (t : Fin cfg4.N) (p : Fin 2000) (q : Fin 128) :
    blk4 V c 0 t (ix2 p q) = V c main_v58 (ix2 (row4 t p) q) := by
  obtain ⟨e00, e01, e10, e11, e20, e21, e30, e31, e40, e41, e50, e51⟩ := idx_facts4 t
  show V c main_v58 (((cfg4.win 0).blk t).view.emb (ix2 p q)) = _
  refine congrArg (V c main_v58) (funext fun a => Fin.ext ?_)
  match a with
  | ⟨0, _⟩ => show win4_0.index t (0 : Fin 2) * 2000 + 1 * p.val = t.val * 2000 + p.val; omega
  | ⟨1, _⟩ => show win4_0.index t (1 : Fin 2) * 128 + 1 * q.val = q.val; omega

/-- The one block of a row array is the row array. -/
theorem blk4_1_apply (c : Dev nD) (t : Fin cfg4.N) (q : Fin 128) :
    blk4 V c 1 t (ix2 (0 : Fin 1) q) = V c main_v62 (ix2 (0 : Fin 1) q) := by
  obtain ⟨e00, e01, e10, e11, e20, e21, e30, e31, e40, e41, e50, e51⟩ := idx_facts4 t
  show V c main_v62 (((cfg4.win 1).blk t).view.emb (ix2 (0 : Fin 1) q)) = _
  refine congrArg (V c main_v62) (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

/-- The one block of a row array is the row array. -/
theorem blk4_2_apply (c : Dev nD) (t : Fin cfg4.N) (q : Fin 128) :
    blk4 V c 2 t (ix2 (0 : Fin 1) q) = V c main_v63 (ix2 (0 : Fin 1) q) := by
  obtain ⟨e00, e01, e10, e11, e20, e21, e30, e31, e40, e41, e50, e51⟩ := idx_facts4 t
  show V c main_v63 (((cfg4.win 2).blk t).view.emb (ix2 (0 : Fin 1) q)) = _
  refine congrArg (V c main_v63) (funext fun a => Fin.ext ?_)
  match a with
  | ⟨0, _⟩ => show win4_2.index t (0 : Fin 2) * 1 + 1 * 0 = 0; omega
  | ⟨1, _⟩ => show win4_2.index t (1 : Fin 2) * 128 + 1 * q.val = q.val; omega

/-- The one block of a row array is the row array. -/
theorem blk4_3_apply (c : Dev nD) (t : Fin cfg4.N) (q : Fin 128) :
    blk4 V c 3 t (ix2 (0 : Fin 1) q) = V c main_v64 (ix2 (0 : Fin 1) q) := by
  obtain ⟨e00, e01, e10, e11, e20, e21, e30, e31, e40, e41, e50, e51⟩ := idx_facts4 t
  show V c main_v64 (((cfg4.win 3).blk t).view.emb (ix2 (0 : Fin 1) q)) = _
  refine congrArg (V c main_v64) (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

/-- The one block of a row array is the row array. -/
theorem blk4_4_apply (c : Dev nD) (t : Fin cfg4.N) (q : Fin 128) :
    blk4 V c 4 t (ix2 (0 : Fin 1) q) = V c main_v65 (ix2 (0 : Fin 1) q) := by
  obtain ⟨e00, e01, e10, e11, e20, e21, e30, e31, e40, e41, e50, e51⟩ := idx_facts4 t
  show V c main_v65 (((cfg4.win 4).blk t).view.emb (ix2 (0 : Fin 1) q)) = _
  refine congrArg (V c main_v65) (funext fun a => Fin.ext ?_)
  match a with
  | ⟨0, _⟩ => show win4_4.index t (0 : Fin 2) * 1 + 1 * 0 = 0; omega
  | ⟨1, _⟩ => show win4_4.index t (1 : Fin 2) * 128 + 1 * q.val = q.val; omega

/-- The whole-matrix normalisation of the arrays as the region finds them. -/
abbrev G4 (c : Dev nD) : S50000x128.Idx → Elt Ideal .f32 :=
  Cert.Spec.norm (F := Ideal) (V c main_v58) (V c main_v62) (V c main_v63) (V c main_v64) (V c main_v65)

/-- What point t writes back is block t of the whole-matrix normalisation of the arrays as the region finds them. -/
theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold norm4
  rw [View.canon_unit_zero hz4]
  simp only [View.ld_unit_zero (S := S2000x128) hz4, View.ld_unit_zero (S := S1x128) hz4]
  funext j
  obtain ⟨p, q, rfl⟩ : ∃ (p : Fin 2000) (q : Fin 128), j = ix2 p q := ⟨j 0, j 1, eq_ix2 j⟩
  obtain ⟨e00, e01, e10, e11, e20, e21, e30, e31, e40, e41, e50, e51⟩ := idx_facts4 t
  have hi : ((cfg4.win 5).blk t).view.emb (ix2 p q) = ix2 (row4 t p) q := funext fun a => Fin.ext (by
    match a with
    | ⟨0, _⟩ => show win4_5.index t (0 : Fin 2) * 2000 + 1 * p.val = t.val * 2000 + p.val; omega
    | ⟨1, _⟩ => show win4_5.index t (1 : Fin 2) * 128 + 1 * q.val = q.val; omega)
  show k4_pay1 (blk4 V c 0 t) (blk4 V c 1 t) (blk4 V c 2 t) (blk4 V c 3 t) (blk4 V c 4 t) (ix2 p q)
    = G4 V c (((cfg4.win 5).blk t).view.emb (ix2 p q))
  rw [hi, pay4_apply, blk4_0_apply, blk4_1_apply, blk4_2_apply, blk4_3_apply, blk4_4_apply]
  exact (norm_apply _ _ _ _ _ (row4 t p) q).symm

/-- An index of the matrix is in point t's block iff each coordinate is in the block's range on its axis. -/
theorem mem_blk4 (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v66).slice (win4_5.rect t)).set ↔ _
  rw [View.set_slice_whole, Rect.mem_set_unit]
  exact Iff.rfl

/-- The 25 blocks tile the matrix: row r lies in the block of point r / 2000, which is written back. -/
theorem cover4 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 25 := N_4
  let t : Fin cfg4.N := ⟨(i 0).val / 2000, by rw [hN]; omega⟩
  obtain ⟨e00, e01, e10, e11, e20, e21, e30, e31, e40, e41, e50, e51⟩ := idx_facts4 t
  refine ⟨t, flush4_5 t, ?_⟩
  rw [mem_blk4]
  intro a
  have ht : t.val = (i 0).val / 2000 := rfl
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega

/-- After the region the output array holds the whole-matrix normalisation of the arrays as the region found them. -/
theorem final4 (c : Dev nD) : (dat4 V c).arrAt 5 cfg4.N = G4 V c :=
  (dat4 V c).arrAt_eq_of_cover 5 (G4 V c) (fun t _ => flushed4_eq V c t) cover4

end Cert.KernelIdeal.Hand

namespace Cert.KernelIdeal.Hand

open Cert.KernelIdeal Cert.KernelIdeal.Gen Idealize.ShloMosaic Idealize.ShloMosaic.TcCoe

/-- What region 4 leaves in the result array: γ₂ (h − μ) rsqrt(σ² + ε) + β₂ of the contents it is entered from. -/
theorem value4 (m : (ℓ : Loc nD τ sig) → Buf (Elt Ideal) ℓ) (c : Dev nD) :
    o4_5 m c = Cert.Spec.norm (F := Ideal) (B13 m c main_v58) (B13 m c main_v62) (B13 m c main_v63) (B13 m c main_v64) (B13 m c main_v65) :=
  final4 (fun c b => B13 m c b) c

end Cert.KernelIdeal.Hand

end
-- ==== Proof.Rows.lean ====
/-
  Vectors and rows. The reference keeps its column statistics and its scale, shift and bias parameters as vectors of n entries and
  lifts each to a 1 × n row where it is used; the kernel's program keeps the statistics as 1 × n rows from the start and reshapes
  the parameters. Lifting a vector to a row commutes with every entrywise operation, a reshape of a vector to a row is its lift,
  and so the two programs' normalisations and feed-forward blocks are the same whole-array functions.
-/
import proofs.«116564_j90065464197253_2_alg».proof.Proof.Spec
import proofs.«116564_j90065464197253_2_alg».proof.Proof.Gen.ReferenceIdeal
import proofs.«116564_j90065464197253_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

noncomputable section

namespace Cert.Spec

open Cert.ReferenceIdeal Idealize.ShloMosaic Idealize.ShloMosaic.ValueIdx
open Cert.ReferenceIdeal.Facts₀

/-- A vector of 128 entries as a 1 × 128 row. -/
def up (v : FVec Ideal S128 .f32) : FVec Ideal S1x128 .f32 := broadcastInDim S1x128 ![1] bcast_S128_S1x128_1 v

/-- A vector of 256 entries as a 1 × 256 row. -/
def up256 (v : FVec Ideal S256 .f32) : FVec Ideal S1x256 .f32 := broadcastInDim S1x256 ![1] bcast_S256_S1x256_1 v

theorem up_apply (v : FVec Ideal S128 .f32) (z : Fin 1) (q : Fin 128) : up v (ix2 z q) = v (ix1 q) := by
  unfold up
  refine broadcastInDim_apply ![1] _ v (ix2 z q) (ix1 q) fun a => ?_
  match a with
  | ⟨0, _⟩ => rfl

/-- The reciprocal root of a vector of variances plus epsilon. -/
def invStd128 (var : FVec Ideal S128 .f32) : FVec Ideal S128 .f32 :=
  Host.rsqrt (addf var (broadcastInDim S128 ![] bcast_S_S128 (constant S_ .f32 0x3727C5AC#32)))

/-- Lifting commutes with the reciprocal root of variance plus epsilon. -/
theorem invStd_up (var : FVec Ideal S128 .f32) : invStd (up var) = up (invStd128 var) := by
  funext j
  obtain ⟨z, q, rfl⟩ : ∃ (z : Fin 1) (q : Fin 128), j = ix2 z q := ⟨j 0, j 1, eq_ix2 j⟩
  rw [up_apply]
  show Ideal.rsqrt (up var (ix2 z q) + _) = Ideal.rsqrt (var (ix1 q) + _)
  rw [up_apply]
  rfl

/-- The column means of a matrix, as a vector: the column sums over the number of rows. -/
def mean128 (H : FVec Ideal S50000x128 .f32) : FVec Ideal S128 .f32 :=
  Host.divf (Host.reduceAdd H (constant S_ .f32 0x00000000#32) reducesTo_S50000x128_S128_d0 h_S_)
    (broadcastInDim S128 ![] bcast_S_S128 (constant S_ .f32 0x47435000#32))

/-- The column means as a row: the column sums lifted, over the number of rows. -/
def meanRow (H : FVec Ideal S50000x128 .f32) : FVec Ideal S1x128 .f32 :=
  Host.divf (up (Host.reduceAdd H (constant S_ .f32 0x00000000#32) reducesTo_S50000x128_S128_d0 h_S_))
    (broadcastInDim S1x128 ![] bcast_S_S1x128 (constant S_ .f32 0x47435000#32))

theorem meanRow_eq (H : FVec Ideal S50000x128 .f32) : meanRow H = up (mean128 H) := by
  funext j
  obtain ⟨z, q, rfl⟩ : ∃ (z : Fin 1) (q : Fin 128), j = ix2 z q := ⟨j 0, j 1, eq_ix2 j⟩
  rw [up_apply]
  show Ideal.div (up _ (ix2 z q)) _ = Ideal.div _ _
  rw [up_apply]
  rfl

/-- A vector reshaped to a row is its lift. -/
theorem reshape_eq_up (v : FVec Ideal S128 .f32) (hs : S128.ShapeCasts S1x128) : shapeCast S1x128 v hs = up v :=
  Cert.Lib.DenseLayer.addUnit_eq_bcast (by decide) v hs bcast_S128_S1x128_1

theorem reshape_eq_up256 (v : FVec Ideal S256 .f32) (hs : S256.ShapeCasts S1x256) : shapeCast S1x256 v hs = up256 v :=
  Cert.Lib.DenseLayer.addUnit_eq_bcast (by decide) v hs bcast_S256_S1x256_1

/-! ## The column variances -/

/-- The squared deviations of a matrix from its column means. -/
def sqDev (H : FVec Ideal S50000x128 .f32) : FVec Ideal S50000x128 .f32 :=
  mulf (subf H (rows (meanRow H))) (subf H (rows (meanRow H)))

/-- The divisor of the variance: the number of rows less the correction the caller passes (an integer, here zero). -/
def cnt (c0 : (⟨S_, .i32⟩ : BufTy).Contents (Elt Ideal)) : FVec Ideal S_ .f32 :=
  subf (constant S_ .f32 0x47435000#32) (sitofp .f32 c0)

/-- The column variances as a vector: the sums of squared deviations over the divisor where the divisor is positive, the
    not-a-number constant elsewhere. -/
def var128 (H : FVec Ideal S50000x128 .f32) (c0 : (⟨S_, .i32⟩ : BufTy).Contents (Elt Ideal)) : FVec Ideal S128 .f32 :=
  select (broadcastInDim S128 ![] bcast_S_S128 (cmpf .ogt (cnt c0) (constant S_ .f32 0x00000000#32)))
    (Host.divf (Host.reduceAdd (sqDev H) (constant S_ .f32 0x00000000#32) reducesTo_S50000x128_S128_d0 h_S_)
      (broadcastInDim S128 ![] bcast_S_S128 (cnt c0)))
    (broadcastInDim S128 ![] bcast_S_S128 (constant S_ .f32 0x7FC00000#32))

/-- The column variances as a row: the same with the sums lifted first. -/
def varRow (H : FVec Ideal S50000x128 .f32) (c0 : (⟨S_, .i32⟩ : BufTy).Contents (Elt Ideal)) : FVec Ideal S1x128 .f32 :=
  select (broadcastInDim S1x128 ![] bcast_S_S1x128 (cmpf .ogt (cnt c0) (constant S_ .f32 0x00000000#32)))
    (Host.divf (up (Host.reduceAdd (sqDev H) (constant S_ .f32 0x00000000#32) reducesTo_S50000x128_S128_d0 h_S_))
      (broadcastInDim S1x128 ![] bcast_S_S1x128 (cnt c0)))
    (broadcastInDim S1x128 ![] bcast_S_S1x128 (constant S_ .f32 0x7FC00000#32))

/-- A scalar spread over a shape reads the scalar everywhere. -/
theorem bc_apply {α : Type} {t : Shape} (h : S_.BroadcastsInDim t (![] : Fin 0 → Fin t.rank)) (x : S_.Idx → α) (j : t.Idx) :
    broadcastInDim t ![] h x j = x (fun a => a.elim0) :=
  broadcastInDim_apply ![] h x j (fun a => a.elim0) (fun a => a.elim0)

theorem varRow_eq (H : FVec Ideal S50000x128 .f32) (c0 : (⟨S_, .i32⟩ : BufTy).Contents (Elt Ideal)) : varRow H c0 = up (var128 H c0) := by
  funext j
  obtain ⟨z, q, rfl⟩ : ∃ (z : Fin 1) (q : Fin 128), j = ix2 z q := ⟨j 0, j 1, eq_ix2 j⟩
  rw [up_apply]
  unfold varRow var128
  rw [select_apply, select_apply]
  refine congr (congr (congrArg Scalar.select ?_) ?_) ?_
  · exact (bc_apply _ _ _).trans (bc_apply _ _ _).symm
  · show Ideal.div (up _ (ix2 z q)) (broadcastInDim S1x128 ![] _ (cnt c0) (ix2 z q))
      = Ideal.div (Host.reduceAdd (sqDev H) _ _ _ (ix1 q)) (broadcastInDim S128 ![] _ (cnt c0) (ix1 q))
    rw [up_apply, bc_apply, bc_apply]
  · exact (bc_apply _ _ _).trans (bc_apply _ _ _).symm

end Cert.Spec

end
-- ==== Proof.Layer.lean ====
/-
  The whole layer as one function of the fifteen argument arrays, in the reference's spelling: the index rows, the four projections
  split into heads, the three gathers, the attention weights and messages, the scatter-added quotient, the residual sum — then the
  tail: normalise with the column statistics, add the feed-forward block, normalise again. The tail is written twice, with the
  statistics and parameters as rows (the kernel program's form) and as vectors lifted where used (the reference's form), and the two
  are the same function.
-/
import proofs.«116564_j90065464197253_2_alg».proof.Proof.Rows

noncomputable section

namespace Cert.Spec

open Cert.ReferenceIdeal Idealize.ShloMosaic Idealize.ShloMosaic.ValueIdx
open Cert.ReferenceIdeal.Facts₀

abbrev I32 (s : Shape) : Type := (⟨s, .i32⟩ : BufTy).Contents (Elt Ideal)

/-- Row 0 of the edge index (the sources) and row 1 (the destinations), as vectors. -/
def idxRow0 (ei : I32 S2x600000) : I32 S600000 :=
  shapeCast S600000 (extractStridedSlice S1x600000 ![0, 0] ei slices_S2x600000_S1x600000_0_0) shapeCasts_S1x600000_S600000
def idxRow1 (ei : I32 S2x600000) : I32 S600000 :=
  shapeCast S600000 (extractStridedSlice S1x600000 ![1, 0] ei slices_S2x600000_S1x600000_1_0) shapeCasts_S1x600000_S600000

/-- A negative index counts from the end; the result as a column of start indices. -/
def fixIdx (r : I32 S600000) : I32 S600000x1 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

def heads (X : FVec Ideal S50000x128 .f32) : FVec Ideal S50000x8x16 .f32 := shapeCast S50000x8x16 X shapeCasts_S50000x128_S50000x8x16
def eheads (X : FVec Ideal S600000x128 .f32) : FVec Ideal S600000x8x16 .f32 := shapeCast S600000x8x16 X shapeCasts_S600000x128_S600000x8x16

def gath (X : FVec Ideal S50000x8x16 .f32) (ix : I32 S600000x1) : FVec Ideal S600000x8x16 .f32 :=
  Host.gather gather_S50000x8x16_S600000x1_S600000x8x16_12_0_n_n_0_1_1816 X ix

/-- The attention output: the messages summed into their destination nodes over the weights summed there plus epsilon. -/
def attn (msg : FVec Ideal S600000x8x16 .f32) (s : FVec Ideal S600000x8 .f32) (dst : I32 S600000) : FVec Ideal S50000x128 .f32 :=
  shapeCast S50000x128
    (Host.divf
      (Host.scatterAdd scatter_S50000x8x16_S600000x1_S600000x8x16_12_0_0_1
        (broadcastInDim S50000x8x16 ![] bcast_S_S50000x8x16 (constant S_ .f32 0x00000000#32))
        (broadcastInDim S600000x1 ![0] bcast_S600000_S600000x1_0 dst) msg)
      (broadcastInDim S50000x8x16 ![0, 1, 2] bcast_S50000x8x1_S50000x8x16_0_1_2
        (addf
          (broadcastInDim S50000x8x1 ![0, 1] bcast_S50000x8_S50000x8x1_0_1
            (Host.scatterAdd scatter_S50000x8_S600000x1_S600000x8_1_0_0_1
              (broadcastInDim S50000x8 ![] bcast_S_S50000x8 (constant S_ .f32 0x00000000#32))
              (broadcastInDim S600000x1 ![0] bcast_S600000_S600000x1_0 dst) s))
          (broadcastInDim S50000x8x1 ![] bcast_S_S50000x8x1 (constant S_ .f32 0x358637BD#32)))))
    shapeCasts_S50000x8x16_S50000x128

/-- The attention output of the layer's arguments. -/
def attnOf (x : FVec Ideal S50000x128 .f32) (ei : I32 S2x600000) (ea : FVec Ideal S600000x128 .f32)
    (WQ WK WV WE : FVec Ideal S128x128 .f32) : FVec Ideal S50000x128 .f32 :=
  attn (messages (gath (heads (proj x WV)) (fixIdx (idxRow0 ei)))
      (weights (gath (heads (proj x WK)) (fixIdx (idxRow0 ei))) (gath (heads (proj x WQ)) (fixIdx (idxRow1 ei))) (eheads (eproj ea WE))))
    (weights (gath (heads (proj x WK)) (fixIdx (idxRow0 ei))) (gath (heads (proj x WQ)) (fixIdx (idxRow1 ei))) (eheads (eproj ea WE)))
    (idxRow1 ei)

/-- The integer zero the variance is called with. -/
def zeroI : I32 S_ := constantI S_ 32 0#32

/-- The tail of the layer from the residual sum's two terms, statistics and parameters as ROWS (the kernel program's form). -/
def tailRows (x a : FVec Ideal S50000x128 .f32) (g1 b1 g2 b2 : FVec Ideal S1x128 .f32) (W1 : FVec Ideal S128x256 .f32)
    (bb1 : FVec Ideal S1x256 .f32) (W2 : FVec Ideal S256x128 .f32) (bb2 : FVec Ideal S1x128 .f32) : FVec Ideal S50000x128 .f32 :=
  norm (normff x a (meanRow (addf x a)) (varRow (addf x a) zeroI) g1 b1 W1 bb1 W2 bb2)
    (meanRow (normff x a (meanRow (addf x a)) (varRow (addf x a) zeroI) g1 b1 W1 bb1 W2 bb2))
    (varRow (normff x a (meanRow (addf x a)) (varRow (addf x a) zeroI) g1 b1 W1 bb1 W2 bb2) zeroI) g2 b2

/-- The first normalisation and the feed-forward block of a matrix H with VECTOR statistics and parameters lifted where used (the
    reference's form). -/
def blockVec (H : FVec Ideal S50000x128 .f32) (g1 b1 : FVec Ideal S128 .f32) (W1 : FVec Ideal S128x256 .f32) (bb1 : FVec Ideal S256 .f32)
    (W2 : FVec Ideal S256x128 .f32) (bb2 : FVec Ideal S128 .f32) : FVec Ideal S50000x128 .f32 :=
  addf (norm H (up (mean128 H)) (up (var128 H zeroI)) (up g1) (up b1))
    (ff (norm H (up (mean128 H)) (up (var128 H zeroI)) (up g1) (up b1)) W1 (up256 bb1) W2 (up bb2))

/-- The tail in the reference's form. -/
def tailVec (H : FVec Ideal S50000x128 .f32) (g1 b1 g2 b2 : FVec Ideal S128 .f32) (W1 : FVec Ideal S128x256 .f32) (bb1 : FVec Ideal S256 .f32)
    (W2 : FVec Ideal S256x128 .f32) (bb2 : FVec Ideal S128 .f32) : FVec Ideal S50000x128 .f32 :=
  norm (blockVec H g1 b1 W1 bb1 W2 bb2) (up (mean128 (blockVec H g1 b1 W1 bb1 W2 bb2))) (up (var128 (blockVec H g1 b1 W1 bb1 W2 bb2) zeroI))
    (up g2) (up b2)

/-- The two forms of the tail are one function: a row statistic is the lifted vector statistic. -/
theorem tailRows_eq (x a : FVec Ideal S50000x128 .f32) (g1 b1 g2 b2 : FVec Ideal S128 .f32) (W1 : FVec Ideal S128x256 .f32)
    (bb1 : FVec Ideal S256 .f32) (W2 : FVec Ideal S256x128 .f32) (bb2 : FVec Ideal S128 .f32) :
    tailRows x a (up g1) (up b1) (up g2) (up b2) W1 (up256 bb1) W2 (up bb2) = tailVec (addf x a) g1 b1 g2 b2 W1 bb1 W2 bb2 := by
  unfold tailRows tailVec blockVec normff
  simp only [meanRow_eq, varRow_eq]

end Cert.Spec

end
-- ==== Proof.KI.Glue2.lean ====
/-
  What the host operations around the last two regions compute, as the layer's functions: the attention quotient and the residual
  sum, their column means and variances as rows, the parameters reshaped to rows; hence what region 3 and region 4 leave, and the
  result array as the tail of the layer (in its row form) of the launch contents and the attention output.
-/
import proofs.«116564_j90065464197253_2_alg».proof.Proof.KI.Reads
import proofs.«116564_j90065464197253_2_alg».proof.Proof.KI.Value3
import proofs.«116564_j90065464197253_2_alg».proof.Proof.KI.Value4
import proofs.«116564_j90065464197253_2_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Idealize.ShloMosaic.StableHlo Cert.Spec

variable (m : (ℓ : Loc nD τ sig) → Buf (Elt Ideal) ℓ)

variable (c : Dev nD)

theorem b7_v47 : B7 m c main_v47 = attn (B6 m c main_v35_1) (B6 m c main_v35_0) (B1 m c main_v3) := by
  unfold B7; after_results_simp
  rw [pass_main_v3_6_1]; rfl

theorem b7_v48 : B7 m c main_v48 = addf (B0 m c main_arg0) (attn (B6 m c main_v35_1) (B6 m c main_v35_0) (B1 m c main_v3)) := by
  unfold B7; after_results_simp
  rw [pass_main_v3_6_1, pass_main_arg0_6_0]; rfl

theorem b7_v52 : B7 m c main_v52 = meanRow (addf (B0 m c main_arg0) (attn (B6 m c main_v35_1) (B6 m c main_v35_0) (B1 m c main_v3))) := by
  unfold B7; after_results_simp
  rw [pass_main_v3_6_1, pass_main_arg0_6_0]; rfl

theorem b7_c9 : B7 m c main_c_9 = zeroI := by
  unfold B7; after_results_simp; rfl

set_option maxHeartbeats 4000000 in
theorem b8_v53 : B8 m c main_v53 = varRow (B7 m c main_v48) (B7 m c main_c_9) := by
  unfold B8; after_results_simp; rfl

theorem b9_v54 : B9 m c main_v54 = up (B0 m c main_arg7) := by
  unfold B9; after_results_simp
  rw [pass_main_arg7_8_0]; exact reshape_eq_up _ _

theorem b9_v55 : B9 m c main_v55 = up (B0 m c main_arg8) := by
  unfold B9; after_results_simp
  rw [pass_main_arg8_8_0]; exact reshape_eq_up _ _

theorem b9_v56 : B9 m c main_v56 = up256 (B0 m c main_arg12) := by
  unfold B9; after_results_simp
  rw [pass_main_arg12_8_0]; exact reshape_eq_up256 _ _

theorem b9_v57 : B9 m c main_v57 = up (B0 m c main_arg14) := by
  unfold B9; after_results_simp
  rw [pass_main_arg14_8_0]; exact reshape_eq_up _ _

/-- What region 3 leaves: the normalised residual sum plus its feed-forward block. -/
theorem k_block : B10 m c main_v58
    = normff (B0 m c main_arg0) (attn (B6 m c main_v35_1) (B6 m c main_v35_0) (B1 m c main_v3)) (meanRow (addf (B0 m c main_arg0) (attn (B6 m c main_v35_1) (B6 m c main_v35_0) (B1 m c main_v3)))) (varRow (addf (B0 m c main_arg0) (attn (B6 m c main_v35_1) (B6 m c main_v35_0) (B1 m c main_v3))) zeroI) (up (B0 m c main_arg7)) (up (B0 m c main_arg8)) (B0 m c main_arg11) (up256 (B0 m c main_arg12)) (B0 m c main_arg13) (up (B0 m c main_arg14)) := by
  rw [exit3_10, value3, pass_main_arg0_9_0, pass_main_v47_9_7, pass_main_v52_9_7, pass_main_v53_9_8, pass_main_arg11_9_0,
    pass_main_arg13_9_0, b9_v54, b9_v55, b9_v56, b9_v57, b7_v47, b7_v52, b8_v53, b7_v48, b7_c9]

theorem b11_v62 : B11 m c main_v62 = meanRow (B10 m c main_v58) := by
  unfold B11; after_results_simp; rfl

theorem b11_c12 : B11 m c main_c_12 = zeroI := by
  unfold B11; after_results_simp; rfl

set_option maxHeartbeats 4000000 in
theorem b12_v63 : B12 m c main_v63 = varRow (B11 m c main_v58) (B11 m c main_c_12) := by
  unfold B12; after_results_simp; rfl

theorem b13_v64 : B13 m c main_v64 = up (B0 m c main_arg9) := by
  unfold B13; after_results_simp
  rw [pass_main_arg9_12_0]; exact reshape_eq_up _ _

theorem b13_v65 : B13 m c main_v65 = up (B0 m c main_arg10) := by
  unfold B13; after_results_simp
  rw [pass_main_arg10_12_0]; exact reshape_eq_up _ _

/-- The result array: the tail of the layer, in its row form, of the launch contents and the attention output. -/
theorem k_out : o4_5 m c
    = tailRows (B0 m c main_arg0) (attn (B6 m c main_v35_1) (B6 m c main_v35_0) (B1 m c main_v3)) (up (B0 m c main_arg7)) (up (B0 m c main_arg8)) (up (B0 m c main_arg9)) (up (B0 m c main_arg10)) (B0 m c main_arg11) (up256 (B0 m c main_arg12)) (B0 m c main_arg13) (up (B0 m c main_arg14)) := by
  rw [value4, pass_main_v58_13_10, pass_main_v62_13_11, pass_main_v63_13_12, b13_v64, b13_v65, b11_v62, b12_v63, pass_main_v58_11_10,
    b11_c12, k_block]
  rfl

end Cert.KernelIdeal.Hand

end
-- ==== Proof.KI.Value01.lean ====
/-
  What regions 0 and 1 leave: the two dense projections.

  Region 1. The body at grid point t is handed rows [6000 t, 6000 (t+1)) of the 600000 × 128 matrix of edge attributes and the
  whole 128 × 128 weight matrix, and stores their product (each operand first narrowed, the sum started from zero). At the extended
  reals the narrowing is the identity and the zero adds nothing, so entry (p, q) of the stored block is Σ_k e(6000 t + p, k) · w(k, q):
  row 6000 t + p of the whole product. The 100 blocks tile the matrix, so the array ends holding the whole product.

  Region 0. The same with rows [2000 t, 2000 (t+1)) of the 50000 × 128 matrix x and the 128 × 384 matrix made of the three weight
  matrices set side by side: the array ends holding x · [W_Q W_K W_V], 50000 × 384. Column j of the side-by-side matrix is column j
  of W_Q for j < 128, column j − 128 of W_K for 128 ≤ j < 256, column j − 256 of W_V beyond; a column slice of a product is the
  product with the column slice; so the three 128-column slices of the array are x · W_Q, x · W_K and x · W_V.
-/
import proofs.«116564_j90065464197253_2_alg».proof.Proof.KI.Contents
import proofs.«116564_j90065464197253_2_alg».proof.Proof.Spec
import proofs.«116564_j90065464197253_2_alg».proof.Proof.Gen.ReferenceIdeal
import proofs.«116564_j90065464197253_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Lib.DenseLayer

variable (m : (ℓ : Loc nD τ sig) → Buf (Elt Ideal) ℓ)

/-! ## The dimension numbers read as the textbook product -/

theorem plain_k1 : Plain dot_S6000x128_S128x128_S6000x128_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

theorem plain_h1 : Plain Cert.ReferenceIdeal.dot_S600000x128_S128x128_S600000x128_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

/-! ## Region 1: the edge projection -/

/-- The body's stored block, from a block of rows of the edge attributes and the weights, is that block of rows of the whole product. -/
theorem pay1_rowblk {off : Nat} (xb : FVec Ideal S6000x128 .f32) (w : FVec Ideal S128x128 .f32) (X : FVec Ideal S600000x128 .f32)
    (h : RowBlk off xb X) : RowBlk off (k1_pay1 (F := Ideal) xb w) (Cert.Spec.eproj (F := Ideal) X w) := by
  unfold k1_pay1 Cert.Spec.eproj
  exact h.matmul plain_k1 plain_h1 w _ _

theorem hz01 : (![0, 0] : Fin 2 → Nat) = fun _ => 0 := funext fun a => by fin_cases a <;> rfl

/-- The printed index maps over the grid: the block of edge attributes and the output block are block t of their matrices; the
    weights never move. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The whole product of the arrays as the region finds them. -/
abbrev G1 (c : Dev nD) : S600000x128.Idx → Elt Ideal .f32 :=
  Cert.Spec.eproj (F := Ideal) (V c main_arg2) (V c main_arg6)

theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold proj1
  rw [View.canon_unit_zero hz01]
  simp only [View.ld_unit_zero (S := S6000x128) hz01, View.ld_unit_zero (S := S128x128) hz01]
  obtain ⟨e00, e01, e10, e11, e20, e21⟩ := idx_facts1 t
  have ht : t.val < 100 := t.isLt
  -- the weights' block is the whole matrix
  have hW : blk1 V c 1 t = V c main_arg6 := by
    funext y
    show V c main_arg6 (((cfg1.win 1).blk t).view.emb y) = V c main_arg6 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  -- the block of edge attributes is rows [6000 t, 6000 (t+1))
  have hX : RowBlk (6000 * t.val) (blk1 V c 0 t) (V c main_arg2 : S600000x128.Idx → EReal) := fun r hr k => by
    show V c main_arg2 (((cfg1.win 0).blk t).view.emb (ix2 r k)) = V c main_arg2 (ix2 ⟨6000 * t.val + r.val, hr⟩ k)
    refine congrArg _ (funext fun a => Fin.ext ?_)
    match a with
    | ⟨0, _⟩ => show win1_0.index t (0 : Fin 2) * 6000 + 1 * r.val = 6000 * t.val + r.val; omega
    | ⟨1, _⟩ => show win1_0.index t (1 : Fin 2) * 128 + 1 * k.val = k.val; omega
  funext j
  obtain ⟨p, q, rfl⟩ : ∃ (p : Fin 6000) (q : Fin 128), j = ix2 p q := ⟨j 0, j 1, eq_ix2 j⟩
  show k1_pay1 (F := Ideal) (blk1 V c 0 t) (blk1 V c 1 t) (ix2 p q) = G1 V c (((cfg1.win 2).blk t).view.emb (ix2 p q))
  have hp : 6000 * t.val + p.val < 600000 := by have := p.isLt; omega
  have hemb : ((cfg1.win 2).blk t).view.emb (ix2 p q) = ix2 ⟨6000 * t.val + p.val, hp⟩ q := by
    funext a; apply Fin.ext
    match a with
    | ⟨0, _⟩ => show win1_2.index t (0 : Fin 2) * 6000 + 1 * p.val = 6000 * t.val + p.val; omega
    | ⟨1, _⟩ => show win1_2.index t (1 : Fin 2) * 128 + 1 * q.val = q.val; omega
  rw [hemb, hW]
  exact pay1_rowblk _ _ _ hX p hp q

/-- An index of the array is in point t's block iff each coordinate is in the block's range on its axis. -/
theorem mem_blk1 (t : Fin cfg1.N) (i : S600000x128.Idx) :
    i ∈ ((cfg1.win 2).blk t).view.set ↔ ∀ a : Fin 2, win1_2.index t a * S6000x128.size a ≤ (i a).val ∧ (i a).val < win1_2.index t a * S6000x128.size a + S6000x128.size a := by
  show i ∈ ((View.whole main_v12).slice (win1_2.rect t)).set ↔ _
  rw [View.set_slice_whole, Rect.mem_set_unit]
  exact Iff.rfl

/-- Every row of the array lies in the block of the point its row number divided by 6000 names, and every point writes back. -/
theorem cover1 (i : S600000x128.Idx) :
    ∃ t : Fin cfg1.N, (cfg1.win 2).flush t = true ∧ i ∈ ((cfg1.win 2).blk t).view.set := by
  have hi0 : (i 0).val < 600000 := (i 0).isLt
  have hi1 : (i 1).val < 128 := (i 1).isLt
  have hN : cfg1.N = 100 := N_1
  let t : Fin cfg1.N := ⟨(i 0).val / 6000, by rw [hN]; omega⟩
  obtain ⟨e00, e01, e10, e11, e20, e21⟩ := idx_facts1 t
  have htv : t.val = (i 0).val / 6000 := rfl
  refine ⟨t, flush1_2 t, ?_⟩
  rw [mem_blk1]
  intro a
  match a with
  | ⟨0, _⟩ => show win1_2.index t (0 : Fin 2) * 6000 ≤ (i 0).val ∧ (i 0).val < win1_2.index t (0 : Fin 2) * 6000 + 6000; omega
  | ⟨1, _⟩ => show win1_2.index t (1 : Fin 2) * 128 ≤ (i 1).val ∧ (i 1).val < win1_2.index t (1 : Fin 2) * 128 + 128; omega

/-- What region 1 leaves: the whole product edge_attr · W_E of the arrays it finds. -/
theorem final1 (c : Dev nD) : (dat1 V c).arrAt 2 cfg1.N = G1 V c :=
  (dat1 V c).arrAt_eq_of_cover 2 (G1 V c) (fun t _ => flushed1_eq V c t) cover1

/-! ## Region 0: the query, key and value projections as one product -/

theorem plain_k0 : Plain dot_S2000x128_S128x384_S2000x384_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

theorem plain_h0 : Plain Cert.ReferenceIdeal.dot_S50000x128_S128x128_S50000x128_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

/-- The product of all 50000 rows with the 128 × 384 matrix of the three weight matrices side by side. -/
theorem plain_w0 : Plain (DotDims.plain 50000 128 384) where
  rank := rfl
  size := rfl
  l0 := fun i q => rfl
  l1 := fun i q => DotDims.lhsIdx_val_of_single _ rfl i q
  r0 := fun i q => DotDims.rhsIdx_val_of_single _ rfl i q
  r1 := fun i q => rfl

/-- x · W over 50000 rows and 384 columns. -/
def proj384 (X : FVec Ideal S50000x128 .f32) (W : FVec Ideal S128x384 .f32) : FVec Ideal S50000x384 .f32 :=
  Host.dotGeneral (F := Ideal) (DotDims.plain 50000 128 384) none X W

/-- The body's stored block, from a block of rows of x and the weights, is that block of rows of the whole product. -/
theorem pay0_rowblk {off : Nat} (xb : FVec Ideal S2000x128 .f32) (w : FVec Ideal S128x384 .f32) (X : FVec Ideal S50000x128 .f32)
    (h : RowBlk off xb X) : RowBlk off (k0_pay1 (F := Ideal) xb w) (proj384 X w) := by
  unfold k0_pay1 proj384
  simp only [shapeCast_self]
  exact h.matmul plain_k0 plain_w0 w _ _

/-- The printed index maps over the grid: the block of x and the output block are block t of their matrices; the weights never move. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the arrays as the region finds them. -/
abbrev G0 (c : Dev nD) : S50000x384.Idx → Elt Ideal .f32 :=
  proj384 (V c main_arg0) (V c main_v4)

/-- What point t writes back is block t of the whole product of the arrays as the region finds them. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold proj0
  rw [View.canon_unit_zero hz01]
  simp only [View.ld_unit_zero (S := S2000x128) hz01, View.ld_unit_zero (S := S128x384) hz01]
  obtain ⟨e00, e01, e10, e11, e20, e21⟩ := idx_facts0 t
  have ht : t.val < 25 := t.isLt
  -- the weights' block is the whole matrix
  have hW : blk0 V c 1 t = V c main_v4 := by
    funext y
    show V c main_v4 (((cfg0.win 1).blk t).view.emb y) = V c main_v4 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 384 + 1 * (y 1).val = (y 1).val; omega
  -- the block of x is rows [2000 t, 2000 (t+1))
  have hX : RowBlk (2000 * t.val) (blk0 V c 0 t) (V c main_arg0 : S50000x128.Idx → EReal) := fun r hr k => by
    show V c main_arg0 (((cfg0.win 0).blk t).view.emb (ix2 r k)) = V c main_arg0 (ix2 ⟨2000 * t.val + r.val, hr⟩ k)
    refine congrArg _ (funext fun a => Fin.ext ?_)
    match a with
    | ⟨0, _⟩ => show win0_0.index t (0 : Fin 2) * 2000 + 1 * r.val = 2000 * t.val + r.val; omega
    | ⟨1, _⟩ => show win0_0.index t (1 : Fin 2) * 128 + 1 * k.val = k.val; omega
  funext j
  obtain ⟨p, q, rfl⟩ : ∃ (p : Fin 2000) (q : Fin 384), j = ix2 p q := ⟨j 0, j 1, eq_ix2 j⟩
  show k0_pay1 (F := Ideal) (blk0 V c 0 t) (blk0 V c 1 t) (ix2 p q) = G0 V c (((cfg0.win 2).blk t).view.emb (ix2 p q))
  have hp : 2000 * t.val + p.val < 50000 := by have := p.isLt; omega
  have hemb : ((cfg0.win 2).blk t).view.emb (ix2 p q) = ix2 ⟨2000 * t.val + p.val, hp⟩ q := by
    funext a; apply Fin.ext
    match a with
    | ⟨0, _⟩ => show win0_2.index t (0 : Fin 2) * 2000 + 1 * p.val = 2000 * t.val + p.val; omega
    | ⟨1, _⟩ => show win0_2.index t (1 : Fin 2) * 384 + 1 * q.val = q.val; omega
  rw [hemb, hW]
  exact pay0_rowblk _ _ _ hX p hp q

/-- An index of the array is in point t's block iff each coordinate is in the block's range on its axis. -/
theorem mem_blk0 (t : Fin cfg0.N) (i : S50000x384.Idx) :
    i ∈ ((cfg0.win 2).blk t).view.set ↔ ∀ a : Fin 2, win0_2.index t a * S2000x384.size a ≤ (i a).val ∧ (i a).val < win0_2.index t a * S2000x384.size a + S2000x384.size a := by
  show i ∈ ((View.whole main_v5).slice (win0_2.rect t)).set ↔ _
  rw [View.set_slice_whole, Rect.mem_set_unit]
  exact Iff.rfl

/-- The 25 blocks tile the array: row r lies in the block of point r / 2000, which is written back. -/
theorem cover0_2 (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  have hN : cfg0.N = 25 := N_0
  let t : Fin cfg0.N := ⟨(i 0).val / 2000, by rw [hN]; omega⟩
  obtain ⟨e00, e01, e10, e11, e20, e21⟩ := idx_facts0 t
  have htv : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 384 ≤ (i 1).val ∧ (i 1).val < win0_2.index t (1 : Fin 2) * 384 + 384; omega

/-- What region 0 leaves: the whole product x · [W_Q W_K W_V] of the arrays it finds. -/
theorem final0 (c : Dev nD) : (dat0 V c).arrAt 2 cfg0.N = G0 V c :=
  (dat0 V c).arrAt_eq_of_cover 2 (G0 V c) (fun t _ => flushed0_eq V c t) cover0_2

/-! ## The three column slices of the product -/

/-- Columns [off, off + 128) of the proj384 product are the product with those columns of the weights. -/
theorem proj384_cols (X : FVec Ideal S50000x128 .f32) (W : FVec Ideal S128x384 .f32) (Wj : FVec Ideal S128x128 .f32) (off : Nat)
    (hs : S50000x384.Slices ![0, off] S50000x128)
    (hoff : ∀ (k : Fin 128) (q : Fin 128) (h : off + q.val < 384), W (ix2 k ⟨off + q.val, h⟩) = Wj (ix2 k q)) :
    extractStridedSlice S50000x128 ![0, off] (proj384 X W) hs = Cert.Spec.proj (F := Ideal) X Wj := by
  funext j
  obtain ⟨r, q, rfl⟩ : ∃ (r : Fin 50000) (q : Fin 128), j = ix2 r q := ⟨j 0, j 1, eq_ix2 j⟩
  have h1 : off + 128 ≤ 384 := hs.2 1
  have hq : off + q.val < 384 := by have := q.isLt; omega
  rw [extractStridedSlice_apply ![0, off] (proj384 X W) hs (ix2 r q) (ix2 r ⟨off + q.val, hq⟩) (fun a => by
        match a with
        | ⟨0, _⟩ => show r.val = 0 + r.val; omega
        | ⟨1, _⟩ => rfl)]
  unfold proj384 Cert.Spec.proj
  rw [plain_w0.dot_apply, plain_h0.dot_apply]
  exact Finset.sum_congr rfl fun k _ => congrArg (X (ix2 r k) * ·) (hoff k q hq)

/-- Column q of the first of three 128-column matrices set side by side. -/
theorem cat0_q (W3 W4 W5 : FVec Ideal S128x128 .f32) (k q : Fin 128) (h : 0 + q.val < 384) :
    concatenate S128x384 1 [⟨S128x128, W3⟩, ⟨S128x128, W4⟩, ⟨S128x128, W5⟩] concatenates_S128x128_S128x128_S128x128_S128x384_d1
      (ix2 k ⟨0 + q.val, h⟩) = W3 (ix2 k q) :=
  concatenate_apply_piece (t := S128x384) 1 [⟨S128x128, W3⟩, ⟨S128x128, W4⟩, ⟨S128x128, W5⟩] concatenates_S128x128_S128x128_S128x128_S128x384_d1
    (ix2 k ⟨0 + q.val, h⟩) 0 (show (0 : Nat) < 3 by omega) S128x128 W3 rfl rfl 0 rfl (ix2 k q)
    (fun b hb => by match b with | ⟨0, _⟩ => rfl | ⟨1, _⟩ => exact absurd rfl hb)
    (by show 0 + q.val = 0 + q.val; rfl)

/-- Column 128 + q is column q of the second. -/
theorem cat0_k (W3 W4 W5 : FVec Ideal S128x128 .f32) (k q : Fin 128) (h : 128 + q.val < 384) :
    concatenate S128x384 1 [⟨S128x128, W3⟩, ⟨S128x128, W4⟩, ⟨S128x128, W5⟩] concatenates_S128x128_S128x128_S128x128_S128x384_d1
      (ix2 k ⟨128 + q.val, h⟩) = W4 (ix2 k q) :=
  concatenate_apply_piece (t := S128x384) 1 [⟨S128x128, W3⟩, ⟨S128x128, W4⟩, ⟨S128x128, W5⟩] concatenates_S128x128_S128x128_S128x128_S128x384_d1
    (ix2 k ⟨128 + q.val, h⟩) 1 (show (1 : Nat) < 3 by omega) S128x128 W4 rfl rfl 128 rfl (ix2 k q)
    (fun b hb => by match b with | ⟨0, _⟩ => rfl | ⟨1, _⟩ => exact absurd rfl hb)
    (by show 128 + q.val = 128 + q.val; rfl)

/-- Column 256 + q is column q of the third. -/
theorem cat0_v (W3 W4 W5 : FVec Ideal S128x128 .f32) (k q : Fin 128) (h : 256 + q.val < 384) :
    concatenate S128x384 1 [⟨S128x128, W3⟩, ⟨S128x128, W4⟩, ⟨S128x128, W5⟩] concatenates_S128x128_S128x128_S128x128_S128x384_d1
      (ix2 k ⟨256 + q.val, h⟩) = W5 (ix2 k q) :=
  concatenate_apply_piece (t := S128x384) 1 [⟨S128x128, W3⟩, ⟨S128x128, W4⟩, ⟨S128x128, W5⟩] concatenates_S128x128_S128x128_S128x128_S128x384_d1
    (ix2 k ⟨256 + q.val, h⟩) 2 (show (2 : Nat) < 3 by omega) S128x128 W5 rfl rfl 256 rfl (ix2 k q)
    (fun b hb => by match b with | ⟨0, _⟩ => rfl | ⟨1, _⟩ => exact absurd rfl hb)
    (by show 256 + q.val = 256 + q.val; rfl)

/-! ## What the two regions leave -/

/-- Region 1 leaves edge_attr · W_E of the contents it is entered from. -/
theorem value1 (c : Dev nD) : o1_2 m c = Cert.Spec.eproj (F := Ideal) (B3 m c main_arg2) (B3 m c main_arg6) :=
  final1 (fun c b => B3 m c b) c

/-- Region 0 leaves x · [W_Q W_K W_V] of the contents it is entered from. -/
theorem value0 (c : Dev nD) : o0_2 m c = proj384 (B1 m c main_arg0) (B1 m c main_v4) :=
  final0 (fun c b => B1 m c b) c

/-- Its first 128 columns are the query projection x · W_Q. -/
theorem value0_q (c : Dev nD) (W3 W4 W5 : FVec Ideal S128x128 .f32)
    (hW : B1 m c main_v4 = concatenate S128x384 1 [⟨S128x128, W3⟩, ⟨S128x128, W4⟩, ⟨S128x128, W5⟩] concatenates_S128x128_S128x128_S128x128_S128x384_d1) :
    extractStridedSlice S50000x128 ![0, 0] (o0_2 m c) slices_S50000x384_S50000x128_0_0 = Cert.Spec.proj (F := Ideal) (B1 m c main_arg0) W3 := by
  rw [value0]
  exact proj384_cols _ _ W3 0 _ fun k q h => by rw [hW]; exact cat0_q W3 W4 W5 k q h

/-- Its middle 128 columns are the key projection x · W_K. -/
theorem value0_k (c : Dev nD) (W3 W4 W5 : FVec Ideal S128x128 .f32)
    (hW : B1 m c main_v4 = concatenate S128x384 1 [⟨S128x128, W3⟩, ⟨S128x128, W4⟩, ⟨S128x128, W5⟩] concatenates_S128x128_S128x128_S128x128_S128x384_d1) :
    extractStridedSlice S50000x128 ![0, 128] (o0_2 m c) slices_S50000x384_S50000x128_0_128 = Cert.Spec.proj (F := Ideal) (B1 m c main_arg0) W4 := by
  rw [value0]
  exact proj384_cols _ _ W4 128 _ fun k q h => by rw [hW]; exact cat0_k W3 W4 W5 k q h

/-- Its last 128 columns are the value projection x · W_V. -/
theorem value0_v (c : Dev nD) (W3 W4 W5 : FVec Ideal S128x128 .f32)
    (hW : B1 m c main_v4 = concatenate S128x384 1 [⟨S128x128, W3⟩, ⟨S128x128, W4⟩, ⟨S128x128, W5⟩] concatenates_S128x128_S128x128_S128x128_S128x384_d1) :
    extractStridedSlice S50000x128 ![0, 256] (o0_2 m c) slices_S50000x384_S50000x128_0_256 = Cert.Spec.proj (F := Ideal) (B1 m c main_arg0) W5 := by
  rw [value0]
  exact proj384_cols _ _ W5 256 _ fun k q h => by rw [hW]; exact cat0_v W3 W4 W5 k q h

end Cert.KernelIdeal.Hand

end
-- ==== Proof.KI.Glue1.lean ====
/-
  What the host operations before the attention region compute, as the layer's functions of the launch contents: the index rows,
  the fused weight matrix, the three projections split into heads (each a column slice of the fused projection, which region 0 left),
  the edge projection (which region 1 left), and the three gathers.
-/
import proofs.«116564_j90065464197253_2_alg».proof.Proof.KI.Reads
import proofs.«116564_j90065464197253_2_alg».proof.Proof.KI.Value01
import proofs.«116564_j90065464197253_2_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Idealize.ShloMosaic.StableHlo Cert.Spec

variable (m : (ℓ : Loc nD τ sig) → Buf (Elt Ideal) ℓ)

variable (c : Dev nD)

theorem b1_v4 : B1 m c main_v4 = concatenate S128x384 1 [⟨S128x128, (B0 m c main_arg3)⟩, ⟨S128x128, (B0 m c main_arg4)⟩, ⟨S128x128, (B0 m c main_arg5)⟩] concatenates_S128x128_S128x128_S128x128_S128x384_d1 := by
  unfold B1; after_results_simp; rfl

theorem b1_v1 : B1 m c main_v1 = idxRow0 (B0 m c main_arg1) := by
  unfold B1; after_results_simp; rfl

theorem b1_v3 : B1 m c main_v3 = idxRow1 (B0 m c main_arg1) := by
  unfold B1; after_results_simp; rfl

/-- The query, key and value projections split into heads. -/
theorem b3_v7 : B3 m c main_v7 = heads (proj (B0 m c main_arg0) (B0 m c main_arg3)) := by
  unfold B3; after_results_simp
  rw [exit0_2, value0_q m c _ _ _ (b1_v4 m c), pass_main_arg0_1_0]; rfl

theorem b3_v9 : B3 m c main_v9 = heads (proj (B0 m c main_arg0) (B0 m c main_arg4)) := by
  unfold B3; after_results_simp
  rw [exit0_2, value0_k m c _ _ _ (b1_v4 m c), pass_main_arg0_1_0]; rfl

theorem b3_v11 : B3 m c main_v11 = heads (proj (B0 m c main_arg0) (B0 m c main_arg5)) := by
  unfold B3; after_results_simp
  rw [exit0_2, value0_v m c _ _ _ (b1_v4 m c), pass_main_arg0_1_0]; rfl

/-- The edge projection split into heads. -/
theorem b5_v13 : B5 m c main_v13 = eheads (eproj (B0 m c main_arg2) (B0 m c main_arg6)) := by
  unfold B5; after_results_simp
  rw [exit1_2, value1, pass_main_arg2_3_0, pass_main_arg6_3_0]; rfl

/-- The gathered keys (by source), queries (by destination) and values (by source). -/
theorem b5_v20 : B5 m c main_v20 = gath (heads (proj (B0 m c main_arg0) (B0 m c main_arg4))) (fixIdx (idxRow0 (B0 m c main_arg1))) := by
  unfold B5; after_results_simp
  rw [pass_main_v9_4_3, pass_main_v1_4_1, b3_v9, b1_v1]; rfl

theorem b5_v27 : B5 m c main_v27 = gath (heads (proj (B0 m c main_arg0) (B0 m c main_arg3))) (fixIdx (idxRow1 (B0 m c main_arg1))) := by
  unfold B5; after_results_simp
  rw [pass_main_v7_4_3, pass_main_v3_4_1, b3_v7, b1_v3]; rfl

theorem b5_v34 : B5 m c main_v34 = gath (heads (proj (B0 m c main_arg0) (B0 m c main_arg5))) (fixIdx (idxRow0 (B0 m c main_arg1))) := by
  unfold B5; after_results_simp
  rw [pass_main_v11_4_3, pass_main_v1_4_1, b3_v11, b1_v1]; rfl

end Cert.KernelIdeal.Hand

end
-- ==== Proof.KI.Value2.lean ====
/-
  What region 2 leaves: the attention weight of every edge and head, and every edge's message.
  The body at grid point t is handed edges [1000 t, 1000 (t+1)) of the gathered keys, queries and values and of the projected edge
  features, and stores for each edge e and head h the weight  s(e, h) = exp(min(5, max(−5, Σ_d k(e,h,d) · q(e,h,d) · ¼ · eh(e,h,d))))
  and the message  v(e,h,d) · s(e,h). Every entry of either result depends on its own edge's entries only, so block t of the result
  is block t of the whole-array function, and the 600 blocks tile the 600000 edges.
-/
import proofs.«116564_j90065464197253_2_alg».proof.Proof.KI.Contents
import proofs.«116564_j90065464197253_2_alg».proof.Proof.Spec
import proofs.«116564_j90065464197253_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-! ## The two sides at an entry -/

theorem hostExp2_apply {s : Shape} (x : FVec Ideal s .f32) (i : s.Idx) : Host.exp x i = Ideal.exp (x i) := rfl

theorem splat2_apply {t : Shape} (h : (⟨0, ![]⟩ : Shape).BroadcastsInDim t ![]) (w : BitVec 32) (j : t.Idx) :
    broadcastInDim t ![] h (constant (F := Ideal) ⟨0, ![]⟩ .f32 w) j = Ideal.ofBits .f32 w := rfl

theorem hostSum2_apply {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl

/-- Over index (a, b) of an A × B array, the index of the A × B × D array with last coordinate d is (a, b, d). -/
theorem lift_last2 {A B D : Nat} (hr : (⟨3, ![A, B, D]⟩ : Shape).Reduces [2] ⟨2, ![A, B]⟩) (a : Fin A) (b : Fin B) (d : Fin D) :
    hr.lift (ix2 a b) d = ix3 a b d := by
  funext c
  apply Fin.ext
  match c with
  | ⟨0, _⟩ => rfl
  | ⟨1, _⟩ => rfl
  | ⟨2, _⟩ => rfl

/-- The whole-array weight at edge e and head h. -/
theorem specWeights2_apply (Kg Qg Eh : FVec Ideal S600000x8x16 .f32) (e : Fin 600000) (h : Fin 8) :
    Cert.Spec.weights Kg Qg Eh (ix2 e h)
      = Ideal.exp (min (Ideal.ofBits .f32 0x40A00000#32) (max (Ideal.ofBits .f32 0xC0A00000#32)
          (∑ d : Fin 16, Kg (ix3 e h d) * Qg (ix3 e h d) * Ideal.ofBits .f32 0x3E800000#32 * Eh (ix3 e h d)))) := by
  unfold Cert.Spec.weights
  rw [hostExp2_apply, minimumf_apply, splat2_apply, maximumf_apply, splat2_apply, hostSum2_apply,
    Ideal.hostReduceAdd_single _ (by decide : S600000x8x16.Reduces [2] S600000x8), constant_apply, Ideal.ofBits_zero_f32, zero_add]
  refine congrArg (fun z => Ideal.exp (min _ (max _ z))) (Finset.sum_congr rfl fun (d : Fin 16) _ => ?_)
  rw [lift_last2 (A := 600000) (B := 8) (D := 16) _ e h d, mulf_apply, mulf_apply, mulf_apply, splat2_apply]

theorem vexp2_apply {s : Shape} (x : FVec Ideal s .f32) (i : s.Idx) : exp x i = Ideal.exp (x i) := rfl

/-- A sum over the last axis of a block from the zero word, at (r, h): the sum over d of the block at (r, h, d). -/
theorem laneSum2_apply (src : FVec Ideal S1000x8x16 .f32) (hr : S1000x8x16.Reduces [2] S1000x8) (hφ : FKind.Formats .f32)
    (hacc : (0x00000000#32 : BitVec 32) = 0x00000000#32) (r : Fin 1000) (h : Fin 8) :
    multiReduction .add [2] S1000x8 src 0x00000000#32 hr hφ hacc (ix2 r h) = ∑ d : Fin 16, src (ix3 r h d) :=
  (Ideal.multiReduction_add_single src 0x00000000#32 hr hφ hacc (ix2 r h)).trans
    (Finset.sum_congr rfl fun d _ => congrArg src (lift_last2 (A := 1000) (B := 8) (D := 16) hr r h d))

/-- The body's stored weight at entry (r, h) of the block, from the blocks of keys, queries and edge features. -/
theorem pay2_1_apply (x0 x1 x3 : Vec Ideal S1000x8x16 .f32) (r : Fin 1000) (h : Fin 8) :
    k2_pay1 x0 x1 x3 (ix2 r h)
      = Ideal.exp (min (Ideal.ofBits .f32 0x40A00000#32) (max (Ideal.ofBits .f32 0xC0A00000#32)
          (∑ d : Fin 16, x0 (ix3 r h d) * x1 (ix3 r h d) * Ideal.ofBits .f32 0x3E800000#32 * x3 (ix3 r h d)))) := by
  unfold k2_pay1
  simp only [shapeCast_self]
  rw [vexp2_apply, minimumf_apply, broadcast_apply, maximumf_apply, broadcast_apply]
  refine congrArg (fun z => Ideal.exp (min _ (max _ z)))
    ((laneSum2_apply _ _ _ _ r h).trans (Finset.sum_congr rfl fun d _ => ?_))
  rw [mulf_apply, mulf_apply, mulf_apply, broadcast_apply]
  rfl

/-! ## From the blocks to the arrays -/

theorem hz2_2 : (![0, 0] : Fin 2 → Nat) = fun _ => 0 := funext fun a => by fin_cases a <;> rfl
theorem hz2_3 : (![0, 0, 0] : Fin 3 → Nat) = fun _ => 0 := funext fun a => by fin_cases a <;> rfl

/-- The printed index maps over the grid: every window's block at point t is block t along the edges and the only block along
    heads and channels. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

variable (V : (c : Dev nD) → (b : Ref sig .tc) → Buf (Elt Ideal) ((c : Thread nD τ).loc b))

theorem t_lt2 (t : Fin cfg2.N) : t.val < 600 := lt_of_lt_of_eq t.isLt N_2

/-- Edge 1000 t + r of the 600000. -/
abbrev edge2 (t : Fin cfg2.N) (r : Fin 1000) : Fin 600000 := ⟨t.val * 1000 + r.val, by have := t_lt2 t; have := r.isLt; omega⟩

/-- Entry (r, h, d) of block t of the gathered keys is entry (1000 t + r, h, d) of the gathered keys. -/
theorem blk2_0_apply (c : Dev nD) (t : Fin cfg2.N) (r : Fin 1000) (h : Fin 8) (d : Fin 16) :
    blk2 V c 0 t (ix3 r h d) = V c main_v20 (ix3 (edge2 t r) h d) := by
  obtain ⟨a00, a01, a02, a10, a11, a12, a20, a21, a22, a30, a31, a32, a40, a41, a50, a51, a52⟩ := idx_facts2 t
  show V c main_v20 (((cfg2.win 0).blk t).view.emb (ix3 r h d)) = _
  refine congrArg (V c main_v20) (funext fun a => Fin.ext ?_)
  match a with
  | ⟨0, _⟩ => show win2_0.index t (0 : Fin 3) * 1000 + 1 * r.val = t.val * 1000 + r.val; omega
  | ⟨1, _⟩ => show win2_0.index t (1 : Fin 3) * 8 + 1 * h.val = h.val; omega
  | ⟨2, _⟩ => show win2_0.index t (2 : Fin 3) * 16 + 1 * d.val = d.val; omega

/-- Entry (r, h, d) of block t of the gathered queries is entry (1000 t + r, h, d) of the gathered queries. -/
theorem blk2_1_apply (c : Dev nD) (t : Fin cfg2.N) (r : Fin 1000) (h : Fin 8) (d : Fin 16) :
    blk2 V c 1 t (ix3 r h d) = V c main_v27 (ix3 (edge2 t r) h d) := by
  obtain ⟨a00, a01, a02, a10, a11, a12, a20, a21, a22, a30, a31, a32, a40, a41, a50, a51, a52⟩ := idx_facts2 t
  show V c main_v27 (((cfg2.win 1).blk t).view.emb (ix3 r h d)) = _
  refine congrArg (V c main_v27) (funext fun a => Fin.ext ?_)
  match a with
  | ⟨0, _⟩ => show win2_1.index t (0 : Fin 3) * 1000 + 1 * r.val = t.val * 1000 + r.val; omega
  | ⟨1, _⟩ => show win2_1.index t (1 : Fin 3) * 8 + 1 * h.val = h.val; omega
  | ⟨2, _⟩ => show win2_1.index t (2 : Fin 3) * 16 + 1 * d.val = d.val; omega

/-- Entry (r, h, d) of block t of the gathered values is entry (1000 t + r, h, d) of the gathered values. -/
theorem blk2_2_apply (c : Dev nD) (t : Fin cfg2.N) (r : Fin 1000) (h : Fin 8) (d : Fin 16) :
    blk2 V c 2 t (ix3 r h d) = V c main_v34 (ix3 (edge2 t r) h d) := by
  obtain ⟨a00, a01, a02, a10, a11, a12, a20, a21, a22, a30, a31, a32, a40, a41, a50, a51, a52⟩ := idx_facts2 t
  show V c main_v34 (((cfg2.win 2).blk t).view.emb (ix3 r h d)) = _
  refine congrArg (V c main_v34) (funext fun a => Fin.ext ?_)
  match a with
  | ⟨0, _⟩ => show win2_2.index t (0 : Fin 3) * 1000 + 1 * r.val = t.val * 1000 + r.val; omega
  | ⟨1, _⟩ => show win2_2.index t (1 : Fin 3) * 8 + 1 * h.val = h.val; omega
  | ⟨2, _⟩ => show win2_2.index t (2 : Fin 3) * 16 + 1 * d.val = d.val; omega

/-- Entry (r, h, d) of block t of the projected edge features is entry (1000 t + r, h, d) of the projected edge features. -/
theorem blk2_3_apply (c : Dev nD) (t : Fin cfg2.N) (r : Fin 1000) (h : Fin 8) (d : Fin 16) :
    blk2 V c 3 t (ix3 r h d) = V c main_v13 (ix3 (edge2 t r) h d) := by
  obtain ⟨a00, a01, a02, a10, a11, a12, a20, a21, a22, a30, a31, a32, a40, a41, a50, a51, a52⟩ := idx_facts2 t
  show V c main_v13 (((cfg2.win 3).blk t).view.emb (ix3 r h d)) = _
  refine congrArg (V c main_v13) (funext fun a => Fin.ext ?_)
  match a with
  | ⟨0, _⟩ => show win2_3.index t (0 : Fin 3) * 1000 + 1 * r.val = t.val * 1000 + r.val; omega
  | ⟨1, _⟩ => show win2_3.index t (1 : Fin 3) * 8 + 1 * h.val = h.val; omega
  | ⟨2, _⟩ => show win2_3.index t (2 : Fin 3) * 16 + 1 * d.val = d.val; omega

/-- Block t of an array over edges and heads, read at (r, h), is the array at (1000 t + r, h). -/
theorem read_blk2_4 (G : S600000x8.Idx → Elt Ideal .f32) (t : Fin cfg2.N) (r : Fin 1000) (h : Fin 8) :
    ((cfg2.win 4).blk t).view.read (Elt Ideal) G (ix2 r h) = G (ix2 (edge2 t r) h) := by
  obtain ⟨a00, a01, a02, a10, a11, a12, a20, a21, a22, a30, a31, a32, a40, a41, a50, a51, a52⟩ := idx_facts2 t
  show G (((cfg2.win 4).blk t).view.emb (ix2 r h)) = _
  refine congrArg G (funext fun a => Fin.ext ?_)
  match a with
  | ⟨0, _⟩ => show win2_4.index t (0 : Fin 2) * 1000 + 1 * r.val = t.val * 1000 + r.val; omega
  | ⟨1, _⟩ => show win2_4.index t (1 : Fin 2) * 8 + 1 * h.val = h.val; omega

/-- The whole-array weights of the arrays as the region finds them. -/
abbrev G2s (c : Dev nD) : S600000x8.Idx → Elt Ideal .f32 :=
  Cert.Spec.weights (F := Ideal) (V c main_v20) (V c main_v27) (V c main_v13)

/-- The body's stored weight at (r, h) of the block of point t is the whole-array weight at edge 1000 t + r and head h. -/
theorem weights2_blk_apply (c : Dev nD) (t : Fin cfg2.N) (r : Fin 1000) (h : Fin 8) :
    k2_pay1 (blk2 V c 0 t) (blk2 V c 1 t) (blk2 V c 3 t) (ix2 r h) = G2s V c (ix2 (edge2 t r) h) := by
  rw [pay2_1_apply]
  simp only [blk2_0_apply, blk2_1_apply, blk2_3_apply]
  exact (specWeights2_apply _ _ _ (edge2 t r) h).symm

/-- What point t writes back to the weights is block t of the whole-array weights of the arrays as the region finds them. -/
theorem flushed2_4_eq (c : Dev nD) (t : Fin cfg2.N) :
    (dat2 V c).flushed 4 t = ((cfg2.win 4).blk t).view.read (Elt Ideal) (G2s V c) := by
  show (cfg2.win 4).cut (grid2.coords t) ((dat2 V c).after 4 t) = _
  rw [after2_4]
  unfold weights2
  rw [View.canon_unit_zero hz2_2]
  simp only [View.ld_unit_zero (S := S1000x8x16) hz2_3]
  funext j
  obtain ⟨r, h, rfl⟩ : ∃ (r : Fin 1000) (h : Fin 8), j = ix2 r h := ⟨j 0, j 1, eq_ix2 j⟩
  refine Eq.trans ?_ (read_blk2_4 (G2s V c) t r h).symm
  exact weights2_blk_apply V c t r h

/-- An index of the weights is in point t's block iff each coordinate is in the block's range on its axis. -/
theorem mem_blk2_4 (t : Fin cfg2.N) (i : S600000x8.Idx) :
    i ∈ ((cfg2.win 4).blk t).view.set ↔ ∀ a : Fin 2, win2_4.index t a * S1000x8.size a ≤ (i a).val ∧ (i a).val < win2_4.index t a * S1000x8.size a + S1000x8.size a := by
  show i ∈ ((View.whole main_v35_0).slice (win2_4.rect t)).set ↔ _
  rw [View.set_slice_whole, Rect.mem_set_unit]
  exact Iff.rfl

/-- The 600 blocks tile the weights: edge e lies in the block of point e / 1000, which is written back. -/
theorem tiles2_4 (i : S600000x8.Idx) : ∃ t : Fin cfg2.N, (cfg2.win 4).flush t = true ∧ i ∈ ((cfg2.win 4).blk t).view.set := by
  have hi0 : (i 0).val < 600000 := (i 0).isLt
  have hi1 : (i 1).val < 8 := (i 1).isLt
  have hN : cfg2.N = 600 := N_2
  let t : Fin cfg2.N := ⟨(i 0).val / 1000, by rw [hN]; omega⟩
  obtain ⟨a00, a01, a02, a10, a11, a12, a20, a21, a22, a30, a31, a32, a40, a41, a50, a51, a52⟩ := idx_facts2 t
  refine ⟨t, flush2_4 t, ?_⟩
  rw [mem_blk2_4]
  intro a
  have ht : t.val = (i 0).val / 1000 := rfl
  match a with
  | ⟨0, _⟩ => show win2_4.index t (0 : Fin 2) * 1000 ≤ (i 0).val ∧ (i 0).val < win2_4.index t (0 : Fin 2) * 1000 + 1000; omega
  | ⟨1, _⟩ => show win2_4.index t (1 : Fin 2) * 8 ≤ (i 1).val ∧ (i 1).val < win2_4.index t (1 : Fin 2) * 8 + 8; omega

/-- After the region the weights' array holds the whole-array weights of the arrays as the region found them. -/
theorem final2_4 (c : Dev nD) : (dat2 V c).arrAt 4 cfg2.N = G2s V c :=
  (dat2 V c).arrAt_eq_of_cover 4 (G2s V c) (fun t _ => flushed2_4_eq V c t) tiles2_4

/-- What region 2 leaves in the weights' array: exp of the clipped scores of the contents it is entered from. -/
theorem value2_s (c : Dev nD) :
    o2_4 m c = Cert.Spec.weights (F := Ideal) (B5 m c main_v20) (B5 m c main_v27) (B5 m c main_v13) :=
  final2_4 (fun c b => B5 m c b) c

/-! ## The messages -/

/-- The whole-array message at edge e, head h and channel d: the value times the edge's and head's weight. -/
theorem specMessages2_apply (Vg : FVec Ideal S600000x8x16 .f32) (s : FVec Ideal S600000x8 .f32) (e : Fin 600000) (h : Fin 8) (d : Fin 16) :
    Cert.Spec.messages Vg s (ix3 e h d) = Vg (ix3 e h d) * s (ix2 e h) := by
  unfold Cert.Spec.messages
  rw [mulf_apply,
    broadcastInDim_apply ![0, 1, 2] _ _ (ix3 e h d) (ix3 e h (0 : Fin 1)) (fun a => by
      match a with
      | ⟨0, _⟩ => rfl
      | ⟨1, _⟩ => rfl
      | ⟨2, _⟩ => rfl),
    broadcastInDim_apply ![0, 1] _ s (ix3 e h (0 : Fin 1)) (ix2 e h) (fun a => by
      match a with
      | ⟨0, _⟩ => rfl
      | ⟨1, _⟩ => rfl)]

/-- The body's stored message at entry (r, h, d) of the block: the block of values there times the stored weight at (r, h). -/
theorem pay2_2_apply (x0 x1 x2 x3 : Vec Ideal S1000x8x16 .f32) (r : Fin 1000) (h : Fin 8) (d : Fin 16) :
    k2_pay2 x0 x1 x2 x3 (ix3 r h d) = x2 (ix3 r h d) * k2_pay1 x0 x1 x3 (ix2 r h) := by
  unfold k2_pay2
  simp only [shapeCast_self]
  rw [mulf_apply,
    broadcastTo_apply _ _ (ix3 r h d) (ix3 r h (0 : Fin 1)) (fun a => by
      match a with
      | ⟨0, _⟩ => rfl
      | ⟨1, _⟩ => rfl
      | ⟨2, _⟩ => rfl),
    shapeCast_apply _ _ (ix3 r h (0 : Fin 1)) (ix2 r h) (by
      rw [Shape.rowMajor_val_two, Shape.rowMajor_val_three]
      show r.val * 8 + h.val = (r.val * 8 + h.val) * 1 + 0
      omega)]

/-- Block t of an array over edges, heads and channels, read at (r, h, d), is the array at (1000 t + r, h, d). -/
theorem read_blk2_5 (G : S600000x8x16.Idx → Elt Ideal .f32) (t : Fin cfg2.N) (r : Fin 1000) (h : Fin 8) (d : Fin 16) :
    ((cfg2.win 5).blk t).view.read (Elt Ideal) G (ix3 r h d) = G (ix3 (edge2 t r) h d) := by
  obtain ⟨a00, a01, a02, a10, a11, a12, a20, a21, a22, a30, a31, a32, a40, a41, a50, a51, a52⟩ := idx_facts2 t
  show G (((cfg2.win 5).blk t).view.emb (ix3 r h d)) = _
  refine congrArg G (funext fun a => Fin.ext ?_)
  match a with
  | ⟨0, _⟩ => show win2_5.index t (0 : Fin 3) * 1000 + 1 * r.val = t.val * 1000 + r.val; omega
  | ⟨1, _⟩ => show win2_5.index t (1 : Fin 3) * 8 + 1 * h.val = h.val; omega
  | ⟨2, _⟩ => show win2_5.index t (2 : Fin 3) * 16 + 1 * d.val = d.val; omega

/-- The whole-array messages of the arrays as the region finds them. -/
abbrev G2m (c : Dev nD) : S600000x8x16.Idx → Elt Ideal .f32 :=
  Cert.Spec.messages (F := Ideal) (V c main_v34) (G2s V c)

/-- What point t writes back to the messages is block t of the whole-array messages of the arrays as the region finds them. -/
theorem flushed2_5_eq (c : Dev nD) (t : Fin cfg2.N) :
    (dat2 V c).flushed 5 t = ((cfg2.win 5).blk t).view.read (Elt Ideal) (G2m V c) := by
  show (cfg2.win 5).cut (grid2.coords t) ((dat2 V c).after 5 t) = _
  rw [after2_5]
  unfold messages2
  rw [View.canon_unit_zero hz2_3]
  simp only [View.ld_unit_zero (S := S1000x8x16) hz2_3]
  funext j
  obtain ⟨r, h, d, rfl⟩ : ∃ (r : Fin 1000) (h : Fin 8) (d : Fin 16), j = ix3 r h d := ⟨j 0, j 1, j 2, eq_ix3 j⟩
  refine Eq.trans ?_ (read_blk2_5 (G2m V c) t r h d).symm
  show k2_pay2 (blk2 V c 0 t) (blk2 V c 1 t) (blk2 V c 2 t) (blk2 V c 3 t) (ix3 r h d) = _
  rw [pay2_2_apply, weights2_blk_apply, blk2_2_apply]
  exact (specMessages2_apply _ _ (edge2 t r) h d).symm

/-- An index of the messages is in point t's block iff each coordinate is in the block's range on its axis. -/
theorem mem_blk2_5 (t : Fin cfg2.N) (i : S600000x8x16.Idx) :
    i ∈ ((cfg2.win 5).blk t).view.set ↔ ∀ a : Fin 3, win2_5.index t a * S1000x8x16.size a ≤ (i a).val ∧ (i a).val < win2_5.index t a * S1000x8x16.size a + S1000x8x16.size a := by
  show i ∈ ((View.whole main_v35_1).slice (win2_5.rect t)).set ↔ _
  rw [View.set_slice_whole, Rect.mem_set_unit]
  exact Iff.rfl

/-- The 600 blocks tile the messages: edge e lies in the block of point e / 1000, which is written back. -/
theorem tiles2_5 (i : S600000x8x16.Idx) : ∃ t : Fin cfg2.N, (cfg2.win 5).flush t = true ∧ i ∈ ((cfg2.win 5).blk t).view.set := by
  have hi0 : (i 0).val < 600000 := (i 0).isLt
  have hi1 : (i 1).val < 8 := (i 1).isLt
  have hi2 : (i 2).val < 16 := (i 2).isLt
  have hN : cfg2.N = 600 := N_2
  let t : Fin cfg2.N := ⟨(i 0).val / 1000, by rw [hN]; omega⟩
  obtain ⟨a00, a01, a02, a10, a11, a12, a20, a21, a22, a30, a31, a32, a40, a41, a50, a51, a52⟩ := idx_facts2 t
  refine ⟨t, flush2_5 t, ?_⟩
  rw [mem_blk2_5]
  intro a
  have ht : t.val = (i 0).val / 1000 := rfl
  match a with
  | ⟨0, _⟩ => show win2_5.index t (0 : Fin 3) * 1000 ≤ (i 0).val ∧ (i 0).val < win2_5.index t (0 : Fin 3) * 1000 + 1000; omega
  | ⟨1, _⟩ => show win2_5.index t (1 : Fin 3) * 8 ≤ (i 1).val ∧ (i 1).val < win2_5.index t (1 : Fin 3) * 8 + 8; omega
  | ⟨2, _⟩ => show win2_5.index t (2 : Fin 3) * 16 ≤ (i 2).val ∧ (i 2).val < win2_5.index t (2 : Fin 3) * 16 + 16; omega

/-- After the region the messages' array holds the whole-array messages of the arrays as the region found them. -/
theorem final2_5 (c : Dev nD) : (dat2 V c).arrAt 5 cfg2.N = G2m V c :=
  (dat2 V c).arrAt_eq_of_cover 5 (G2m V c) (fun t _ => flushed2_5_eq V c t) tiles2_5

/-- What region 2 leaves in the messages' array: the gathered values scaled by the weights it leaves beside them. -/
theorem value2_m (c : Dev nD) :
    o2_5 m c = Cert.Spec.messages (F := Ideal) (B5 m c main_v34) (o2_4 m c) := by
  rw [value2_s]
  exact final2_5 (fun c b => B5 m c b) c

end Cert.KernelIdeal.Hand

end
-- ==== Proof.KI.Glue3.lean ====
/-
  What the attention region is entered with and leaves, as the layer's functions: the weights and messages of the gathered keys,
  queries, values and the projected edge features; hence the attention quotient of the launch contents.
-/
import proofs.«116564_j90065464197253_2_alg».proof.Proof.KI.Glue1
import proofs.«116564_j90065464197253_2_alg».proof.Proof.KI.Value2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Idealize.ShloMosaic.StableHlo Cert.Spec

variable (m : (ℓ : Loc nD τ sig) → Buf (Elt Ideal) ℓ)

variable (c : Dev nD)

theorem b6_s : B6 m c main_v35_0 = weights (F := Ideal) (B5 m c main_v20) (B5 m c main_v27) (B5 m c main_v13) :=
  (exit2_4 m c).trans (value2_s m c)

theorem b6_m : B6 m c main_v35_1 = messages (F := Ideal) (B5 m c main_v34) (o2_4 m c) :=
  (exit2_5 m c).trans (value2_m m c)

/-- The attention quotient the host computes from what region 2 leaves is the layer's, of the launch contents. -/
theorem k_attn : attn (B6 m c main_v35_1) (B6 m c main_v35_0) (B1 m c main_v3)
    = attnOf (B0 m c main_arg0) (B0 m c main_arg1) (B0 m c main_arg2) (B0 m c main_arg3) (B0 m c main_arg4) (B0 m c main_arg5) (B0 m c main_arg6) := by
  rw [b6_m, b6_s, value2_s, b5_v20, b5_v27, b5_v34, b5_v13, b1_v3]
  rfl

end Cert.KernelIdeal.Hand

end
-- ==== Proof.RI.Stages.lean ====
/-
  The reference's line cut at the arrays that are read many times over — the residual sum, the column statistics, the block's
  output — so that what each stage computes from the stage before is a term of moderate size. The whole line is the stages in order,
  and the buffers after it are the stages' folds composed.
-/
import proofs.«116564_j90065464197253_2_alg».proof.Proof.RI.Line

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stage a: up to the residual sum x + attention (main_v55). -/
abbrev st_a : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v4 main_v5 rfl shapeCasts_S50000x128_S50000x8x16,
    StableHlo.binary main_arg0 main_arg4 main_v6 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v6 main_v7 rfl shapeCasts_S50000x128_S50000x8x16,
    StableHlo.binary main_arg0 main_arg5 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v8 main_v9 rfl shapeCasts_S50000x128_S50000x8x16,
    StableHlo.binary main_arg2 main_arg6 main_v10 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.reshape main_v10 main_v11 rfl shapeCasts_S600000x128_S600000x8x16,
    StableHlo.nullary main_c (constantI S_ 32 0#32),
    StableHlo.unary main_c main_v12 (broadcastInDim S600000 ![] bcast_S_S600000 : (⟨S_, .i32⟩ : BufTy).Contents (Elt F) → (⟨S600000, .i32⟩ : BufTy).Contents (Elt F)),
    StableHlo.binary main_v1 main_v12 main_v13 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v14 (broadcastInDim S600000 ![] bcast_S_S600000 : (⟨S_, .i32⟩ : BufTy).Contents (Elt F) → (⟨S600000, .i32⟩ : BufTy).Contents (Elt F)),
    StableHlo.binary main_v1 main_v14 main_v15 (addi : (⟨S600000, .i32⟩ : BufTy).Contents (Elt F) → (⟨S600000, .i32⟩ : BufTy).Contents (Elt F) → (⟨S600000, .i32⟩ : BufTy).Contents (Elt F)),
    StableHlo.ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v16 main_v17 (broadcastInDim S600000x1 ![0] bcast_S600000_S600000x1_0 : (⟨S600000, .i32⟩ : BufTy).Contents (Elt F) → (⟨S600000x1, .i32⟩ : BufTy).Contents (Elt F)),
    StableHlo.binary main_v7 main_v17 main_v18 ((fun x i => Host.gather gather_S50000x8x16_S600000x1_S600000x8x16_12_0_n_n_0_1_1816 x i) : (⟨S50000x8x16, .f32⟩ : BufTy).Contents (Elt F) → (⟨S600000x1, .i32⟩ : BufTy).Contents (Elt F) → (⟨S600000x8x16, .f32⟩ : BufTy).Contents (Elt F)),
    StableHlo.nullary main_c_1 (constantI S_ 32 0#32),
    StableHlo.unary main_c_1 main_v19 (broadcastInDim S600000 ![] bcast_S_S600000 : (⟨S_, .i32⟩ : BufTy).Contents (Elt F) → (⟨S600000, .i32⟩ : BufTy).Contents (Elt F)),
    StableHlo.binary main_v3 main_v19 main_v20 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v21 (broadcastInDim S600000 ![] bcast_S_S600000 : (⟨S_, .i32⟩ : BufTy).Contents (Elt F) → (⟨S600000, .i32⟩ : BufTy).Contents (Elt F)),
    StableHlo.binary main_v3 main_v21 main_v22 (addi : (⟨S600000, .i32⟩ : BufTy).Contents (Elt F) → (⟨S600000, .i32⟩ : BufTy).Contents (Elt F) → (⟨S600000, .i32⟩ : BufTy).Contents (Elt F)),
    StableHlo.ternary main_v20 main_v22 main_v3 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v23 main_v24 (broadcastInDim S600000x1 ![0] bcast_S600000_S600000x1_0 : (⟨S600000, .i32⟩ : BufTy).Contents (Elt F) → (⟨S600000x1, .i32⟩ : BufTy).Contents (Elt F)),
    StableHlo.binary main_v5 main_v24 main_v25 ((fun x i => Host.gather gather_S50000x8x16_S600000x1_S600000x8x16_12_0_n_n_0_1_1816 x i) : (⟨S50000x8x16, .f32⟩ : BufTy).Contents (Elt F) → (⟨S600000x1, .i32⟩ : BufTy).Contents (Elt F) → (⟨S600000x8x16, .f32⟩ : BufTy).Contents (Elt F)),
    StableHlo.binary main_v18 main_v25 main_v26 (mulf : (⟨S600000x8x16, .f32⟩ : BufTy).Contents (Elt F) → (⟨S600000x8x16, .f32⟩ : BufTy).Contents (Elt F) → (⟨S600000x8x16, .f32⟩ : BufTy).Contents (Elt F)),
    StableHlo.nullary main_cst (constant S_ .f32 0x3E800000#32),
    StableHlo.unary main_cst main_v27 (broadcastInDim S600000x8x16 ![] bcast_S_S600000x8x16 : (⟨S_, .f32⟩ : BufTy).Contents (Elt F) → (⟨S600000x8x16, .f32⟩ : BufTy).Contents (Elt F)),
    StableHlo.binary main_v26 main_v27 main_v28 (mulf : (⟨S600000x8x16, .f32⟩ : BufTy).Contents (Elt F) → (⟨S600000x8x16, .f32⟩ : BufTy).Contents (Elt F) → (⟨S600000x8x16, .f32⟩ : BufTy).Contents (Elt F)),
    StableHlo.binary main_v28 main_v11 main_v29 (mulf : (⟨S600000x8x16, .f32⟩ : BufTy).Contents (Elt F) → (⟨S600000x8x16, .f32⟩ : BufTy).Contents (Elt F) → (⟨S600000x8x16, .f32⟩ : BufTy).Contents (Elt F)),
    StableHlo.nullary main_cst_3 (constant S_ .f32 0x00000000#32),
    StableHlo.binary main_v29 main_cst_3 main_v30 ((fun x v => Host.reduceAdd x v reducesTo_S600000x8x16_S600000x8_d2 h_S_) : (⟨S600000x8x16, .f32⟩ : BufTy).Contents (Elt F) → (⟨S_, .f32⟩ : BufTy).Contents (Elt F) → (⟨S600000x8, .f32⟩ : BufTy).Contents (Elt F)),
    StableHlo.nullary main_cst_4 (constant S_ .f32 0xC0A00000#32),
    StableHlo.nullary main_cst_5 (constant S_ .f32 0x40A00000#32),
    StableHlo.TRef.unary (.of main_cst_4) main_call0.v0 id,
    StableHlo.TRef.unary main_call0.v0 main_call0.v1 (broadcastInDim S600000x8 ![] bcast_S_S600000x8),
    StableHlo.TRef.binary main_call0.v1 (.of main_v30) main_call0.v2 maximumf,
    StableHlo.TRef.unary (.of main_cst_5) main_call0.v3 id,
    StableHlo.TRef.unary main_call0.v3 main_call0.v4 (broadcastInDim S600000x8 ![] bcast_S_S600000x8),
    StableHlo.TRef.binary main_call0.v4 main_call0.v2 main_call0.v5 minimumf,
    StableHlo.unary main_v31 main_v32 (Host.exp : (⟨S600000x8, .f32⟩ : BufTy).Contents (Elt F) → (⟨S600000x8, .f32⟩ : BufTy).Contents (Elt F)),
    StableHlo.nullary main_c_6 (constantI S_ 32 0#32),
    StableHlo.unary main_c_6 main_v33 (broadcastInDim S600000 ![] bcast_S_S600000 : (⟨S_, .i32⟩ : BufTy).Contents (Elt F) → (⟨S600000, .i32⟩ : BufTy).Contents (Elt F)),
    StableHlo.binary main_v1 main_v33 main_v34 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v35 (broadcastInDim S600000 ![] bcast_S_S600000 : (⟨S_, .i32⟩ : BufTy).Contents (Elt F) → (⟨S600000, .i32⟩ : BufTy).Contents (Elt F)),
    StableHlo.binary main_v1 main_v35 main_v36 (addi : (⟨S600000, .i32⟩ : BufTy).Contents (Elt F) → (⟨S600000, .i32⟩ : BufTy).Contents (Elt F) → (⟨S600000, .i32⟩ : BufTy).Contents (Elt F)),
    StableHlo.ternary main_v34 main_v36 main_v1 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v37 main_v38 (broadcastInDim S600000x1 ![0] bcast_S600000_S600000x1_0 : (⟨S600000, .i32⟩ : BufTy).Contents (Elt F) → (⟨S600000x1, .i32⟩ : BufTy).Contents (Elt F)),
    StableHlo.binary main_v9 main_v38 main_v39 ((fun x i => Host.gather gather_S50000x8x16_S600000x1_S600000x8x16_12_0_n_n_0_1_1816 x i) : (⟨S50000x8x16, .f32⟩ : BufTy).Contents (Elt F) → (⟨S600000x1, .i32⟩ : BufTy).Contents (Elt F) → (⟨S600000x8x16, .f32⟩ : BufTy).Contents (Elt F)),
    StableHlo.unary main_v32 main_v40 (broadcastInDim S600000x8x1 ![0, 1] bcast_S600000x8_S600000x8x1_0_1 : (⟨S600000x8, .f32⟩ : BufTy).Contents (Elt F) → (⟨S600000x8x1, .f32⟩ : BufTy).Contents (Elt F)),
    StableHlo.unary main_v40 main_v41 (broadcastInDim S600000x8x16 ![0, 1, 2] bcast_S600000x8x1_S600000x8x16_0_1_2 : (⟨S600000x8x1, .f32⟩ : BufTy).Contents (Elt F) → (⟨S600000x8x16, .f32⟩ : BufTy).Contents (Elt F)),
    StableHlo.binary main_v39 main_v41 main_v42 (mulf : (⟨S600000x8x16, .f32⟩ : BufTy).Contents (Elt F) → (⟨S600000x8x16, .f32⟩ : BufTy).Contents (Elt F) → (⟨S600000x8x16, .f32⟩ : BufTy).Contents (Elt F)),
    StableHlo.nullary main_cst_8 (constant S_ .f32 0x00000000#32),
    StableHlo.unary main_cst_8 main_v43 (broadcastInDim S50000x8x16 ![] bcast_S_S50000x8x16 : (⟨S_, .f32⟩ : BufTy).Contents (Elt F) → (⟨S50000x8x16, .f32⟩ : BufTy).Contents (Elt F)),
    StableHlo.unary main_v3 main_v44 (broadcastInDim S600000x1 ![0] bcast_S600000_S600000x1_0 : (⟨S600000, .i32⟩ : BufTy).Contents (Elt F) → (⟨S600000x1, .i32⟩ : BufTy).Contents (Elt F)),
    StableHlo.ternary main_v43 main_v44 main_v42 main_v45 ((fun x i u => Host.scatterAdd scatter_S50000x8x16_S600000x1_S600000x8x16_12_0_0_1 x i u) : (⟨S50000x8x16, .f32⟩ : BufTy).Contents (Elt F) → (⟨S600000x1, .i32⟩ : BufTy).Contents (Elt F) → (⟨S600000x8x16, .f32⟩ : BufTy).Contents (Elt F) → (⟨S50000x8x16, .f32⟩ : BufTy).Contents (Elt F)),
    StableHlo.nullary main_cst_9 (constant S_ .f32 0x00000000#32),
    StableHlo.unary main_cst_9 main_v46 (broadcastInDim S50000x8 ![] bcast_S_S50000x8 : (⟨S_, .f32⟩ : BufTy).Contents (Elt F) → (⟨S50000x8, .f32⟩ : BufTy).Contents (Elt F)),
    StableHlo.unary main_v3 main_v47 (broadcastInDim S600000x1 ![0] bcast_S600000_S600000x1_0 : (⟨S600000, .i32⟩ : BufTy).Contents (Elt F) → (⟨S600000x1, .i32⟩ : BufTy).Contents (Elt F)),
    StableHlo.ternary main_v46 main_v47 main_v32 main_v48 ((fun x i u => Host.scatterAdd scatter_S50000x8_S600000x1_S600000x8_1_0_0_1 x i u) : (⟨S50000x8, .f32⟩ : BufTy).Contents (Elt F) → (⟨S600000x1, .i32⟩ : BufTy).Contents (Elt F) → (⟨S600000x8, .f32⟩ : BufTy).Contents (Elt F) → (⟨S50000x8, .f32⟩ : BufTy).Contents (Elt F)),
    StableHlo.unary main_v48 main_v49 (broadcastInDim S50000x8x1 ![0, 1] bcast_S50000x8_S50000x8x1_0_1 : (⟨S50000x8, .f32⟩ : BufTy).Contents (Elt F) → (⟨S50000x8x1, .f32⟩ : BufTy).Contents (Elt F)),
    StableHlo.nullary main_cst_10 (constant S_ .f32 0x358637BD#32),
    StableHlo.unary main_cst_10 main_v50 (broadcastInDim S50000x8x1 ![] bcast_S_S50000x8x1 : (⟨S_, .f32⟩ : BufTy).Contents (Elt F) → (⟨S50000x8x1, .f32⟩ : BufTy).Contents (Elt F)),
    StableHlo.binary main_v49 main_v50 main_v51 (addf : (⟨S50000x8x1, .f32⟩ : BufTy).Contents (Elt F) → (⟨S50000x8x1, .f32⟩ : BufTy).Contents (Elt F) → (⟨S50000x8x1, .f32⟩ : BufTy).Contents (Elt F)),
    StableHlo.unary main_v51 main_v52 (broadcastInDim S50000x8x16 ![0, 1, 2] bcast_S50000x8x1_S50000x8x16_0_1_2 : (⟨S50000x8x1, .f32⟩ : BufTy).Contents (Elt F) → (⟨S50000x8x16, .f32⟩ : BufTy).Contents (Elt F)),
    StableHlo.binary main_v45 main_v52 main_v53 (Host.divf : (⟨S50000x8x16, .f32⟩ : BufTy).Contents (Elt F) → (⟨S50000x8x16, .f32⟩ : BufTy).Contents (Elt F) → (⟨S50000x8x16, .f32⟩ : BufTy).Contents (Elt F)),
    StableHlo.reshape main_v53 main_v54 rfl shapeCasts_S50000x8x16_S50000x128,
    StableHlo.binary main_arg0 main_v54 main_v55 (addf : (⟨S50000x128, .f32⟩ : BufTy).Contents (Elt F) → (⟨S50000x128, .f32⟩ : BufTy).Contents (Elt F) → (⟨S50000x128, .f32⟩ : BufTy).Contents (Elt F)) ]

/-- Stage b: the first column mean (main_v58) and the variance call's integer argument. -/
abbrev st_b : List (HloOp τ sig (Elt F)) :=
  [ StableHlo.nullary main_cst_11 (constant S_ .f32 0x00000000#32),
    StableHlo.binary main_v55 main_cst_11 main_v56 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_12 (constant S_ .f32 0x47435000#32),
    StableHlo.unary main_cst_12 main_v57 (broadcastInDim S128 ![] bcast_S_S128 : (⟨S_, .f32⟩ : BufTy).Contents (Elt F) → (⟨S128, .f32⟩ : BufTy).Contents (Elt F)),
    StableHlo.binary main_v56 main_v57 main_v58 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32) ]

/-- Stage c: the first column variance (main_v59): the callee's operations. -/
abbrev st_c : List (HloOp τ sig (Elt F)) :=
  [ StableHlo.TRef.nullary main_call1.cst (constant S_ .f32 0x00000000#32),
    StableHlo.TRef.binary (.of main_v55) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v55) main_call1.v4 main_call1.v5 subf,
    StableHlo.TRef.binary main_call1.v5 main_call1.v5 main_call1.v6 mulf,
    StableHlo.TRef.unary (.of main_c_13) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- Stage d: the first normalisation, the feed-forward block and its residual (main_v84). -/
abbrev st_d : List (HloOp τ sig (Elt F)) :=
  [ StableHlo.unary main_v58 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v61 main_v62 (subf : (⟨S50000x128, .f32⟩ : BufTy).Contents (Elt F) → (⟨S50000x128, .f32⟩ : BufTy).Contents (Elt F) → (⟨S50000x128, .f32⟩ : BufTy).Contents (Elt F)),
    StableHlo.unary main_arg7 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v62 main_v65 (mulf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v66 (broadcastInDim S128 ![] bcast_S_S128 : (⟨S_, .f32⟩ : BufTy).Contents (Elt F) → (⟨S128, .f32⟩ : BufTy).Contents (Elt F)),
    StableHlo.binary main_v59 main_v66 main_v67 (addf : (⟨S128, .f32⟩ : BufTy).Contents (Elt F) → (⟨S128, .f32⟩ : BufTy).Contents (Elt F) → (⟨S128, .f32⟩ : BufTy).Contents (Elt F)),
    StableHlo.unary main_v67 main_v68 (Host.rsqrt : (⟨S128, .f32⟩ : BufTy).Contents (Elt F) → (⟨S128, .f32⟩ : BufTy).Contents (Elt F)),
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_arg8 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)),
    StableHlo.binary main_v74 main_arg11 main_v75 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg12 main_v76 (broadcastInDim S1x256 ![1] bcast_S256_S1x256_1 : (⟨S256, .f32⟩ : BufTy).Contents (Elt F) → (⟨S1x256, .f32⟩ : BufTy).Contents (Elt F)),
    StableHlo.unary main_v76 main_v77 (broadcastInDim S50000x256 ![0, 1] bcast_S1x256_S50000x256_0_1 : (⟨S1x256, .f32⟩ : BufTy).Contents (Elt F) → (⟨S50000x256, .f32⟩ : BufTy).Contents (Elt F)),
    StableHlo.binary main_v75 main_v77 main_v78 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v78) main_call2.v0 main_call2.v1 maximumf,
    StableHlo.binary main_v79 main_arg13 main_v80 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg14 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (addf : (⟨S50000x128, .f32⟩ : BufTy).Contents (Elt F) → (⟨S50000x128, .f32⟩ : BufTy).Contents (Elt F) → (⟨S50000x128, .f32⟩ : BufTy).Contents (Elt F)),
    StableHlo.binary main_v74 main_v83 main_v84 (addf : (⟨S50000x128, .f32⟩ : BufTy).Contents (Elt F) → (⟨S50000x128, .f32⟩ : BufTy).Contents (Elt F) → (⟨S50000x128, .f32⟩ : BufTy).Contents (Elt F)) ]

/-- Stage e: the second column mean (main_v87) and the variance call's integer argument. -/
abbrev st_e : List (HloOp τ sig (Elt F)) :=
  [ StableHlo.nullary main_cst_15 (constant S_ .f32 0x00000000#32),
    StableHlo.binary main_v84 main_cst_15 main_v85 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32) ]

/-- Stage f: the second column variance (main_v88). -/
abbrev st_f : List (HloOp τ sig (Elt F)) :=
  [ StableHlo.TRef.nullary main_call3.cst (constant S_ .f32 0x00000000#32),
    StableHlo.TRef.binary (.of main_v84) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v84) main_call3.v4 main_call3.v5 subf,
    StableHlo.TRef.binary main_call3.v5 main_call3.v5 main_call3.v6 mulf,
    StableHlo.TRef.unary (.of main_c_17) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

/-- Stage g: the second normalisation (main_v103). -/
abbrev st_g : List (HloOp τ sig (Elt F)) :=
  [ StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v90 main_v91 (subf : (⟨S50000x128, .f32⟩ : BufTy).Contents (Elt F) → (⟨S50000x128, .f32⟩ : BufTy).Contents (Elt F) → (⟨S50000x128, .f32⟩ : BufTy).Contents (Elt F)),
    StableHlo.unary main_arg9 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v91 main_v94 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v95 (broadcastInDim S128 ![] bcast_S_S128 : (⟨S_, .f32⟩ : BufTy).Contents (Elt F) → (⟨S128, .f32⟩ : BufTy).Contents (Elt F)),
    StableHlo.binary main_v88 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)),
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_arg10 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)) ]

/-- The line is the stages in order. -/
theorem ops_eq : (ops : List (HloOp τ sig (Elt F))) = st_a ++ (st_b ++ (st_c ++ (st_d ++ (st_e ++ (st_f ++ st_g))))) := rfl

/-- The buffers after two lines run one after the other. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- The buffers after the whole line: the stages' folds composed. -/
theorem after_ops (V : Valuation τ sig (Elt F)) :
    after ops V = after st_g (after st_f (after st_e (after st_d (after st_c (after st_b (after st_a V)))))) := by
  rw [ops_eq, after_append, after_append, after_append, after_append, after_append, after_append]

/-- The run with its result named: the result array holds the staged fold at the result buffer; the arguments end as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v103)
        = after st_g (after st_f (after st_e (after st_d (after st_c (after st_b (after st_a (launchContents m c))))))) (main_v103 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v103).trans (by rw [after_ops]),
      (h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide)),
      (h c main_arg8).trans (arg_kept _ main_arg8 (by decide)),
      (h c main_arg9).trans (arg_kept _ main_arg9 (by decide)),
      (h c main_arg10).trans (arg_kept _ main_arg10 (by decide)),
      (h c main_arg11).trans (arg_kept _ main_arg11 (by decide)),
      (h c main_arg12).trans (arg_kept _ main_arg12 (by decide)),
      (h c main_arg13).trans (arg_kept _ main_arg13 (by decide)),
      (h c main_arg14).trans (arg_kept _ main_arg14 (by decide))⟩)
    (run_main m ρ)

end Cert.ReferenceIdeal.Hand

end
-- ==== Proof.RI.Reads.lean ====
/-
  The reference's stages read as the layer's functions: the first stage leaves the residual sum x + attention; the next three (mean,
  variance, the normalised block) leave the block's output, a function of that sum and the parameters; the last three leave the
  result, the second normalisation of the block's output. No stage writes an argument.
-/
import proofs.«116564_j90065464197253_2_alg».proof.Proof.RI.Stages
import proofs.«116564_j90065464197253_2_alg».proof.Proof.Layer

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

theorem mem_a {F : FTy → Type} [FloatOps F] : ∀ op ∈ (st_a : List (HloOp τ sig (Elt F))), op ∈ (ops : List (HloOp τ sig (Elt F))) := fun op h => by
  rw [ops_eq]; exact List.mem_append_left _ h
theorem mem_b {F : FTy → Type} [FloatOps F] : ∀ op ∈ (st_b : List (HloOp τ sig (Elt F))), op ∈ (ops : List (HloOp τ sig (Elt F))) := fun op h => by
  rw [ops_eq]; exact List.mem_append_right _ (List.mem_append_left _ h)
theorem mem_c {F : FTy → Type} [FloatOps F] : ∀ op ∈ (st_c : List (HloOp τ sig (Elt F))), op ∈ (ops : List (HloOp τ sig (Elt F))) := fun op h => by
  rw [ops_eq]; exact List.mem_append_right _ (List.mem_append_right _ (List.mem_append_left _ h))
theorem mem_d {F : FTy → Type} [FloatOps F] : ∀ op ∈ (st_d : List (HloOp τ sig (Elt F))), op ∈ (ops : List (HloOp τ sig (Elt F))) := fun op h => by
  rw [ops_eq]; exact List.mem_append_right _ (List.mem_append_right _ (List.mem_append_right _ (List.mem_append_left _ h)))
theorem mem_e {F : FTy → Type} [FloatOps F] : ∀ op ∈ (st_e : List (HloOp τ sig (Elt F))), op ∈ (ops : List (HloOp τ sig (Elt F))) := fun op h => by
  rw [ops_eq]; exact List.mem_append_right _ (List.mem_append_right _ (List.mem_append_right _ (List.mem_append_right _ (List.mem_append_left _ h))))
theorem mem_f {F : FTy → Type} [FloatOps F] : ∀ op ∈ (st_f : List (HloOp τ sig (Elt F))), op ∈ (ops : List (HloOp τ sig (Elt F))) := fun op h => by
  rw [ops_eq]; exact List.mem_append_right _ (List.mem_append_right _ (List.mem_append_right _ (List.mem_append_right _ (List.mem_append_right _ (List.mem_append_left _ h)))))

/-- A stage writes only buffers the line writes: an argument passes through it. -/
theorem st_keep {F : FTy → Type} [FloatOps F] (l : List (HloOp τ sig (Elt F))) (hl : ∀ op ∈ l, op ∈ (ops : List (HloOp τ sig (Elt F))))
    (V : Valuation τ sig (Elt F)) (r : Ref sig .tc) (h : r ∉ written) : after l V (Proc.devRef .tc r) = V (Proc.devRef .tc r) :=
  after_of_writes_sub l V (List.forall_iff_forall_mem.mpr fun op hop => List.forall_iff_forall_mem.mp ops_writes op (hl op hop)) h

variable (W : Valuation τ sig (Elt Ideal))

set_option maxHeartbeats 8000000 in
/-- Stage a leaves the residual sum. -/
theorem read_hsum : after st_a W (Proc.devRef .tc main_v55)
    = addf (W (Proc.devRef .tc main_arg0)) (attnOf (W (Proc.devRef .tc main_arg0)) (W (Proc.devRef .tc main_arg1)) (W (Proc.devRef .tc main_arg2))
        (W (Proc.devRef .tc main_arg3)) (W (Proc.devRef .tc main_arg4)) (W (Proc.devRef .tc main_arg5)) (W (Proc.devRef .tc main_arg6))) := by
  after_results_simp
  rfl

set_option maxHeartbeats 8000000 in
/-- Stages b, c, d leave the block's output. -/
theorem read_block : after st_d (after st_c (after st_b W)) (Proc.devRef .tc main_v84)
    = blockVec (W (Proc.devRef .tc main_v55)) (W (Proc.devRef .tc main_arg7)) (W (Proc.devRef .tc main_arg8)) (W (Proc.devRef .tc main_arg11))
        (W (Proc.devRef .tc main_arg12)) (W (Proc.devRef .tc main_arg13)) (W (Proc.devRef .tc main_arg14)) := by
  after_results_simp
  unfold blockVec Cert.Spec.norm
  rw [invStd_up]
  rfl

set_option maxHeartbeats 8000000 in
/-- Stages e, f, g leave the result. -/
theorem read_out : after st_g (after st_f (after st_e W)) (Proc.devRef .tc main_v103)
    = Cert.Spec.norm (W (Proc.devRef .tc main_v84)) (up (mean128 (W (Proc.devRef .tc main_v84)))) (up (var128 (W (Proc.devRef .tc main_v84)) zeroI))
        (up (W (Proc.devRef .tc main_arg9))) (up (W (Proc.devRef .tc main_arg10))) := by
  after_results_simp
  unfold Cert.Spec.norm
  rw [invStd_up]
  rfl

/-- An argument after the first stage, and after the first four. -/
theorem arg_a (r : Ref sig .tc) (h : r ∉ written) : after st_a W (Proc.devRef .tc r) = W (Proc.devRef .tc r) := st_keep st_a mem_a W r h
theorem arg_d (r : Ref sig .tc) (h : r ∉ written) :
    after st_d (after st_c (after st_b (after st_a W))) (Proc.devRef .tc r) = W (Proc.devRef .tc r) :=
  (st_keep st_d mem_d _ r h).trans ((st_keep st_c mem_c _ r h).trans ((st_keep st_b mem_b _ r h).trans (st_keep st_a mem_a W r h)))

/-- The reference's result as the layer's function of the launch contents. -/
theorem result_eq :
    after st_g (after st_f (after st_e (after st_d (after st_c (after st_b (after st_a W)))))) (Proc.devRef .tc main_v103)
      = tailVec (addf (W (Proc.devRef .tc main_arg0)) (attnOf (W (Proc.devRef .tc main_arg0)) (W (Proc.devRef .tc main_arg1)) (W (Proc.devRef .tc main_arg2))
            (W (Proc.devRef .tc main_arg3)) (W (Proc.devRef .tc main_arg4)) (W (Proc.devRef .tc main_arg5)) (W (Proc.devRef .tc main_arg6))))
          (W (Proc.devRef .tc main_arg7)) (W (Proc.devRef .tc main_arg8)) (W (Proc.devRef .tc main_arg9)) (W (Proc.devRef .tc main_arg10))
          (W (Proc.devRef .tc main_arg11)) (W (Proc.devRef .tc main_arg12)) (W (Proc.devRef .tc main_arg13)) (W (Proc.devRef .tc main_arg14)) := by
  rw [read_out, read_block, read_hsum, arg_d W main_arg9 (by decide), arg_d W main_arg10 (by decide),
    arg_a W main_arg7 (by decide), arg_a W main_arg8 (by decide), arg_a W main_arg11 (by decide), arg_a W main_arg12 (by decide),
    arg_a W main_arg13 (by decide), arg_a W main_arg14 (by decide)]
  rfl

end Cert.ReferenceIdeal.Hand

end
-- ==== Proof.Bridge.lean ====
/-
  The two idealized programs compute one function. The kernel's pipeline ends with its result array at the tail of the layer (in row
  form) of the launch contents and the attention quotient, which is the tail in vector form of the residual sum; the reference's line
  ends with its result buffer at the same tail of the same residual sum of its own launch contents; and the two launch memories agree
  on the fifteen arguments. No entry is asked to be finite: both sides are the same operations applied in the same order.
-/
import proofs.«116564_j90065464197253_2_alg».proof.Defs
import proofs.«116564_j90065464197253_2_alg».proof.Proof.Gen.Pre_finite_inputs
import proofs.«116564_j90065464197253_2_alg».proof.Proof.Gen.Kernel
import proofs.«116564_j90065464197253_2_alg».proof.Proof.Gen.KernelIdeal
import proofs.«116564_j90065464197253_2_alg».proof.Proof.Gen.ReferenceIdeal
import proofs.«116564_j90065464197253_2_alg».proof.Proof.KI.RunValue
import proofs.«116564_j90065464197253_2_alg».proof.Proof.KI.Glue2
import proofs.«116564_j90065464197253_2_alg».proof.Proof.KI.Glue3
import proofs.«116564_j90065464197253_2_alg».proof.Proof.RI.Reads

set_option maxRecDepth 16384

noncomputable section

namespace Cert.Bridge

open Idealize.ShloMosaic Idealize.ShloMosaic.TcCoe Idealize.SL.Sem Cert.Spec

/-- The kernel's result array as the layer's function of its launch memory. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.o4_5 m c
      = tailVec (addf (m ((c.tc : Thread Cert.KernelIdeal.nD Cert.KernelIdeal.τ).loc Cert.KernelIdeal.main_arg0)) (attnOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  rw [Cert.KernelIdeal.Hand.k_out, Cert.KernelIdeal.Hand.k_attn, tailRows_eq]
  rfl

theorem algebraic : Cert.algebraic_KernelIdeal_ReferenceIdeal := by
  intro m ρ m' ρ' _ hagree
  refine ⟨fun c => Cert.KernelIdeal.Hand.o4_5 m c, Cert.KernelIdeal.Hand.run m ρ, ?_⟩
  refine (θ_run Cert.ReferenceIdeal.defs _ _).mono (fun r h c => ⟨(h c).1.trans ?_, (h c).2⟩) (Cert.ReferenceIdeal.Hand.run m' ρ')
  obtain ⟨h0, h1, h2, h3, h4, h5, h6, h7, h8, h9, h10, h11, h12, h13, h14⟩ := hagree c
  rw [Cert.ReferenceIdeal.Hand.result_eq]
  show _ = Cert.KernelIdeal.Hand.o4_5 m c
  rw [kernel_result]
  have e0 : StableHlo.launchContents m' c (Proc.devRef .tc Cert.ReferenceIdeal.main_arg0) = m ((c.tc : Thread Cert.KernelIdeal.nD Cert.KernelIdeal.τ).loc Cert.KernelIdeal.main_arg0) := h0
  have e1 : StableHlo.launchContents m' c (Proc.devRef .tc Cert.ReferenceIdeal.main_arg1) = m ((c.tc : Thread Cert.KernelIdeal.nD Cert.KernelIdeal.τ).loc Cert.KernelIdeal.main_arg1) := h1
  have e2 : StableHlo.launchContents m' c (Proc.devRef .tc Cert.ReferenceIdeal.main_arg2) = m ((c.tc : Thread Cert.KernelIdeal.nD Cert.KernelIdeal.τ).loc Cert.KernelIdeal.main_arg2) := h2
  have e3 : StableHlo.launchContents m' c (Proc.devRef .tc Cert.ReferenceIdeal.main_arg3) = m ((c.tc : Thread Cert.KernelIdeal.nD Cert.KernelIdeal.τ).loc Cert.KernelIdeal.main_arg3) := h3
  have e4 : StableHlo.launchContents m' c (Proc.devRef .tc Cert.ReferenceIdeal.main_arg4) = m ((c.tc : Thread Cert.KernelIdeal.nD Cert.KernelIdeal.τ).loc Cert.KernelIdeal.main_arg4) := h4
  have e5 : StableHlo.launchContents m' c (Proc.devRef .tc Cert.ReferenceIdeal.main_arg5) = m ((c.tc : Thread Cert.KernelIdeal.nD Cert.KernelIdeal.τ).loc Cert.KernelIdeal.main_arg5) := h5
  have e6 : StableHlo.launchContents m' c (Proc.devRef .tc Cert.ReferenceIdeal.main_arg6) = m ((c.tc : Thread Cert.KernelIdeal.nD Cert.KernelIdeal.τ).loc Cert.KernelIdeal.main_arg6) := h6
  have e7 : StableHlo.launchContents m' c (Proc.devRef .tc Cert.ReferenceIdeal.main_arg7) = m ((c.tc : Thread Cert.KernelIdeal.nD Cert.KernelIdeal.τ).loc Cert.KernelIdeal.main_arg7) := h7
  have e8 : StableHlo.launchContents m' c (Proc.devRef .tc Cert.ReferenceIdeal.main_arg8) = m ((c.tc : Thread Cert.KernelIdeal.nD Cert.KernelIdeal.τ).loc Cert.KernelIdeal.main_arg8) := h8
  have e9 : StableHlo.launchContents m' c (Proc.devRef .tc Cert.ReferenceIdeal.main_arg9) = m ((c.tc : Thread Cert.KernelIdeal.nD Cert.KernelIdeal.τ).loc Cert.KernelIdeal.main_arg9) := h9
  have e10 : StableHlo.launchContents m' c (Proc.devRef .tc Cert.ReferenceIdeal.main_arg10) = m ((c.tc : Thread Cert.KernelIdeal.nD Cert.KernelIdeal.τ).loc Cert.KernelIdeal.main_arg10) := h10
  have e11 : StableHlo.launchContents m' c (Proc.devRef .tc Cert.ReferenceIdeal.main_arg11) = m ((c.tc : Thread Cert.KernelIdeal.nD Cert.KernelIdeal.τ).loc Cert.KernelIdeal.main_arg11) := h11
  have e12 : StableHlo.launchContents m' c (Proc.devRef .tc Cert.ReferenceIdeal.main_arg12) = m ((c.tc : Thread Cert.KernelIdeal.nD Cert.KernelIdeal.τ).loc Cert.KernelIdeal.main_arg12) := h12
  have e13 : StableHlo.launchContents m' c (Proc.devRef .tc Cert.ReferenceIdeal.main_arg13) = m ((c.tc : Thread Cert.KernelIdeal.nD Cert.KernelIdeal.τ).loc Cert.KernelIdeal.main_arg13) := h13
  have e14 : StableHlo.launchContents m' c (Proc.devRef .tc Cert.ReferenceIdeal.main_arg14) = m ((c.tc : Thread Cert.KernelIdeal.nD Cert.KernelIdeal.τ).loc Cert.KernelIdeal.main_arg14) := h14
  rw [e0, e1, e2, e3, e4, e5, e6, e7, e8, e9, e10, e11, e12, e13, e14]

end Cert.Bridge

end
-- ==== Proof.lean ====
/-
  The certificate of one graph-transformer layer: edge-based sparse attention with a scatter-added softmax-like quotient, a residual
  batch normalisation over the nodes, a feed-forward block with its residual, and a second batch normalisation. The kernel is a
  pipeline of five regions — the fused query/key/value projection, the edge projection, the per-edge weights and messages, the first
  normalisation fused with the feed-forward block, the second normalisation — between host gathers, scatter-adds and column
  statistics; the reference is one line of host operations.

  Frames: each kernel region's body is run at a generic grid point and the five regions are chained through the host stretches;
  the reference's line is run whole. Nothing is rewritten by the idealization, so it preserves the kernel trivially. At the extended
  reals both programs compute the same function of the arguments: each region's output array is the reference's whole-array term for
  that stage (rows of a product are the product of the rows; every other operation acts entry by entry or row by row), a column slice
  of the fused projection is the separate projection, and the kernel program's row-shaped column statistics are the reference's
  vectors lifted to rows.
-/
import proofs.«116564_j90065464197253_2_alg».proof.Defs
import proofs.«116564_j90065464197253_2_alg».proof.Proof.Gen.Kernel
import proofs.«116564_j90065464197253_2_alg».proof.Proof.Gen.KernelIdeal
import proofs.«116564_j90065464197253_2_alg».proof.Proof.Gen.ReferenceIdeal
import proofs.«116564_j90065464197253_2_alg».proof.Proof.Gen.Pre_finite_inputs
import proofs.«116564_j90065464197253_2_alg».proof.Proof.K.Frame
import proofs.«116564_j90065464197253_2_alg».proof.Proof.KI.Frame
import proofs.«116564_j90065464197253_2_alg».proof.Proof.RI.Line
import proofs.«116564_j90065464197253_2_alg».proof.Proof.Bridge

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
